-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x768 : Shape := ⟨2, ![128, 768]⟩
abbrev S_ : Shape := ⟨0, ![]⟩
abbrev S1024x768 : Shape := ⟨2, ![1024, 768]⟩
abbrev S1024 : Shape := ⟨1, ![1024]⟩
abbrev S128x577x768 : Shape := ⟨3, ![128, 577, 768]⟩

class Facts : Prop where
  bcast_S_S128x768 : S_.BroadcastsInDim S128x768 (![] : Fin 0 → Fin S128x768.rank)
  reducesTo_S128x768_S_d0_1 : S128x768.ReducesTo [0, 1] S_
  h_S_ : 0 < S_.numel
  reducesTo_S_S_d : S_.ReducesTo [] S_
  bcast_S_S1024x768 : S_.BroadcastsInDim S1024x768 (![] : Fin 0 → Fin S1024x768.rank)
  reducesTo_S1024x768_S_d0_1 : S1024x768.ReducesTo [0, 1] S_
  bcast_S_S128x577x768 : S_.BroadcastsInDim S128x577x768 (![] : Fin 0 → Fin S128x577x768.rank)
  reducesTo_S128x577x768_S_d0_1_2 : S128x577x768.ReducesTo [0, 1, 2] S_

variable [Facts]

def fn_part1 {F : FTy → Type} [FloatOps F] (main_arg4 : FVec F S1024x768 .f32) (main_arg6 : FVec F S128x577x768 .f32) (main_v12 : IVec S_ 1) (main_v15 : IVec S_ 1) : IVec S_ 1 :=
  let main_v16 : IVec S_ 1 := andi main_v12 main_v15
  let main_v17 : FVec F S1024x768 .f32 := Host.absf main_arg4
  let main_cst_6 : FVec F S_ .f32 := constant S_ .f32 0x7F800000#32
  let main_v18 : FVec F S1024x768 .f32 := broadcastInDim S1024x768 ![] bcast_S_S1024x768 main_cst_6
  let main_v19 : IVec S1024x768 1 := cmpf .olt main_v17 main_v18
  let main_c_7 : IVec S_ 1 := constantI S_ 1 1#1
  let main_v20 : IVec S_ 1 := (fun x v => Host.reduce IntOp.andi x v reducesTo_S1024x768_S_d0_1 h_S_) main_v19 main_c_7
  let main_v21 : IVec S_ 1 := andi main_v16 main_v20
  let main_v22 : FVec F S128x577x768 .f32 := Host.absf main_arg6
  let main_cst_8 : FVec F S_ .f32 := constant S_ .f32 0x7F800000#32
  let main_v23 : FVec F S128x577x768 .f32 := broadcastInDim S128x577x768 ![] bcast_S_S128x577x768 main_cst_8
  let main_v24 : IVec S128x577x768 1 := cmpf .olt main_v22 main_v23
  let main_c_9 : IVec S_ 1 := constantI S_ 1 1#1
  let main_v25 : IVec S_ 1 := (fun x v => Host.reduce IntOp.andi x v reducesTo_S128x577x768_S_d0_1_2 h_S_) main_v24 main_c_9
  let main_v26 : IVec S_ 1 := andi main_v21 main_v25
  main_v26

def fn {F : FTy → Type} [FloatOps F] (main_arg0 : FVec F S128x768 .f32) (main_arg1 : FVec F S128x768 .f32) (main_arg2 : FVec F S_ .f32) (main_arg3 : FVec F S_ .f32) (main_arg4 : FVec F S1024x768 .f32) (main_arg5 : IVec S1024 32) (main_arg6 : FVec F S128x577x768 .f32) : IVec S_ 1 :=
  let main_v0 : FVec F S128x768 .f32 := Host.absf main_arg0
  let main_cst : FVec F S_ .f32 := constant S_ .f32 0x7F800000#32
  let main_v1 : FVec F S128x768 .f32 := broadcastInDim S128x768 ![] bcast_S_S128x768 main_cst
  let main_v2 : IVec S128x768 1 := cmpf .olt main_v0 main_v1
  let main_c : IVec S_ 1 := constantI S_ 1 1#1
  let main_v3 : IVec S_ 1 := (fun x v => Host.reduce IntOp.andi x v reducesTo_S128x768_S_d0_1 h_S_) main_v2 main_c
  let main_v4 : FVec F S128x768 .f32 := Host.absf main_arg1
  let main_cst_0 : FVec F S_ .f32 := constant S_ .f32 0x7F800000#32
  let main_v5 : FVec F S128x768 .f32 := broadcastInDim S128x768 ![] bcast_S_S128x768 main_cst_0
  let main_v6 : IVec S128x768 1 := cmpf .olt main_v4 main_v5
  let main_c_1 : IVec S_ 1 := constantI S_ 1 1#1
  let main_v7 : IVec S_ 1 := (fun x v => Host.reduce IntOp.andi x v reducesTo_S128x768_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S_ .f32 := Host.absf main_arg3
  let main_cst_4 : FVec F S_ .f32 := constant S_ .f32 0x7F800000#32
  let main_v14 : IVec S_ 1 := cmpf .olt main_v13 main_cst_4
  let main_c_5 : IVec S_ 1 := constantI S_ 1 1#1
  let main_v15 : IVec S_ 1 := (fun x v => Host.reduce IntOp.andi x v reducesTo_S_S_d h_S_) main_v14 main_c_5
  fn_part1 (F := F) main_arg4 main_arg6 main_v12 main_v15
-- ==== Kernel.lean ====
abbrev S128x768 : Shape := ⟨2, ![128, 768]⟩
abbrev S_ : Shape := ⟨0, ![]⟩
abbrev S1024x768 : Shape := ⟨2, ![1024, 768]⟩
abbrev S1024 : Shape := ⟨1, ![1024]⟩
abbrev S128x577x768 : Shape := ⟨3, ![128, 577, 768]⟩
abbrev S768x128 : Shape := ⟨2, ![768, 128]⟩
abbrev S128x128 : Shape := ⟨2, ![128, 128]⟩
abbrev S1x1024 : Shape := ⟨2, ![1, 1024]⟩
abbrev S128 : Shape := ⟨1, ![128]⟩
abbrev S128x1 : Shape := ⟨2, ![128, 1]⟩
abbrev S128x1024 : Shape := ⟨2, ![128, 1024]⟩
abbrev S768x1024 : Shape := ⟨2, ![768, 1024]⟩
abbrev S8x577x768 : Shape := ⟨3, ![8, 577, 768]⟩
abbrev S8x1024 : Shape := ⟨2, ![8, 1024]⟩
abbrev S1x577x768 : Shape := ⟨3, ![1, 577, 768]⟩
abbrev S577x768 : Shape := ⟨2, ![577, 768]⟩
abbrev S577x1024 : Shape := ⟨2, ![577, 1024]⟩
abbrev S577 : Shape := ⟨1, ![577]⟩
abbrev S577x1 : Shape := ⟨2, ![577, 1]⟩
abbrev S768x577 : Shape := ⟨2, ![768, 577]⟩

abbrev nBuf : Space → Nat
  | .hbm => 129
  | .vmem => 7
  | .smem => 0
  | _ => 0

abbrev hbmTy0_0 (i : Nat) : BufTy := match i % 128 with
  | 0 => ⟨S128x768, .f32⟩
  | 1 => ⟨S128x768, .f32⟩
  | 2 => ⟨S_, .f32⟩
  | 3 => ⟨S_, .f32⟩
  | 4 => ⟨S1024x768, .f32⟩
  | 5 => ⟨S1024, .i32⟩
  | 6 => ⟨S128x577x768, .f32⟩
  | 7 => ⟨S768x128, .f32⟩
  | 8 => ⟨S128x128, .f32⟩
  | 9 => ⟨S128x128, .f32⟩
  | 10 => ⟨S128x128, .f32⟩
  | 11 => ⟨S128x128, .f32⟩
  | 12 => ⟨S128x128, .f32⟩
  | 13 => ⟨S128x128, .i32⟩
  | 14 => ⟨S128x128, .i32⟩
  | 15 => ⟨S_, .i32⟩
  | 16 => ⟨S128x128, .i32⟩
  | 17 => ⟨S128x128, .i32⟩
  | 18 => ⟨S128x128, .i1⟩
  | 19 => ⟨S128x128, .f32⟩
  | 20 => ⟨S_, .f32⟩
  | 21 => ⟨S128x128, .f32⟩
  | 22 => ⟨S128x128, .f32⟩
  | 23 => ⟨S_, .f32⟩
  | 24 => ⟨S128x128, .f32⟩
  | 25 => ⟨S128x128, .f32⟩
  | 26 => ⟨S128x128, .f32⟩
  | 27 => ⟨S128x128, .f32⟩
  | 28 => ⟨S_, .f32⟩
  | 29 => ⟨S128x128, .f32⟩
  | 30 => ⟨S128x128, .f32⟩
  | 31 => ⟨S128x128, .f32⟩
  | 32 => ⟨S128x128, .f32⟩
  | 33 => ⟨S128x128, .i1⟩
  | 34 => ⟨S128x128, .f32⟩
  | 35 => ⟨S128x128, .f32⟩
  | 36 => ⟨S128x128, .f32⟩
  | 37 => ⟨S128x128, .f32⟩
  | 38 => ⟨S128x128, .f32⟩
  | 39 => ⟨S128x128, .f32⟩
  | 40 => ⟨S128x128, .f32⟩
  | 41 => ⟨S128x128, .f32⟩
  | 42 => ⟨S128x128, .f32⟩
  | 43 => ⟨S_, .f32⟩
  | 44 => ⟨S_, .f32⟩
  | 45 => ⟨S_, .f32⟩
  | 46 => ⟨S_, .f32⟩
  | 47 => ⟨S_, .f32⟩
  | 48 => ⟨S1x1024, .i32⟩
  | 49 => ⟨S128, .i32⟩
  | 50 => ⟨S128x1, .i32⟩
  | 51 => ⟨S128x1024, .i32⟩
  | 52 => ⟨S128x1024, .i32⟩
  | 53 => ⟨S128x1024, .i1⟩
  | 54 => ⟨S_, .f32⟩
  | 55 => ⟨S_, .f32⟩
  | 56 => ⟨S128x1024, .f32⟩
  | 57 => ⟨S128x1024, .f32⟩
  | 58 => ⟨S128x1024, .f32⟩
  | 59 => ⟨S128x1024, .f32⟩
  | 60 => ⟨S768x1024, .f32⟩
  | 61 => ⟨S128x1024, .f32⟩
  | 62 => ⟨S128x1024, .f32⟩
  | 63 => ⟨S128x1024, .f32⟩
  | 64 => ⟨S128x1024, .f32⟩
  | 65 => ⟨S128x1024, .f32⟩
  | 66 => ⟨S128x1024, .f32⟩
  | 67 => ⟨S128x1024, .f32⟩
  | 68 => ⟨S_, .f32⟩
  | 69 => ⟨S128x1024, .f32⟩
  | 70 => ⟨S128x1024, .f32⟩
  | 71 => ⟨S128x1024, .f32⟩
  | 72 => ⟨S128x1024, .f32⟩
  | 73 => ⟨S128x1024, .i1⟩
  | 74 => ⟨S128x1024, .f32⟩
  | 75 => ⟨S128x1024, .f32⟩
  | 76 => ⟨S128x1024, .f32⟩
  | 77 => ⟨S128x1024, .f32⟩
  | 78 => ⟨S128x1024, .f32⟩
  | 79 => ⟨S128x1024, .f32⟩
  | 80 => ⟨S128x1024, .f32⟩
  | 81 => ⟨S128x1024, .f32⟩
  | 82 => ⟨S128x1024, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S1024x768, .bf16⟩
  | 91 => ⟨S128x577x768, .bf16⟩
  | 92 => ⟨S768x1024, .f32⟩
  | 93 => ⟨S1024x768, .f32⟩
  | 94 => ⟨S_, .f32⟩
  | 95 => ⟨S1024, .f32⟩
  | 96 => ⟨S1024, .f32⟩
  | 97 => ⟨S1x1024, .f32⟩
  | 98 => ⟨S128x1024, .f32⟩
  | 99 => ⟨S128x1024, .f32⟩
  | 100 => ⟨S128x1024, .f32⟩
  | 101 => ⟨S128x1024, .f32⟩
  | 102 => ⟨S128x1024, .f32⟩
  | 103 => ⟨S128x1024, .f32⟩
  | 104 => ⟨S128x1024, .f32⟩
  | 105 => ⟨S_, .f32⟩
  | 106 => ⟨S128x1024, .f32⟩
  | 107 => ⟨S128x1024, .f32⟩
  | 108 => ⟨S128x1024, .f32⟩
  | 109 => ⟨S128x1024, .f32⟩
  | 110 => ⟨S128x1024, .i1⟩
  | 111 => ⟨S128x1024, .f32⟩
  | 112 => ⟨S128x1024, .f32⟩
  | 113 => ⟨S128x1024, .f32⟩
  | 114 => ⟨S128x1024, .f32⟩
  | 115 => ⟨S128x1024, .f32⟩
  | 116 => ⟨S128x1024, .f32⟩
  | 117 => ⟨S128x1024, .f32⟩
  | 118 => ⟨S128x1024, .f32⟩
  | 119 => ⟨S128x1024, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S128x768, .f32⟩

abbrev hbmTy0_1 (i : Nat) : BufTy := match i % 128 with
  | 0 => ⟨S_, .f32⟩
  | _ => ⟨S128x768, .f32⟩

abbrev hbmTy (i : Nat) : BufTy := match i / 128 with
  | 0 => hbmTy0_0 i
  | 1 => hbmTy0_1 i
  | _ => ⟨S128x768, .f32⟩

abbrev bufTy : (tb : Table) → Fin (tcTables nBuf tb) → BufTy
  | .hbm, ⟨i, _⟩ => hbmTy i
  | .local _ .vmem, ⟨0, _⟩ => ⟨S8x577x768, .bf16⟩
  | .local _ .vmem, ⟨1, _⟩ => ⟨S8x577x768, .bf16⟩
  | .local _ .vmem, ⟨2, _⟩ => ⟨S1024x768, .bf16⟩
  | .local _ .vmem, ⟨3, _⟩ => ⟨S768x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1 : Ref sig .tc := ⟨.hbm, 41, rfl⟩
abbrev main_v17 : Ref sig .tc := ⟨.hbm, 42, rfl⟩
abbrev main_cst_1 : Ref sig .tc := ⟨.hbm, 43, rfl⟩
abbrev main_v18 : Ref sig .tc := ⟨.hbm, 44, rfl⟩
abbrev main_v19 : Ref sig .tc := ⟨.hbm, 45, rfl⟩
abbrev main_cst_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_3 : Ref sig .tc := ⟨.hbm, 54, rfl⟩
abbrev main_cst_4 : Ref sig .tc := ⟨.hbm, 55, rfl⟩
abbrev main_call1_v0 : Ref sig .tc := ⟨.hbm, 56, rfl⟩
abbrev main_call1_v1 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_call2_v0 : Ref sig .tc := ⟨.hbm, 67, rfl⟩
abbrev main_call2_call0_cst : Ref sig .tc := ⟨.hbm, 68, rfl⟩
abbrev main_call2_call0_v0 : Ref sig .tc := ⟨.hbm, 69, rfl⟩
abbrev main_call2_call0_v1 : Ref sig .tc := ⟨.hbm, 70, rfl⟩
abbrev main_call2_call0_v2 : Ref sig .tc := ⟨.hbm, 71, rfl⟩
abbrev main_call2_call0_v3 : Ref sig .tc := ⟨.hbm, 72, rfl⟩
abbrev main_call2_call0_v4 : Ref sig .tc := ⟨.hbm, 73, rfl⟩
abbrev main_call2_call0_v5 : Ref sig .tc := ⟨.hbm, 74, rfl⟩
abbrev main_call2_call0_v6 : Ref sig .tc := ⟨.hbm, 75, rfl⟩
abbrev main_call2_call0_v7 : Ref sig .tc := ⟨.hbm, 76, rfl⟩
abbrev main_call2_call0_v8 : Ref sig .tc := ⟨.hbm, 77, rfl⟩
abbrev main_call2_call0_v9 : Ref sig .tc := ⟨.hbm, 78, rfl⟩
abbrev main_call2_call0_v10 : Ref sig .tc := ⟨.hbm, 79, rfl⟩
abbrev main_call2_call0_v11 : Ref sig .tc := ⟨.hbm, 80, rfl⟩
abbrev main_call2_v1 : Ref sig .tc := ⟨.hbm, 81, rfl⟩
abbrev main_v36 : Ref sig .tc := ⟨.hbm, 82, rfl⟩
abbrev main_cst_5 : Ref sig .tc := ⟨.hbm, 83, rfl⟩
abbrev main_v37 : Ref sig .tc := ⟨.hbm, 84, rfl⟩
abbrev main_v38 : Ref sig .tc := ⟨.hbm, 85, rfl⟩
abbrev main_cst_6 : Ref sig .tc := ⟨.hbm, 86, rfl⟩
abbrev main_v39 : Ref sig .tc := ⟨.hbm, 87, rfl⟩
abbrev main_cst_7 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_cst_8 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_call3_v0 : Ref sig .tc := ⟨.hbm, 104, rfl⟩
abbrev main_call3_call0_cst : Ref sig .tc := ⟨.hbm, 105, rfl⟩
abbrev main_call3_call0_v0 : Ref sig .tc := ⟨.hbm, 106, rfl⟩
abbrev main_call3_call0_v1 : Ref sig .tc := ⟨.hbm, 107, rfl⟩
abbrev main_call3_call0_v2 : Ref sig .tc := ⟨.hbm, 108, rfl⟩
abbrev main_call3_call0_v3 : Ref sig .tc := ⟨.hbm, 109, rfl⟩
abbrev main_call3_call0_v4 : Ref sig .tc := ⟨.hbm, 110, rfl⟩
abbrev main_call3_call0_v5 : Ref sig .tc := ⟨.hbm, 111, rfl⟩
abbrev main_call3_call0_v6 : Ref sig .tc := ⟨.hbm, 112, rfl⟩
abbrev main_call3_call0_v7 : Ref sig .tc := ⟨.hbm, 113, rfl⟩
abbrev main_call3_call0_v8 : Ref sig .tc := ⟨.hbm, 114, rfl⟩
abbrev main_call3_call0_v9 : Ref sig .tc := ⟨.hbm, 115, rfl⟩
abbrev main_call3_call0_v10 : Ref sig .tc := ⟨.hbm, 116, rfl⟩
abbrev main_call3_call0_v11 : Ref sig .tc := ⟨.hbm, 117, rfl⟩
abbrev main_call3_v1 : Ref sig .tc := ⟨.hbm, 118, rfl⟩
abbrev main_v54 : Ref sig .tc := ⟨.hbm, 119, rfl⟩
abbrev main_cst_9 : Ref sig .tc := ⟨.hbm, 120, rfl⟩
abbrev main_v55 : Ref sig .tc := ⟨.hbm, 121, rfl⟩
abbrev main_v56 : Ref sig .tc := ⟨.hbm, 122, rfl⟩
abbrev main_cst_10 : Ref sig .tc := ⟨.hbm, 123, rfl⟩
abbrev main_v57 : Ref sig .tc := ⟨.hbm, 124, rfl⟩
abbrev main_cst_11 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k0_off1 (k0_t1 : Fin k0_t1_loop.trips) : Fin 3 → Nat :=
  let c0_i32 : BitVec 32 := 0#32
  let c1_i32 : BitVec 32 := 1#32
  let arg6 : BitVec 32 := Scf.iv c0_i32 c1_i32 k0_t1
  let v8 : Index := Scalar.indexCast arg6
  let c0_6 : Index := 0#32
  let c0_7 : Index := 0#32
  ![v8.toNat, 0, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let v51 : Index := Scalar.indexCast arg6
  let c0_19 : Index := 0#32
  ![v51.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x577x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x768_S768x128_1_0 : S128x768.Transposes [1, 0] S768x128
  bcast_S_S128x128 : S_.BroadcastsInDim S128x128 (![] : Fin 0 → Fin S128x128.rank)
  reducesTo_S128x128_S_d0_1 : S128x128.ReducesTo [0, 1] S_
  h_S_ : 0 < S_.numel
  bcast_S1024_S1x1024_1 : S1024.BroadcastsInDim S1x1024 (![1] : Fin 1 → Fin S1x1024.rank)
  bcast_S128_S128x1_0 : S128.BroadcastsInDim S128x1 (![0] : Fin 1 → Fin S128x1.rank)
  bcast_S1x1024_S128x1024_0_1 : S1x1024.BroadcastsInDim S128x1024 (![0, 1] : Fin 2 → Fin S128x1024.rank)
  bcast_S128x1_S128x1024_0_1 : S128x1.BroadcastsInDim S128x1024 (![0, 1] : Fin 2 → Fin S128x1024.rank)
  bcast_S_S128x1024 : S_.BroadcastsInDim S128x1024 (![] : Fin 0 → Fin S128x1024.rank)
  transposes_S1024x768_S768x1024_1_0 : S1024x768.Transposes [1, 0] S768x1024
  reducesTo_S128x1024_S_d0_1 : S128x1024.ReducesTo [0, 1] S_
  bitsLt_bf16_f32 : FTy.bits .bf16 < FTy.bits .f32
  reducesTo_S1024x768_S1024_d1 : S1024x768.ReducesTo [1] S1024
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  transposes_S1024x768_p1_0_S768x1024 : S1024x768.Transposes [1, 0] S768x1024
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  h_S1x577x768 : 0 < S1x577x768.numel
  shapeCasts_S1x577x768_S577x768 : S1x577x768.ShapeCasts S577x768
  reduces_S577x1024_S577 : S577x1024.Reduces [1] S577
  shapeCasts_S577_S577x1 : S577.ShapeCasts S577x1
  broadcasts_S577x1_S577x1024 : S577x1.Broadcasts S577x1024
  reduces_S577x1024_S1024 : S577x1024.Reduces [0] S1024
  shapeCasts_S1024_S1x1024 : S1024.ShapeCasts S1x1024
  broadcasts_S1x1024_S577x1024 : S1x1024.Broadcasts S577x1024
  transposes_S577x768_p1_0_S768x577 : S577x768.Transposes [1, 0] S768x577
  reduces_S768x1024_S1024 : S768x1024.Reduces [0] S1024
  shapeCasts_S1x1024_S1024 : S1x1024.ShapeCasts S1024
  dot_S128x768_S768x128_S128x128_1_0_0_1_n_n_wf : DotDims.WF S128x768 S768x128 S128x128 [1] [0] [0] [1] [] []
  dot_S128x768_S768x1024_S128x1024_1_0_0_1_n_n_wf : DotDims.WF S128x768 S768x1024 S128x1024 [1] [0] [0] [1] [] []
  dot_S577x768_S768x1024_S577x1024_1_0_0_1_n_n_wf : DotDims.WF S577x768 S768x1024 S577x1024 [1] [0] [0] [1] [] []
  dot_S768x577_S577x1024_S768x1024_1_0_0_1_n_n_wf : DotDims.WF S768x577 S577x1024 S768x1024 [1] [0] [0] [1] [] []
  hrank0 : 0 < grid0.rank
  k0_t1_ok : k0_t1_loop.OK
  k0_off1_inb : ∀ k0_t1 : Fin k0_t1_loop.trips, ∀ a, (k0_off1 k0_t1) a + S1x577x768.size a ≤ S8x577x768.size a
  k0_off2_inb : ∀ k0_t1 : Fin k0_t1_loop.trips, ∀ a, (k0_off2 k0_t1) a + S1x1024.size a ≤ S8x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x577x768.size a ≤ S128x577x768.size a
  hwx0_0 : ∀ i : grid0.Coords, EltTy.bits .bf16 = 32 ∨ (Rect.block (s := S128x577x768) S8x577x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S1024x768.size a
  hwx0_1 : ∀ i : grid0.Coords, EltTy.bits .bf16 = 32 ∨ (Rect.block (s := S1024x768) S1024x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x1024.size a ≤ S768x1024.size a
  hwx0_2 : ∀ i : grid0.Coords, EltTy.bits .f32 = 32 ∨ (Rect.block (s := S768x1024) S768x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S128x1024.size a
  hwx0_4 : ∀ i : grid0.Coords, EltTy.bits .f32 = 32 ∨ (Rect.block (s := S128x1024) S8x1024.size (cc0_transform_4 i) (hinb0_4 i)).WholeWords (EltTy.packing .f32)

variable [Facts₀]

def dot_S128x768_S768x128_S128x128_1_0_0_1_n_n : DotDims S128x768 S768x128 S128x128 where
  lhsContracting := [1]
  rhsContracting := [0]
  lhsNonContracting := [0]
  rhsNonContracting := [1]
  lhsBatch := []
  rhsBatch := []
  wf := dot_S128x768_S768x128_S128x128_1_0_0_1_n_n_wf
def dot_S128x768_S768x1024_S128x1024_1_0_0_1_n_n : DotDims S128x768 S768x1024 S128x1024 where
  lhsContracting := [1]
  rhsContracting := [0]
  lhsNonContracting := [0]
  rhsNonContracting := [1]
  lhsBatch := []
  rhsBatch := []
  wf := dot_S128x768_S768x1024_S128x1024_1_0_0_1_n_n_wf
def dot_S577x768_S768x1024_S577x1024_1_0_0_1_n_n : DotDims S577x768 S768x1024 S577x1024 where
  lhsContracting := [1]
  rhsContracting := [0]
  lhsNonContracting := [0]
  rhsNonContracting := [1]
  lhsBatch := []
  rhsBatch := []
  wf := dot_S577x768_S768x1024_S577x1024_1_0_0_1_n_n_wf
def dot_S768x577_S577x1024_S768x1024_1_0_0_1_n_n : DotDims S768x577 S577x1024 S768x1024 where
  lhsContracting := [1]
  rhsContracting := [0]
  lhsNonContracting := [0]
  rhsNonContracting := [1]
  lhsBatch := []
  rhsBatch := []
  wf := dot_S768x577_S577x1024_S768x1024_1_0_0_1_n_n_wf

abbrev win0_0 : Pipeline.Window sig grid0 :=
  Pipeline.Window.ofSpec (Memref.whole main_v42) S8x577x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S1024x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S768x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v48) S8x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x768 : Shape := ⟨2, ![128, 768]⟩
abbrev S_ : Shape := ⟨0, ![]⟩
abbrev S1024x768 : Shape := ⟨2, ![1024, 768]⟩
abbrev S1024 : Shape := ⟨1, ![1024]⟩
abbrev S128x577x768 : Shape := ⟨3, ![128, 577, 768]⟩
abbrev S768x128 : Shape := ⟨2, ![768, 128]⟩
abbrev S128x128 : Shape := ⟨2, ![128, 128]⟩
abbrev S1x1024 : Shape := ⟨2, ![1, 1024]⟩
abbrev S128 : Shape := ⟨1, ![128]⟩
abbrev S128x1 : Shape := ⟨2, ![128, 1]⟩
abbrev S128x1024 : Shape := ⟨2, ![128, 1024]⟩
abbrev S768x1024 : Shape := ⟨2, ![768, 1024]⟩
abbrev S128x577x1024 : Shape := ⟨3, ![128, 577, 1024]⟩
abbrev S128x577 : Shape := ⟨2, ![128, 577]⟩
abbrev S128x577x1 : Shape := ⟨3, ![128, 577, 1]⟩
abbrev S128x1024x577 : Shape := ⟨3, ![128, 1024, 577]⟩
abbrev S128x1024x1 : Shape := ⟨3, ![128, 1024, 1]⟩
abbrev S128x1024x768 : Shape := ⟨3, ![128, 1024, 768]⟩
abbrev S1x1024x768 : Shape := ⟨3, ![1, 1024, 768]⟩

abbrev nBuf : Space → Nat
  | .hbm => 176
  | .vmem => 0
  | .smem => 0
  | _ => 0

abbrev hbmTy0_0 (i : Nat) : BufTy := match i % 128 with
  | 0 => ⟨S128x768, .f32⟩
  | 1 => ⟨S128x768, .f32⟩
  | 2 => ⟨S_, .f32⟩
  | 3 => ⟨S_, .f32⟩
  | 4 => ⟨S1024x768, .f32⟩
  | 5 => ⟨S1024, .i32⟩
  | 6 => ⟨S128x577x768, .f32⟩
  | 7 => ⟨S768x128, .f32⟩
  | 8 => ⟨S128x128, .f32⟩
  | 9 => ⟨S128x128, .f32⟩
  | 10 => ⟨S128x128, .f32⟩
  | 11 => ⟨S128x128, .f32⟩
  | 12 => ⟨S128x128, .f32⟩
  | 13 => ⟨S128x128, .i32⟩
  | 14 => ⟨S128x128, .i32⟩
  | 15 => ⟨S_, .i32⟩
  | 16 => ⟨S128x128, .i32⟩
  | 17 => ⟨S128x128, .i32⟩
  | 18 => ⟨S128x128, .i1⟩
  | 19 => ⟨S128x128, .f32⟩
  | 20 => ⟨S_, .f32⟩
  | 21 => ⟨S128x128, .f32⟩
  | 22 => ⟨S128x128, .f32⟩
  | 23 => ⟨S_, .f32⟩
  | 24 => ⟨S128x128, .f32⟩
  | 25 => ⟨S128x128, .f32⟩
  | 26 => ⟨S128x128, .f32⟩
  | 27 => ⟨S128x128, .f32⟩
  | 28 => ⟨S_, .f32⟩
  | 29 => ⟨S128x128, .f32⟩
  | 30 => ⟨S128x128, .f32⟩
  | 31 => ⟨S128x128, .f32⟩
  | 32 => ⟨S128x128, .f32⟩
  | 33 => ⟨S128x128, .i1⟩
  | 34 => ⟨S128x128, .f32⟩
  | 35 => ⟨S128x128, .f32⟩
  | 36 => ⟨S128x128, .f32⟩
  | 37 => ⟨S128x128, .f32⟩
  | 38 => ⟨S128x128, .f32⟩
  | 39 => ⟨S128x128, .f32⟩
  | 40 => ⟨S128x128, .f32⟩
  | 41 => ⟨S128x128, .f32⟩
  | 42 => ⟨S128x128, .f32⟩
  | 43 => ⟨S_, .f32⟩
  | 44 => ⟨S_, .f32⟩
  | 45 => ⟨S_, .f32⟩
  | 46 => ⟨S_, .f32⟩
  | 47 => ⟨S_, .f32⟩
  | 48 => ⟨S1x1024, .i32⟩
  | 49 => ⟨S128, .i32⟩
  | 50 => ⟨S128x1, .i32⟩
  | 51 => ⟨S128x1024, .i32⟩
  | 52 => ⟨S128x1024, .i32⟩
  | 53 => ⟨S128x1024, .i1⟩
  | 54 => ⟨S_, .f32⟩
  | 55 => ⟨S_, .f32⟩
  | 56 => ⟨S128x1024, .f32⟩
  | 57 => ⟨S128x1024, .f32⟩
  | 58 => ⟨S128x1024, .f32⟩
  | 59 => ⟨S128x1024, .f32⟩
  | 60 => ⟨S768x1024, .f32⟩
  | 61 => ⟨S128x1024, .f32⟩
  | 62 => ⟨S128x1024, .f32⟩
  | 63 => ⟨S128x1024, .f32⟩
  | 64 => ⟨S128x1024, .f32⟩
  | 65 => ⟨S128x1024, .f32⟩
  | 66 => ⟨S128x1024, .f32⟩
  | 67 => ⟨S128x1024, .f32⟩
  | 68 => ⟨S_, .f32⟩
  | 69 => ⟨S128x1024, .f32⟩
  | 70 => ⟨S128x1024, .f32⟩
  | 71 => ⟨S128x1024, .f32⟩
  | 72 => ⟨S128x1024, .f32⟩
  | 73 => ⟨S128x1024, .i1⟩
  | 74 => ⟨S128x1024, .f32⟩
  | 75 => ⟨S128x1024, .f32⟩
  | 76 => ⟨S128x1024, .f32⟩
  | 77 => ⟨S128x1024, .f32⟩
  | 78 => ⟨S128x1024, .f32⟩
  | 79 => ⟨S128x1024, .f32⟩
  | 80 => ⟨S128x1024, .f32⟩
  | 81 => ⟨S128x1024, .f32⟩
  | 82 => ⟨S128x1024, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S128x577x1024, .f32⟩
  | 91 => ⟨S_, .f32⟩
  | 92 => ⟨S128x577x1024, .f32⟩
  | 93 => ⟨S128x577x1024, .i1⟩
  | 94 => ⟨S_, .f32⟩
  | 95 => ⟨S128x577x1024, .f32⟩
  | 96 => ⟨S128x577x1024, .f32⟩
  | 97 => ⟨S128x577x1024, .f32⟩
  | 98 => ⟨S128x577x1024, .f32⟩
  | 99 => ⟨S_, .f32⟩
  | 100 => ⟨S128x577, .f32⟩
  | 101 => ⟨S128x577x1, .f32⟩
  | 102 => ⟨S128x577x1, .f32⟩
  | 103 => ⟨S_, .f32⟩
  | 104 => ⟨S128x577x1, .f32⟩
  | 105 => ⟨S128x577x1, .f32⟩
  | 106 => ⟨S128x577x1024, .f32⟩
  | 107 => ⟨S128x577x1024, .f32⟩
  | 108 => ⟨S128x1024x577, .f32⟩
  | 109 => ⟨S_, .f32⟩
  | 110 => ⟨S128x1024x577, .f32⟩
  | 111 => ⟨S128x1024x577, .f32⟩
  | 112 => ⟨S_, .f32⟩
  | 113 => ⟨S128x1024, .f32⟩
  | 114 => ⟨S_, .f32⟩
  | 115 => ⟨S128x1024, .f32⟩
  | 116 => ⟨S128x1024, .f32⟩
  | 117 => ⟨S128x1024x1, .f32⟩
  | 118 => ⟨S128x1024x577, .f32⟩
  | 119 => ⟨S128x1024x577, .f32⟩
  | 120 => ⟨S128x1024x577, .f32⟩
  | 121 => ⟨S_, .f32⟩
  | 122 => ⟨S128x1024, .f32⟩
  | 123 => ⟨S128x1024x1, .f32⟩
  | 124 => ⟨S128x1024x577, .f32⟩
  | 125 => ⟨S128x1024x577, .f32⟩
  | 126 => ⟨S128x1024x768, .f32⟩
  | 127 => ⟨S1x1024x768, .f32⟩
  | _ => ⟨S128x768, .f32⟩

abbrev hbmTy0_1 (i : Nat) : BufTy := match i % 128 with
  | 0 => ⟨S128x1024x768, .f32⟩
  | 1 => ⟨S128x1024x768, .f32⟩
  | 2 => ⟨S_, .f32⟩
  | 3 => ⟨S128x1024, .f32⟩
  | 4 => ⟨S1x1024x768, .f32⟩
  | 5 => ⟨S_, .f32⟩
  | 6 => ⟨S1x1024, .f32⟩
  | 7 => ⟨S1x1024, .f32⟩
  | 8 => ⟨S128x1024x768, .f32⟩
  | 9 => ⟨S_, .f32⟩
  | 10 => ⟨S128x1024, .f32⟩
  | 11 => ⟨S128x1024, .f32⟩
  | 12 => ⟨S128x1024, .f32⟩
  | 13 => ⟨S128x1024, .f32⟩
  | 14 => ⟨S_, .f32⟩
  | 15 => ⟨S128x1024, .f32⟩
  | 16 => ⟨S128x1024, .f32⟩
  | 17 => ⟨S128x1024, .f32⟩
  | 18 => ⟨S128x1024, .f32⟩
  | 19 => ⟨S128x1024, .f32⟩
  | 20 => ⟨S128x1024, .f32⟩
  | 21 => ⟨S128x1024, .f32⟩
  | 22 => ⟨S128x1024, .f32⟩
  | 23 => ⟨S128x1024, .f32⟩
  | 24 => ⟨S_, .f32⟩
  | 25 => ⟨S128x1024, .f32⟩
  | 26 => ⟨S128x1024, .f32⟩
  | 27 => ⟨S128x1024, .f32⟩
  | 28 => ⟨S128x1024, .f32⟩
  | 29 => ⟨S128x1024, .i1⟩
  | 30 => ⟨S128x1024, .f32⟩
  | 31 => ⟨S128x1024, .f32⟩
  | 32 => ⟨S128x1024, .f32⟩
  | 33 => ⟨S128x1024, .f32⟩
  | 34 => ⟨S128x1024, .f32⟩
  | 35 => ⟨S128x1024, .f32⟩
  | 36 => ⟨S128x1024, .f32⟩
  | 37 => ⟨S128x1024, .f32⟩
  | 38 => ⟨S128x1024, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | _ => ⟨S128x768, .f32⟩

abbrev hbmTy (i : Nat) : BufTy := match i / 128 with
  | 0 => hbmTy0_0 i
  | 1 => hbmTy0_1 i
  | _ => ⟨S128x768, .f32⟩

abbrev bufTy : (tb : Table) → Fin (tcTables nBuf tb) → BufTy
  | .hbm, ⟨i, _⟩ => hbmTy i
  | _, _ => ⟨S128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1 : Ref sig .tc := ⟨.hbm, 41, rfl⟩
abbrev main_v17 : Ref sig .tc := ⟨.hbm, 42, rfl⟩
abbrev main_cst_1 : Ref sig .tc := ⟨.hbm, 43, rfl⟩
abbrev main_v18 : Ref sig .tc := ⟨.hbm, 44, rfl⟩
abbrev main_v19 : Ref sig .tc := ⟨.hbm, 45, rfl⟩
abbrev main_cst_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_3 : Ref sig .tc := ⟨.hbm, 54, rfl⟩
abbrev main_cst_4 : Ref sig .tc := ⟨.hbm, 55, rfl⟩
abbrev main_call1_v0 : Ref sig .tc := ⟨.hbm, 56, rfl⟩
abbrev main_call1_v1 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_call2_v0 : Ref sig .tc := ⟨.hbm, 67, rfl⟩
abbrev main_call2_call0_cst : Ref sig .tc := ⟨.hbm, 68, rfl⟩
abbrev main_call2_call0_v0 : Ref sig .tc := ⟨.hbm, 69, rfl⟩
abbrev main_call2_call0_v1 : Ref sig .tc := ⟨.hbm, 70, rfl⟩
abbrev main_call2_call0_v2 : Ref sig .tc := ⟨.hbm, 71, rfl⟩
abbrev main_call2_call0_v3 : Ref sig .tc := ⟨.hbm, 72, rfl⟩
abbrev main_call2_call0_v4 : Ref sig .tc := ⟨.hbm, 73, rfl⟩
abbrev main_call2_call0_v5 : Ref sig .tc := ⟨.hbm, 74, rfl⟩
abbrev main_call2_call0_v6 : Ref sig .tc := ⟨.hbm, 75, rfl⟩
abbrev main_call2_call0_v7 : Ref sig .tc := ⟨.hbm, 76, rfl⟩
abbrev main_call2_call0_v8 : Ref sig .tc := ⟨.hbm, 77, rfl⟩
abbrev main_call2_call0_v9 : Ref sig .tc := ⟨.hbm, 78, rfl⟩
abbrev main_call2_call0_v10 : Ref sig .tc := ⟨.hbm, 79, rfl⟩
abbrev main_call2_call0_v11 : Ref sig .tc := ⟨.hbm, 80, rfl⟩
abbrev main_call2_v1 : Ref sig .tc := ⟨.hbm, 81, rfl⟩
abbrev main_v36 : Ref sig .tc := ⟨.hbm, 82, rfl⟩
abbrev main_cst_5 : Ref sig .tc := ⟨.hbm, 83, rfl⟩
abbrev main_v37 : Ref sig .tc := ⟨.hbm, 84, rfl⟩
abbrev main_v38 : Ref sig .tc := ⟨.hbm, 85, rfl⟩
abbrev main_cst_6 : Ref sig .tc := ⟨.hbm, 86, rfl⟩
abbrev main_v39 : Ref sig .tc := ⟨.hbm, 87, rfl⟩
abbrev main_cst_7 : Ref sig .tc := ⟨.hbm, 88, rfl⟩
abbrev main_v40 : Ref sig .tc := ⟨.hbm, 89, rfl⟩
abbrev main_v41 : Ref sig .tc := ⟨.hbm, 90, rfl⟩
abbrev main_cst_8 : Ref sig .tc := ⟨.hbm, 91, rfl⟩
abbrev main_v42 : Ref sig .tc := ⟨.hbm, 92, rfl⟩
abbrev main_v43 : Ref sig .tc := ⟨.hbm, 93, rfl⟩
abbrev main_cst_9 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_cst_10 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_cst_11 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_12 : Ref sig .tc := ⟨.hbm, 109, rfl⟩
abbrev main_v56 : Ref sig .tc := ⟨.hbm, 110, rfl⟩
abbrev main_v57 : Ref sig .tc := ⟨.hbm, 111, rfl⟩
abbrev main_cst_13 : Ref sig .tc := ⟨.hbm, 112, rfl⟩
abbrev main_v58 : Ref sig .tc := ⟨.hbm, 113, rfl⟩
abbrev main_cst_14 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_cst_15 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_cst_16 : Ref sig .tc := ⟨.hbm, 130, rfl⟩
abbrev main_v73 : Ref sig .tc := ⟨.hbm, 131, rfl⟩
abbrev main_v74 : Ref sig .tc := ⟨.hbm, 132, rfl⟩
abbrev main_cst_17 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_cst_18 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_cst_19 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_call4_v0 : Ref sig .tc := ⟨.hbm, 151, rfl⟩
abbrev main_call4_call0_cst : Ref sig .tc := ⟨.hbm, 152, rfl⟩
abbrev main_call4_call0_v0 : Ref sig .tc := ⟨.hbm, 153, rfl⟩
abbrev main_call4_call0_v1 : Ref sig .tc := ⟨.hbm, 154, rfl⟩
abbrev main_call4_call0_v2 : Ref sig .tc := ⟨.hbm, 155, rfl⟩
abbrev main_call4_call0_v3 : Ref sig .tc := ⟨.hbm, 156, rfl⟩
abbrev main_call4_call0_v4 : Ref sig .tc := ⟨.hbm, 157, rfl⟩
abbrev main_call4_call0_v5 : Ref sig .tc := ⟨.hbm, 158, rfl⟩
abbrev main_call4_call0_v6 : Ref sig .tc := ⟨.hbm, 159, rfl⟩
abbrev main_call4_call0_v7 : Ref sig .tc := ⟨.hbm, 160, rfl⟩
abbrev main_call4_call0_v8 : Ref sig .tc := ⟨.hbm, 161, rfl⟩
abbrev main_call4_call0_v9 : Ref sig .tc := ⟨.hbm, 162, rfl⟩
abbrev main_call4_call0_v10 : Ref sig .tc := ⟨.hbm, 163, rfl⟩
abbrev main_call4_call0_v11 : Ref sig .tc := ⟨.hbm, 164, rfl⟩
abbrev main_call4_v1 : Ref sig .tc := ⟨.hbm, 165, rfl⟩
abbrev main_v90 : Ref sig .tc := ⟨.hbm, 166, rfl⟩
abbrev main_cst_20 : Ref sig .tc := ⟨.hbm, 167, rfl⟩
abbrev main_v91 : Ref sig .tc := ⟨.hbm, 168, rfl⟩
abbrev main_v92 : Ref sig .tc := ⟨.hbm, 169, rfl⟩
abbrev main_cst_21 : Ref sig .tc := ⟨.hbm, 170, rfl⟩
abbrev main_v93 : Ref sig .tc := ⟨.hbm, 171, rfl⟩
abbrev main_cst_22 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩

abbrev nD : Nat := 1
abbrev τ : Topo := Topo.v7x

variable {F : FTy → Type} [FloatOps F]

class Facts₀ : Prop where
  transposes_S128x768_S768x128_1_0 : S128x768.Transposes [1, 0] S768x128
  bcast_S_S128x128 : S_.BroadcastsInDim S128x128 (![] : Fin 0 → Fin S128x128.rank)
  reducesTo_S128x128_S_d0_1 : S128x128.ReducesTo [0, 1] S_
  h_S_ : 0 < S_.numel
  bcast_S1024_S1x1024_1 : S1024.BroadcastsInDim S1x1024 (![1] : Fin 1 → Fin S1x1024.rank)
  bcast_S128_S128x1_0 : S128.BroadcastsInDim S128x1 (![0] : Fin 1 → Fin S128x1.rank)
  bcast_S1x1024_S128x1024_0_1 : S1x1024.BroadcastsInDim S128x1024 (![0, 1] : Fin 2 → Fin S128x1024.rank)
  bcast_S128x1_S128x1024_0_1 : S128x1.BroadcastsInDim S128x1024 (![0, 1] : Fin 2 → Fin S128x1024.rank)
  bcast_S_S128x1024 : S_.BroadcastsInDim S128x1024 (![] : Fin 0 → Fin S128x1024.rank)
  transposes_S1024x768_S768x1024_1_0 : S1024x768.Transposes [1, 0] S768x1024
  reducesTo_S128x1024_S_d0_1 : S128x1024.ReducesTo [0, 1] S_
  bcast_S_S128x577x1024 : S_.BroadcastsInDim S128x577x1024 (![] : Fin 0 → Fin S128x577x1024.rank)
  reducesTo_S128x577x1024_S128x577_d2 : S128x577x1024.ReducesTo [2] S128x577
  bcast_S128x577_S128x577x1_0_1 : S128x577.BroadcastsInDim S128x577x1 (![0, 1] : Fin 2 → Fin S128x577x1.rank)
  bcast_S_S128x577x1 : S_.BroadcastsInDim S128x577x1 (![] : Fin 0 → Fin S128x577x1.rank)
  bcast_S128x577x1_S128x577x1024_0_1_2 : S128x577x1.BroadcastsInDim S128x577x1024 (![0, 1, 2] : Fin 3 → Fin S128x577x1024.rank)
  transposes_S128x577x1024_S128x1024x577_0_2_1 : S128x577x1024.Transposes [0, 2, 1] S128x1024x577
  bcast_S_S128x1024x577 : S_.BroadcastsInDim S128x1024x577 (![] : Fin 0 → Fin S128x1024x577.rank)
  reducesTo_S128x1024x577_S128x1024_d2 : S128x1024x577.ReducesTo [2] S128x1024
  bcast_S128x1024_S128x1024x1_0_1 : S128x1024.BroadcastsInDim S128x1024x1 (![0, 1] : Fin 2 → Fin S128x1024x1.rank)
  bcast_S128x1024x1_S128x1024x577_0_1_2 : S128x1024x1.BroadcastsInDim S128x1024x577 (![0, 1, 2] : Fin 3 → Fin S128x1024x577.rank)
  bcast_S1024x768_S1x1024x768_1_2 : S1024x768.BroadcastsInDim S1x1024x768 (![1, 2] : Fin 2 → Fin S1x1024x768.rank)
  bcast_S1x1024x768_S128x1024x768_0_1_2 : S1x1024x768.BroadcastsInDim S128x1024x768 (![0, 1, 2] : Fin 3 → Fin S128x1024x768.rank)
  reducesTo_S128x1024x768_S128x1024_d2 : S128x1024x768.ReducesTo [2] S128x1024
  reducesTo_S1x1024x768_S1x1024_d2 : S1x1024x768.ReducesTo [2] S1x1024
  dot_S128x768_S768x128_S128x128_1_0_0_1_n_n_wf : DotDims.WF S128x768 S768x128 S128x128 [1] [0] [0] [1] [] []
  dot_S128x768_S768x1024_S128x1024_1_0_0_1_n_n_wf : DotDims.WF S128x768 S768x1024 S128x1024 [1] [0] [0] [1] [] []
  dot_S128x577x768_S1024x768_S128x577x1024_2_1_01_0_n_n_wf : DotDims.WF S128x577x768 S1024x768 S128x577x1024 [2] [1] [0, 1] [0] [] []
  dot_S128x1024x577_S128x577x768_S128x1024x768_2_1_1_2_0_0_wf : DotDims.WF S128x1024x577 S128x577x768 S128x1024x768 [2] [1] [1] [2] [0] [0]

variable [Facts₀]

def dot_S128x768_S768x128_S128x128_1_0_0_1_n_n : DotDims S128x768 S768x128 S128x128 where
  lhsContracting := [1]
  rhsContracting := [0]
  lhsNonContracting := [0]
  rhsNonContracting := [1]
  lhsBatch := []
  rhsBatch := []
  wf := dot_S128x768_S768x128_S128x128_1_0_0_1_n_n_wf
def dot_S128x768_S768x1024_S128x1024_1_0_0_1_n_n : DotDims S128x768 S768x1024 S128x1024 where
  lhsContracting := [1]
  rhsContracting := [0]
  lhsNonContracting := [0]
  rhsNonContracting := [1]
  lhsBatch := []
  rhsBatch := []
  wf := dot_S128x768_S768x1024_S128x1024_1_0_0_1_n_n_wf
def dot_S128x577x768_S1024x768_S128x577x1024_2_1_01_0_n_n : DotDims S128x577x768 S1024x768 S128x577x1024 where
  lhsContracting := [2]
  rhsContracting := [1]
  lhsNonContracting := [0, 1]
  rhsNonContracting := [0]
  lhsBatch := []
  rhsBatch := []
  wf := dot_S128x577x768_S1024x768_S128x577x1024_2_1_01_0_n_n_wf
def dot_S128x1024x577_S128x577x768_S128x1024x768_2_1_1_2_0_0 : DotDims S128x1024x577 S128x577x768 S128x1024x768 where
  lhsContracting := [2]
  rhsContracting := [1]
  lhsNonContracting := [1]
  rhsNonContracting := [2]
  lhsBatch := [0]
  rhsBatch := [0]
  wf := dot_S128x1024x577_S128x577x768_S128x1024x768_2_1_1_2_0_0_wf

class Facts : Prop extends Facts₀ where

variable [Facts]
-- ==== Proof.KerRows.lean ====
/-
  What one grid point's body leaves in the similarity block [8, 1024].

  The body walks the eight images of its token block; for image `k` it reads that image's token rows, computes the
  similarity row of the 1024 phrases from them and from the three resident operands, and stores the row as row `k`
  of the output block.  Hence the block the body leaves holds, at `(k, n)`, the similarity row computed from the
  `k`-th image of the block, at `n`.
-/
import proofs.«134603_j83648783057700_1_alg».proof.Proof.Gen.KernelIdeal.Frame
import Idealize.ShloMosaic.Lib.Pipeline.Value
import Idealize.ShloMosaic.Lib.ValueIdx

noncomputable section

namespace Cert.KernelIdeal.Rows

open Idealize.ShloMosaic Idealize.ShloMosaic.TcCoe Idealize.ShloMosaic.Tactic Idealize.ShloMosaic.ValueIdx
open Idealize.SL Idealize.SL.Sem
open Cert.KernelIdeal Cert.KernelIdeal.Gen

variable {F : FTy → Type} [FloatOps F]

/-- The row stored for image `k` of the block: the similarity payload of the image's token rows and the resident
    operands, as a [1, 1024] row. -/
def rowOf (x0 : Vec F S8x577x768 .bf16) (x1 : Vec F S1024x768 .bf16) (x2 : Vec F S768x1024 .f32) (x3 : Vec F S1x1024 .f32)
    (k : Fin k0_t1_loop.trips) : Vec F S1x1024 .f32 :=
  k0_pay4 (k0_pay5 (k0_pay1 x1) (k0_pay2 x2) (k0_pay3 x3)
    (View.ld x0 (Rect.unit (s := S8x577x768) (k0_off1 k) S1x577x768.size (k0_off1_inb k))))

/-- The piece trip `k` stores: the row of image `k`, at row `k` of the block. -/
def pieceOf (x0 : Vec F S8x577x768 .bf16) (x1 : Vec F S1024x768 .bf16) (x2 : Vec F S768x1024 .f32) (x3 : Vec F S1x1024 .f32)
    (k : Fin k0_t1_loop.trips) : View.Piece (Elt F) S8x1024 .f32 :=
  ⟨Rect.unit (s := S8x1024) (k0_off2 k) S1x1024.size (k0_off2_inb k), rowOf x0 x1 x2 x3 k⟩

/-- One trip of the body's loop stores exactly its image's row. -/
theorem trip_pieces (𝒱 : Variants) (c : Dev nD) (bd : Option 𝒱.V) (i : grid0.Coords) (arg1 : Memref sig .tc .vmem S8x577x768 .bf16) (harg1 : arg1.IsWhole) (arg2 : Memref sig .tc .vmem S1024x768 .bf16) (harg2 : arg2.IsWhole) (arg3 : Memref sig .tc .vmem S768x1024 .f32) (harg3 : arg3.IsWhole) (arg4 : Memref sig .tc .vmem S1x1024 .f32) (harg4 : arg4.IsWhole) (arg5 : Memref sig .tc .vmem S8x1024 .f32) (harg5 : arg5.IsWhole)
    (x0 : Vec F S8x577x768 .bf16) (x1 : Vec F S1024x768 .bf16) (x2 : Vec F S768x1024 .f32) (x3 : Vec F S1x1024 .f32) (k : Fin k0_t1_loop.trips) :
    tripL_k0_t1 (F := F) 𝒱 c bd i arg1 harg1 arg2 harg2 arg3 harg3 arg4 harg4 arg5 harg5 x1 x2 x3 (harg1.unread x0) k
      = [pieceOf x0 x1 x2 x3 k] := by
  unfold tripL_k0_t1 trip_k0_t1
  dsimp only
  sl_unfold_run_names
  unfold pieceOf rowOf
  rw [View.readAt_eq_ld, harg1.read_unread]

/-- The loop makes eight trips, and trip `k` reads image `k` and writes row `k`. -/
theorem trips_eq : k0_t1_loop.trips = 8 := by decide
theorem off2_eq : ∀ k : Fin k0_t1_loop.trips, k0_off2 k = ![k.val, 0] := by decide +kernel
theorem off1_eq : ∀ k : Fin k0_t1_loop.trips, k0_off1 k = ![k.val, 0, 0] := by decide +kernel

/-- Every piece stored before trip `j` is some image's row piece. -/
theorem pieces_before (𝒱 : Variants) (c : Dev nD) (bd : Option 𝒱.V) (i : grid0.Coords) (arg1 : Memref sig .tc .vmem S8x577x768 .bf16) (harg1 : arg1.IsWhole) (arg2 : Memref sig .tc .vmem S1024x768 .bf16) (harg2 : arg2.IsWhole) (arg3 : Memref sig .tc .vmem S768x1024 .f32) (harg3 : arg3.IsWhole) (arg4 : Memref sig .tc .vmem S1x1024 .f32) (harg4 : arg4.IsWhole) (arg5 : Memref sig .tc .vmem S8x1024 .f32) (harg5 : arg5.IsWhole)
    (x0 : Vec F S8x577x768 .bf16) (x1 : Vec F S1024x768 .bf16) (x2 : Vec F S768x1024 .f32) (x3 : Vec F S1x1024 .f32) :
    ∀ j : ℕ, j ≤ k0_t1_loop.trips →
      ∀ p ∈ pb_k0_t1 (F := F) 𝒱 c bd i arg1 harg1 arg2 harg2 arg3 harg3 arg4 harg4 arg5 harg5 x1 x2 x3 (harg1.unread x0) j,
        ∃ k : Fin k0_t1_loop.trips, p = pieceOf x0 x1 x2 x3 k := by
  intro j
  induction j with
  | zero => intro _ p hp; rw [pb_k0_t1.eq_1] at hp; exact absurd hp List.not_mem_nil
  | succ j ih =>
    intro hj p hp
    have e := pb_k0_t1_succ (F := F) 𝒱 c bd i arg1 harg1 arg2 harg2 arg3 harg3 arg4 harg4 arg5 harg5 x1 x2 x3 (harg1.unread x0) ⟨j, hj⟩
    rw [show (⟨j, hj⟩ : Fin k0_t1_loop.trips).val + 1 = j + 1 from rfl, trip_pieces] at e
    rw [e] at hp
    rcases List.mem_append.mp hp with h | h
    · exact ⟨⟨j, hj⟩, List.mem_singleton.mp h⟩
    · exact ih (Nat.le_of_succ_le hj) p h

theorem hz2 : (![0, 0] : Fin 2 → Nat) = fun _ => 0 := funext fun a => by fin_cases a <;> rfl

/-- The stores of the whole body are those of its eight trips, the resident operands read whole. -/
theorem run_pieces (c : Dev nD) (i : grid0.Coords) (arg1 : Memref sig .tc .vmem S8x577x768 .bf16) (harg1 : arg1.IsWhole) (arg2 : Memref sig .tc .vmem S1024x768 .bf16) (harg2 : arg2.IsWhole) (arg3 : Memref sig .tc .vmem S768x1024 .f32) (harg3 : arg3.IsWhole) (arg4 : Memref sig .tc .vmem S1x1024 .f32) (harg4 : arg4.IsWhole) (arg5 : Memref sig .tc .vmem S8x1024 .f32) (harg5 : arg5.IsWhole)
    (x0 : Vec F S8x577x768 .bf16) (x1 : Vec F S1024x768 .bf16) (x2 : Vec F S768x1024 .f32) (x3 : Vec F S1x1024 .f32) :
    (kernelRun0_A c i arg1 harg1 arg2 harg2 arg3 harg3 arg4 harg4 arg5 harg5 x0 x1 x2 x3).1
      = pb_k0_t1 (F := F) Variants.none c none i arg1 harg1 arg2 harg2 arg3 harg3 arg4 harg4 arg5 harg5 x1 x2 x3 (harg1.unread x0) k0_t1_loop.trips := by
  unfold kernelRun0_A
  dsimp only
  rw [View.readAt_eq_ld, View.readAt_eq_ld, View.readAt_eq_ld, harg2.read_unread, harg3.read_unread, harg4.read_unread,
    View.ld_unit_zero (S := S1024x768) hz2, View.ld_unit_zero (S := S768x1024) hz2, View.ld_unit_zero (S := S1x1024) hz2]

/-- The block as one function of its index: row `r` is image `r`'s similarity row. -/
def blockOf (x0 : Vec F S8x577x768 .bf16) (x1 : Vec F S1024x768 .bf16) (x2 : Vec F S768x1024 .f32) (x3 : Vec F S1x1024 .f32) :
    S8x1024.Idx → Elt F .f32 :=
  fun y => rowOf x0 x1 x2 x3 ⟨(y 0).val, trips_eq ▸ (y 0).isLt⟩ (ix2 (0 : Fin 1) (⟨(y 1).val, (y 1).isLt⟩ : Fin 1024))

/-- Image `k`'s stored row is the block function on the row's rectangle. -/
theorem piece_agrees (x0 : Vec F S8x577x768 .bf16) (x1 : Vec F S1024x768 .bf16) (x2 : Vec F S768x1024 .f32) (x3 : Vec F S1x1024 .f32)
    (k : Fin k0_t1_loop.trips) (x : (Rect.unit (s := S8x1024) (k0_off2 k) S1x1024.size (k0_off2_inb k)).shape.Idx) :
    rowOf x0 x1 x2 x3 k x = blockOf x0 x1 x2 x3 ((Rect.unit (s := S8x1024) (k0_off2 k) S1x1024.size (k0_off2_inb k)).emb x) := by
  unfold blockOf
  have hx0 : (x 0).val = 0 := Nat.lt_one_iff.mp (x 0).isLt
  have e0 : k0_off2 k 0 = k.val := by rw [off2_eq k]; rfl
  have e1 : k0_off2 k 1 = 0 := by rw [off2_eq k]; rfl
  have h0 : ((Rect.unit (s := S8x1024) (k0_off2 k) S1x1024.size (k0_off2_inb k)).emb x 0).val = k.val := by
    show k0_off2 k 0 + 1 * (x 0).val = k.val
    rw [e0, hx0]; omega
  have h1 : ((Rect.unit (s := S8x1024) (k0_off2 k) S1x1024.size (k0_off2_inb k)).emb x 1).val = (x 1).val := by
    show k0_off2 k 1 + 1 * (x 1).val = (x 1).val
    rw [e1]; omega
  congr 1
  · exact Fin.ext h0.symm
  · funext a
    match a with
    | ⟨0, _⟩ => exact Fin.ext hx0
    | ⟨1, _⟩ => exact Fin.ext h1.symm

/-- WHAT THE BODY LEAVES in the output block: image `r`'s similarity row at row `r`. -/
theorem out_apply (c : Dev nD) (i : grid0.Coords) (arg1 : Memref sig .tc .vmem S8x577x768 .bf16) (harg1 : arg1.IsWhole) (arg2 : Memref sig .tc .vmem S1024x768 .bf16) (harg2 : arg2.IsWhole) (arg3 : Memref sig .tc .vmem S768x1024 .f32) (harg3 : arg3.IsWhole) (arg4 : Memref sig .tc .vmem S1x1024 .f32) (harg4 : arg4.IsWhole) (arg5 : Memref sig .tc .vmem S8x1024 .f32) (harg5 : arg5.IsWhole)
    (x0 : Vec F S8x577x768 .bf16) (x1 : Vec F S1024x768 .bf16) (x2 : Vec F S768x1024 .f32) (x3 : Vec F S1x1024 .f32) (y : S8x1024.Idx) :
    out0_A_4 c i arg1 harg1 arg2 harg2 arg3 harg3 arg4 harg4 arg5 harg5 x0 x1 x2 x3 y = blockOf x0 x1 x2 x3 y := by
  unfold out0_A_4
  rw [View.read_writes_apply_eq_canon _ _ _ _ (cover0_A_4 c i arg1 harg1 arg2 harg2 arg3 harg3 arg4 harg4 arg5 harg5 x0 x1 x2 x3 y)]
  refine View.canon_apply_of_pieces (blockOf x0 x1 x2 x3) _ ?_ y (cover0_A_4 c i arg1 harg1 arg2 harg2 arg3 harg3 arg4 harg4 arg5 harg5 x0 x1 x2 x3 y)
  intro p hp x
  rw [run_pieces] at hp
  obtain ⟨k, rfl⟩ := pieces_before Variants.none c none i arg1 harg1 arg2 harg2 arg3 harg3 arg4 harg4 arg5 harg5 x0 x1 x2 x3 _ (Nat.le_refl _) p hp
  exact piece_agrees x0 x1 x2 x3 k x

end Cert.KernelIdeal.Rows

end
-- ==== Proof.KerArray.lean ====
/-
  The similarity array [128, 1024] the kernel's region leaves.

  The grid has sixteen points; point `t` stages images `8t … 8t + 7` of the token array and the whole of the three
  resident arrays, and writes back rows `8t … 8t + 7` of the result.  With what the body leaves in its block
  (image `r` of the block gives row `r`), row `b` of the result is the similarity row computed from image `b` of
  the token array and the resident arrays, and the sixteen blocks tile the 128 rows.
-/
import proofs.«134603_j83648783057700_1_alg».proof.Proof.KerRows

set_option maxRecDepth 16384

noncomputable section

namespace Cert.KernelIdeal.SimArray

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Rows

variable {F : FTy → Type} [FloatOps F]

/-- Image `b` of the token array, as a one-image block. -/
def imageOf (A : S128x577x768.Idx → Elt F .bf16) (b : Fin 128) : Vec F S1x577x768 .bf16 :=
  fun j => A (ix3 b (⟨(j 1).val, (j 1).isLt⟩ : Fin 577) (⟨(j 2).val, (j 2).isLt⟩ : Fin 768))

/-- The similarity row of image `b`. -/
def simRow (A42 : S128x577x768.Idx → Elt F .bf16) (A41 : S1024x768.Idx → Elt F .bf16) (A43 : S768x1024.Idx → Elt F .f32)
    (A47 : S1x1024.Idx → Elt F .f32) (b : Fin 128) : Vec F S1x1024 .f32 :=
  k0_pay4 (k0_pay5 (k0_pay1 A41) (k0_pay2 A43) (k0_pay3 A47) (imageOf A42 b))

/-- The whole result: row `b` is image `b`'s similarity row. -/
def simArr (A42 : S128x577x768.Idx → Elt F .bf16) (A41 : S1024x768.Idx → Elt F .bf16) (A43 : S768x1024.Idx → Elt F .f32)
    (A47 : S1x1024.Idx → Elt F .f32) : S128x1024.Idx → Elt F .f32 :=
  fun i => simRow A42 A41 A43 A47 (⟨(i 0).val, (i 0).isLt⟩ : Fin 128) (ix2 (0 : Fin 1) (⟨(i 1).val, (i 1).isLt⟩ : Fin 1024))

/-- The printed index maps over the grid: the token window and the result window move one block per point along
    the image axis; the resident windows stay at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 ∧ t.val < 16 :=
  (by decide +kernel : ∀ t : Fin grid0.N, _)

/-- One image of a block whose rows are the images `8g … 8g + 7` of the token array. -/
theorem ld_image (A42 : S128x577x768.Idx → Elt F .bf16) (x0 : Vec F S8x577x768 .bf16) (g : ℕ)
    (hx0 : ∀ (z : S8x577x768.Idx) (i' : S128x577x768.Idx), (i' 0).val = g * 8 + (z 0).val → (i' 1).val = (z 1).val →
      (i' 2).val = (z 2).val → x0 z = A42 i')
    (k : Fin k0_t1_loop.trips) (b : Fin 128) (hb : b.val = g * 8 + k.val) :
    View.ld x0 (Rect.unit (s := S8x577x768) (k0_off1 k) S1x577x768.size (k0_off1_inb k)) = imageOf A42 b := by
  funext x
  unfold imageOf
  have e0 : k0_off1 k 0 = k.val := by rw [off1_eq k]; rfl
  have e1 : k0_off1 k 1 = 0 := by rw [off1_eq k]; rfl
  have e2 : k0_off1 k 2 = 0 := by rw [off1_eq k]; rfl
  have hx : (x 0).val = 0 := Nat.lt_one_iff.mp (x 0).isLt
  refine hx0 _ _ ?_ ?_ ?_
  · show b.val = g * 8 + (k0_off1 k 0 + 1 * (x 0).val)
    omega
  · show (x 1).val = k0_off1 k 1 + 1 * (x 1).val
    omega
  · show (x 2).val = k0_off1 k 2 + 1 * (x 2).val
    omega

/-- A block whose rows are the images `8g … 8g + 7` of the token array gives the rows `8g … 8g + 7` of the result. -/
theorem blockOf_eq_simArr (A42 : S128x577x768.Idx → Elt F .bf16) (A41 : S1024x768.Idx → Elt F .bf16) (A43 : S768x1024.Idx → Elt F .f32)
    (A47 : S1x1024.Idx → Elt F .f32) (x0 : Vec F S8x577x768 .bf16) (g : ℕ)
    (hx0 : ∀ (z : S8x577x768.Idx) (i' : S128x577x768.Idx), (i' 0).val = g * 8 + (z 0).val → (i' 1).val = (z 1).val →
      (i' 2).val = (z 2).val → x0 z = A42 i')
    (y : S8x1024.Idx) (i : S128x1024.Idx) (h0 : (i 0).val = g * 8 + (y 0).val) (h1 : (i 1).val = (y 1).val) :
    blockOf x0 A41 A43 A47 y = simArr A42 A41 A43 A47 i := by
  unfold blockOf simArr simRow rowOf
  rw [ld_image A42 x0 g hx0 ⟨(y 0).val, trips_eq ▸ (y 0).isLt⟩ (⟨(i 0).val, (i 0).isLt⟩ : Fin 128) h0]
  have hcol : (⟨(y 1).val, (y 1).isLt⟩ : Fin 1024) = ⟨(i 1).val, (i 1).isLt⟩ := Fin.ext h1.symm
  rw [hcol]

variable (m : (ℓ : Loc nD τ sig) → Buf (Elt F) ℓ)

/-- A resident window's block is its whole array, at every point. -/
theorem iblk1_eq (c : Dev nD) (t : Fin cfg0.N) : (iblk m c 1 t : S1024x768.Idx → Elt F .bf16) = V m c main_v41 := by
  obtain ⟨_, _, _, e0, e1, _⟩ := idx_facts t
  funext j
  show V m c main_v41 (((cfg0.win 1).blk t).view.emb j) = V m c main_v41 j
  refine congrArg (V m c main_v41) (funext fun a => Fin.ext ?_)
  match a with
  | ⟨0, _⟩ => show win0_1.index t (0 : Fin 2) * 1024 + 1 * (j 0).val = (j 0).val; omega
  | ⟨1, _⟩ => show win0_1.index t (1 : Fin 2) * 768 + 1 * (j 1).val = (j 1).val; omega

theorem iblk2_eq (c : Dev nD) (t : Fin cfg0.N) : (iblk m c 2 t : S768x1024.Idx → Elt F .f32) = V m c main_v43 := by
  obtain ⟨_, _, _, _, _, e0, e1, _⟩ := idx_facts t
  funext j
  show V m c main_v43 (((cfg0.win 2).blk t).view.emb j) = V m c main_v43 j
  refine congrArg (V m c main_v43) (funext fun a => Fin.ext ?_)
  match a with
  | ⟨0, _⟩ => show win0_2.index t (0 : Fin 2) * 768 + 1 * (j 0).val = (j 0).val; omega
  | ⟨1, _⟩ => show win0_2.index t (1 : Fin 2) * 1024 + 1 * (j 1).val = (j 1).val; omega

theorem iblk3_eq (c : Dev nD) (t : Fin cfg0.N) : (iblk m c 3 t : S1x1024.Idx → Elt F .f32) = V m c main_v47 := by
  obtain ⟨_, _, _, _, _, _, _, e0, e1, _⟩ := idx_facts t
  funext j
  show V m c main_v47 (((cfg0.win 3).blk t).view.emb j) = V m c main_v47 j
  refine congrArg (V m c main_v47) (funext fun a => Fin.ext ?_)
  match a with
  | ⟨0, _⟩ => show win0_3.index t (0 : Fin 2) * 1 + 1 * (j 0).val = (j 0).val; omega
  | ⟨1, _⟩ => show win0_3.index t (1 : Fin 2) * 1024 + 1 * (j 1).val = (j 1).val; omega

/-- The token window's block at point `t` holds the images `8t … 8t + 7`. -/
theorem iblk0_eq (c : Dev nD) (t : Fin cfg0.N) (z : S8x577x768.Idx) (i' : S128x577x768.Idx)
    (h0 : (i' 0).val = t.val * 8 + (z 0).val) (h1 : (i' 1).val = (z 1).val) (h2 : (i' 2).val = (z 2).val) :
    (iblk m c 0 t : S8x577x768.Idx → Elt F .bf16) z = V m c main_v42 i' := by
  obtain ⟨e0, e1, e2, _⟩ := idx_facts t
  show V m c main_v42 (((cfg0.win 0).blk t).view.emb z) = V m c main_v42 i'
  refine congrArg (V m c main_v42) (funext fun a => Fin.ext ?_)
  match a with
  | ⟨0, _⟩ => show win0_0.index t (0 : Fin 3) * 8 + 1 * (z 0).val = (i' 0).val; omega
  | ⟨1, _⟩ => show win0_0.index t (1 : Fin 3) * 577 + 1 * (z 1).val = (i' 1).val; omega
  | ⟨2, _⟩ => show win0_0.index t (2 : Fin 3) * 768 + 1 * (z 2).val = (i' 2).val; omega

/-- WHAT POINT `t` WRITES BACK is block `t` of the similarity array of the arrays the region finds. -/
theorem flushed_eq (c : Dev nD) (t : Fin cfg0.N) :
    (dats m 0 c).flushed 4 t
      = ((cfg0.win 4).blk t).view.read (Elt F) (simArr (V m c main_v42) (V m c main_v41) (V m c main_v43) (V m c main_v47)) := by
  show (cfg0.win 4).cut (grid0.coords t) ((dats m 0 c).after 4 t) = _
  rw [after0_4]
  unfold outsAt0
  obtain ⟨_, _, _, _, _, _, _, _, _, e0, e1, _⟩ := idx_facts t
  refine funext fun (j : S8x1024.Idx) => ?_
  show out0_A_4 c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t) j
    = simArr (V m c main_v42) (V m c main_v41) (V m c main_v43) (V m c main_v47) (((cfg0.win 4).blk t).view.emb j)
  rw [out_apply]
  rw [show (iblk m c 1 t : S1024x768.Idx → Elt F .bf16) = V m c main_v41 from iblk1_eq m c t,
    show (iblk m c 2 t : S768x1024.Idx → Elt F .f32) = V m c main_v43 from iblk2_eq m c t,
    show (iblk m c 3 t : S1x1024.Idx → Elt F .f32) = V m c main_v47 from iblk3_eq m c t]
  refine blockOf_eq_simArr (V m c main_v42) (V m c main_v41) (V m c main_v43) (V m c main_v47) (iblk m c 0 t) t.val
    (fun z i' h0 h1 h2 => iblk0_eq m c t z i' h0 h1 h2) j _ ?_ ?_
  · show win0_4.index t (0 : Fin 2) * 8 + 1 * (j 0).val = t.val * 8 + (j 0).val; omega
  · show win0_4.index t (1 : Fin 2) * 1024 + 1 * (j 1).val = (j 1).val; omega

/-- An index of the result is in point `t`'s block iff each coordinate is in the block's range on its axis. -/
theorem mem_blk (t : Fin cfg0.N) (i : S128x1024.Idx) :
    i ∈ ((cfg0.win 4).blk t).view.set ↔ ∀ a : Fin 2, win0_4.index t a * S8x1024.size a ≤ (i a).val
      ∧ (i a).val < win0_4.index t a * S8x1024.size a + S8x1024.size a := by
  show i ∈ ((View.whole main_v48).slice (win0_4.rect t)).set ↔ _
  rw [View.set_slice_whole, Rect.mem_set_unit]
  exact Iff.rfl

/-- Every block row of the result is some point's. -/
theorem idx_onto : ∀ q0 : Fin 16, ∃ t : Fin cfg0.N, win0_4.index t = ![q0.val, 0] :=
  (by decide +kernel : ∀ q0 : Fin 16, ∃ t : Fin grid0.N, win0_4.index t = ![q0.val, 0])

/-- The sixteen blocks cover the result. -/
theorem cover (i : S128x1024.Idx) :
    ∃ t : Fin cfg0.N, (cfg0.win 4).flush t = true ∧ i ∈ ((cfg0.win 4).blk t).view.set := by
  have hi0 : (i 0).val < 128 := (i 0).isLt
  have hi1 : (i 1).val < 1024 := (i 1).isLt
  obtain ⟨t, ht⟩ := idx_onto ⟨(i 0).val / 8, by omega⟩
  have q0 : win0_4.index t (0 : Fin 2) = (i 0).val / 8 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 1024 ≤ (i 1).val ∧ (i 1).val < win0_4.index t (1 : Fin 2) * 1024 + 1024; omega

/-- THE RESULT ARRAY after the region: the similarity array of the arrays the region finds. -/
theorem final (c : Dev nD) :
    (dats m 0 c).arrAt 4 cfg0.N = simArr (V m c main_v42) (V m c main_v41) (V m c main_v43) (V m c main_v47) :=
  (dats m 0 c).arrAt_eq_of_cover 4 _ (fun t _ => flushed_eq m c t) cover

end Cert.KernelIdeal.SimArray

end
-- ==== Proof.Spec.lean ====
/-
  The cross-attention similarity, one image at a time, as a function on the extended reals.

  For one image with token rows `tok l d` (577 tokens, 768 features) and noun-phrase rows `q n d` (1024 phrases):
  the logit of token `l` against phrase `n` is the inner product of their rows; a leaky rectifier keeps a
  non-negative logit and scales a negative one; each token's row of rectified logits is divided by its Euclidean
  norm (floored by a small constant) and multiplied by the smoothing factor; over the tokens, for each phrase, the
  softmax of these is taken (maximum subtracted first); the weighted context of phrase `n` is the softmax-weighted
  sum of the token rows; and the similarity is the cosine between the phrase's row and its context, the
  denominator floored by the same small constant.  Every sum is a sum over a finite index type, so no order or
  grouping of the additions is part of the definition.
-/
import Idealize.ShloMosaic.PureOps.Ideal
import Idealize.ShloMosaic.PureOps.Ideal.Laws
import Idealize.ShloMosaic.Lib.ValueIdx

noncomputable section

namespace Cert.XAttn

open Idealize.ShloMosaic

/-- The float words the two programs share, read as extended reals. -/
abbrev wZero : EReal := Ideal.ofBits .f32 0x00000000#32
abbrev wSlope : EReal := Ideal.ofBits .f32 0x3DCCCCCD#32
abbrev wEps : EReal := Ideal.ofBits .f32 0x322BCC77#32
abbrev wSmooth : EReal := Ideal.ofBits .f32 0x40800000#32
abbrev wNegInf : EReal := Ideal.ofBits .f32 0xFF800000#32

variable (tok : Fin 577 → Fin 768 → EReal) (q : Fin 1024 → Fin 768 → EReal)

/-- The logit of token `l` against phrase `n`. -/
def logit (l : Fin 577) (n : Fin 1024) : EReal := ∑ d : Fin 768, tok l d * q n d

/-- The leaky rectifier on a logit. -/
def leaky (l : Fin 577) (n : Fin 1024) : EReal :=
  Scalar.select (Ideal.cmp .oge (logit tok q l n) wZero) (logit tok q l n) (wSlope * logit tok q l n)

/-- The floored Euclidean norm of token `l`'s rectified logits over the phrases. -/
def rowNorm (l : Fin 577) : EReal := max (Ideal.sqrt (∑ n : Fin 1024, leaky tok q l n * leaky tok q l n)) wEps

/-- The normalised, smoothed logit. -/
def scaled (l : Fin 577) (n : Fin 1024) : EReal := Ideal.div (leaky tok q l n) (rowNorm tok q l) * wSmooth

/-- The largest smoothed logit of phrase `n` over the tokens. -/
def colMax (n : Fin 1024) : EReal := (Finset.univ : Finset (Fin 577)).fold max wNegInf (fun l => scaled tok q l n)

/-- The exponential of a smoothed logit below its phrase's maximum. -/
def ex (l : Fin 577) (n : Fin 1024) : EReal := Ideal.exp (scaled tok q l n - colMax tok q n)

/-- The softmax weight of token `l` for phrase `n`. -/
def soft (l : Fin 577) (n : Fin 1024) : EReal := Ideal.div (ex tok q l n) (∑ l' : Fin 577, ex tok q l' n)

/-- The weighted context of phrase `n`, feature `d`. -/
def ctx (n : Fin 1024) (d : Fin 768) : EReal := ∑ l : Fin 577, tok l d * soft tok q l n

/-- The Euclidean norm of phrase `n`'s row. -/
def qNorm (n : Fin 1024) : EReal := Ideal.sqrt (∑ d : Fin 768, q n d * q n d)

/-- The cosine similarity of phrase `n` with its weighted context, the denominator floored. -/
def sim (n : Fin 1024) : EReal :=
  Ideal.div (∑ d : Fin 768, q n d * ctx tok q n d)
    (max (qNorm q n * Ideal.sqrt (∑ d : Fin 768, ctx tok q n d * ctx tok q n d)) wEps)

end Cert.XAttn

end
-- ==== Proof.LibPlainMatmul.lean ====
/-
  A plain matrix product and the one-axis reductions of a matrix, read at an index written by coordinates, at the
  ideal values, for any extents.

  The product of an `[m, k]` matrix by a `[k, n]` matrix accumulated into the zero matrix is, at `(a, b)`, the sum over
  the contracted coordinate `c` of the products of the entries `(a, c)` and `(c, b)`.  A sum over the rows of an
  `[a, b]` matrix (axis 0 dropped) is, at column `j`, the sum over `i` of the entries `(i, j)`; a sum along the rows
  (axis 1 dropped) is, at row `i`, the sum over `j` of the entries `(i, j)`; and a maximum over the rows is, at column
  `j`, the fold of `max` from the accumulator's value over the entries `(i, j)`.  Each sum runs over a finite index
  type, so no order of the additions is part of the statement.
-/
import Idealize.ShloMosaic.Lib.ValueIdx
import Idealize.ShloMosaic.PureOps.Ideal.Laws
import Idealize.ShloMosaic.PureOps.Reduce

open scoped BigOperators

namespace PlainMatmul

open Idealize.ShloMosaic Idealize.ShloMosaic.ValueIdx

/-! ## The plain product -/

/-- The dimension numbers of a plain product: the left operand's columns contracted with the right operand's rows. -/
abbrev dims {m k n : ℕ}
    (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- THE PLAIN PRODUCT AT `(a, b)`, accumulated into zero: the sum over the contracted coordinate. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (dims w) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (dims w) k rfl rfl).symm]
  refine Finset.sum_congr rfl fun c _ => ?_
  have hc := contrEquiv1_symm_val (dims w) k rfl rfl c
  have l0 : ∀ q : (dims w).contr.Idx, ((dims w).lhsIdx (ix2 a b) q (0 : Fin 2)).val = a.val := fun q => by
    unfold DotDims.lhsIdx
    rw [dif_neg (show ¬(0 : Fin 2) ∈ (dims w).lhsBatch from List.not_mem_nil),
      dif_pos (show (0 : Fin 2) ∈ (dims w).lhsNonContracting from List.mem_singleton.mpr rfl)]
    rfl
  have r1 : ∀ q : (dims w).contr.Idx, ((dims w).rhsIdx (ix2 a b) q (1 : Fin 2)).val = b.val := fun q => by
    unfold DotDims.rhsIdx
    rw [dif_neg (show ¬(1 : Fin 2) ∈ (dims w).rhsBatch from List.not_mem_nil),
      dif_pos (show (1 : Fin 2) ∈ (dims w).rhsNonContracting from List.mem_singleton.mpr rfl)]
    rfl
  have el : (dims w).lhsIdx (ix2 a b) ((contrEquiv1 (dims w) k rfl rfl).symm c) = ix2 a c := by
    funext ax; apply Fin.ext
    match ax with
    | ⟨0, _⟩ => exact l0 _
    | ⟨1, _⟩ => exact ((dims w).lhsIdx_val_of_single (cl := (1 : Fin 2)) rfl _ _).trans hc
  have er : (dims w).rhsIdx (ix2 a b) ((contrEquiv1 (dims w) k rfl rfl).symm c) = ix2 c b := by
    funext ax; apply Fin.ext
    match ax with
    | ⟨0, _⟩ => exact ((dims w).rhsIdx_val_of_single (cr := (0 : Fin 2)) rfl _ _).trans hc
    | ⟨1, _⟩ => exact r1 _
  rw [el, er]

/-! ## The index a reduced index and a coordinate on the dropped axis name -/

/-- Dropping the FIRST axis of `[a, b]`: the index over `j` whose first coordinate is `k` is `(k, j)`. -/
theorem lift_first {a b : ℕ} (h : (⟨2, ![a, b]⟩ : Shape).Reduces [0] (⟨1, ![b]⟩ : Shape)) (j : Fin b)
    (k : Fin ((⟨2, ![a, b]⟩ : Shape).size 0)) :
    h.lift (ix1 j) k = ix2 (⟨k.val, k.isLt⟩ : Fin a) j := by
  funext ax; apply Fin.ext
  fin_cases ax <;> rfl

/-- Dropping the LAST axis of `[a, b]`: the index over `i` whose last coordinate is `k` is `(i, k)`. -/
theorem lift_last {a b : ℕ} (h : (⟨2, ![a, b]⟩ : Shape).Reduces [1] (⟨1, ![a]⟩ : Shape)) (i : Fin a)
    (k : Fin ((⟨2, ![a, b]⟩ : Shape).size 1)) :
    h.lift (ix1 i) k = ix2 i (⟨k.val, k.isLt⟩ : Fin b) := by
  funext ax; apply Fin.ext
  fin_cases ax <;> rfl

/-! ## Sums and a maximum over one axis of a matrix -/

variable {φ : FTy}

/-- A sum over the rows (axis 0 dropped), at column `j`. -/
theorem sum_axis0_apply {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  exact Finset.sum_congr rfl fun k _ => congrArg src (lift_first h j k)

/-- A sum along the rows (axis 1 dropped), at row `i`. -/
theorem sum_axis1_apply {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ j : Fin b, src (ix2 i j) := by
  refine (Ideal.multiReduction_add_single src acc h hφ hacc (ix1 i)).trans ?_
  exact Finset.sum_congr rfl fun k _ => congrArg src (lift_last h i k)

/-- A maximum over the rows (axis 0 dropped), at column `j`: the fold of `max` from the accumulator's value. -/
theorem max_axis0_apply {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (j : Fin b) :
    multiReduction .maximumf [0] ⟨1, ![b]⟩ src acc h hφ hacc (ix1 j)
      = (Finset.univ : Finset (Fin a)).fold max (Ideal.ofBits φ acc) (fun i => src (ix2 i j)) := by
  refine (Ideal.multiReduction_maximumf_single src acc h hφ hacc (ix1 j)).trans ?_
  have hf : (src ∘ h.lift (ix1 j)) = fun i : Fin a => src (ix2 i j) :=
    funext fun k => congrArg src (lift_first h j k)
  exact congrArg (fun f => Finset.fold max (Ideal.ofBits φ acc) f (Finset.univ : Finset (Fin a))) hf

end PlainMatmul
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.KerPay.lean ====
/-
  The kernel body's arithmetic, read at an index, is the cross-attention similarity.

  The body's value is one pure term over the phrase matrix (transposed, in two formats), the phrase norms and one
  image's token rows.  Its intermediate values are named here one by one, over literal shapes, in the order the
  mathematics has them: the logits (a matrix product), the leaky rectifier, each token's floored Euclidean norm,
  the normalised and smoothed logits, the maximum, the exponentials and their sum over the tokens for each phrase,
  the softmax weights, the weighted context (a second matrix product), and the cosine of each phrase's row with
  its context.  Each named value is then read at an index as the specification's function of the same name.
-/
import proofs.«134603_j83648783057700_1_alg».proof.Proof.Gen.KernelIdeal.Skeleton
import proofs.«134603_j83648783057700_1_alg».proof.Proof.Spec
import proofs.«134603_j83648783057700_1_alg».proof.Proof.LibPlainMatmul
import proofs.«134603_j83648783057700_1_alg».proof.Proof.LibLayout
import Idealize.ShloMosaic.Lib.ValueLayout

noncomputable section

open scoped BigOperators

namespace Cert.KernelIdeal.KerPay

open Idealize.ShloMosaic Idealize.ShloMosaic.ValueIdx Cert.KernelIdeal

/-! ## The body's intermediate values -/

section Terms

variable (v2 : FVec Ideal S768x1024 .bf16) (v4 : FVec Ideal S768x1024 .f32) (v6 : FVec Ideal S1x1024 .f32)
  (v9 : Vec Ideal S1x577x768 .bf16)

/-- The image's token rows as a matrix. -/
def tokM : FVec Ideal S577x768 .bf16 := shapeCast S577x768 v9 Gen.shapeCasts_S1x577x768_S577x768

/-- The logits: token rows times the transposed phrase matrix. -/
def logitM : FVec Ideal S577x1024 .f32 :=
  matmul dot_S577x768_S768x1024_S577x1024_1_0_0_1_n_n none (tokM v9) v2 (constant (F := Ideal) S577x1024 .f32 0x00000000#32)

/-- The leaky rectifier on the logits. -/
def leakyM : FVec Ideal S577x1024 .f32 :=
  select (cmpf .oge (logitM v2 v9) (broadcast S577x1024 (Scalar.ofBits (F := Ideal) .f32 0x00000000#32))) (logitM v2 v9)
    (mulf (broadcast S577x1024 (Scalar.ofBits (F := Ideal) .f32 0x3DCCCCCD#32)) (logitM v2 v9))

/-- Each token's sum of squared rectified logits. -/
def sqSumV : FVec Ideal S577 .f32 :=
  multiReduction .add [1] S577 (mulf (leakyM v2 v9) (leakyM v2 v9)) 0x00000000#32 Gen.reduces_S577x1024_S577 (.inl rfl) rfl

/-- Each token's floored Euclidean norm, as a column. -/
def normC : FVec Ideal S577x1 .f32 :=
  maximumf (sqrt (shapeCast S577x1 (sqSumV v2 v9) Gen.shapeCasts_S577_S577x1))
    (broadcast S577x1 (Scalar.ofBits (F := Ideal) .f32 0x322BCC77#32))

/-- The normalised, smoothed logits. -/
def scaledM : FVec Ideal S577x1024 .f32 :=
  mulf (divf (leakyM v2 v9) (broadcastTo S577x1024 (normC v2 v9) Gen.broadcasts_S577x1_S577x1024))
    (broadcast S577x1024 (Scalar.ofBits (F := Ideal) .f32 0x40800000#32))

/-- Each phrase's largest smoothed logit over the tokens. -/
def colMaxV : FVec Ideal S1024 .f32 :=
  multiReduction .maximumf [0] S1024 (scaledM v2 v9) 0xFF800000#32 Gen.reduces_S577x1024_S1024 (.inl rfl) rfl

/-- The exponentials of the smoothed logits below their phrase's maximum. -/
def exM : FVec Ideal S577x1024 .f32 :=
  exp (subf (scaledM v2 v9)
    (broadcastTo S577x1024 (shapeCast S1x1024 (colMaxV v2 v9) Gen.shapeCasts_S1024_S1x1024) Gen.broadcasts_S1x1024_S577x1024))

/-- Each phrase's sum of exponentials over the tokens. -/
def exSumV : FVec Ideal S1024 .f32 :=
  multiReduction .add [0] S1024 (exM v2 v9) 0x00000000#32 Gen.reduces_S577x1024_S1024 (.inl rfl) rfl

/-- The softmax weights. -/
def softM : FVec Ideal S577x1024 .f32 :=
  divf (exM v2 v9)
    (broadcastTo S577x1024 (shapeCast S1x1024 (exSumV v2 v9) Gen.shapeCasts_S1024_S1x1024) Gen.broadcasts_S1x1024_S577x1024)

/-- The weighted contexts: transposed token rows times the softmax weights. -/
def ctxM : FVec Ideal S768x1024 .f32 :=
  matmul dot_S768x577_S577x1024_S768x1024_1_0_0_1_n_n none
    (transpose S768x577 [1, 0] (tokM v9) Gen.transposes_S577x768_p1_0_S768x577)
    (truncf .bf16 (softM v2 v9) Gen.bitsLt_bf16_f32) (constant (F := Ideal) S768x1024 .f32 0x00000000#32)

/-- Each phrase's inner product with its context. -/
def dotV : FVec Ideal S1024 .f32 :=
  multiReduction .add [0] S1024 (mulf v4 (ctxM v2 v9)) 0x00000000#32 Gen.reduces_S768x1024_S1024 (.inl rfl) rfl

/-- Each context's sum of squares. -/
def ctxSqV : FVec Ideal S1024 .f32 :=
  multiReduction .add [0] S1024 (mulf (ctxM v2 v9) (ctxM v2 v9)) 0x00000000#32 Gen.reduces_S768x1024_S1024 (.inl rfl) rfl

/-- The cosines, as one row. -/
def simR : FVec Ideal S1x1024 .f32 :=
  divf (shapeCast S1x1024 (dotV v2 v4 v9) Gen.shapeCasts_S1024_S1x1024)
    (maximumf (mulf v6 (sqrt (shapeCast S1x1024 (ctxSqV v2 v9) Gen.shapeCasts_S1024_S1x1024)))
      (broadcast S1x1024 (Scalar.ofBits (F := Ideal) .f32 0x322BCC77#32)))

/-- The cosines, as a vector. -/
def simV : FVec Ideal S1024 .f32 := shapeCast S1024 (simR v2 v4 v6 v9) Gen.shapeCasts_S1x1024_S1024

/-- The body's value is the last of these. -/
theorem pay5_eq : Gen.k0_pay5 (F := Ideal) v2 v4 v6 v9 = simV v2 v4 v6 v9 := rfl

end Terms

/-! ## Each value at an index -/

section AtIndex

variable (v2 : FVec Ideal S768x1024 .bf16) (v4 : FVec Ideal S768x1024 .f32) (v6 : FVec Ideal S1x1024 .f32)
  (v9 : Vec Ideal S1x577x768 .bf16) (q : Fin 1024 → Fin 768 → EReal)

/-- The token rows the body reads: row `l`, feature `d` of the one image loaded. -/
abbrev tok : Fin 577 → Fin 768 → EReal := fun l d => v9 (ix3 (0 : Fin 1) l d)

/-- The token matrix at `(l, d)`. -/
theorem tokM_apply (l : Fin 577) (d : Fin 768) : tokM v9 (ix2 l d) = tok v9 l d :=
  shapeCast_1ab_ab_apply v9 Gen.shapeCasts_S1x577x768_S577x768 l d

variable (h2 : ∀ (d : Fin 768) (n : Fin 1024), v2 (ix2 d n) = q n d)
include h2

/-- The first product at `(l, n)` is the logit: the inner product of token row `l` and phrase row `n`. -/
theorem logitM_apply (l : Fin 577) (n : Fin 1024) : logitM v2 v9 (ix2 l n) = Cert.XAttn.logit (tok v9) q l n := by
  unfold logitM
  refine (PlainMatmul.matmul_zero_apply Gen.dot_S577x768_S768x1024_S577x1024_1_0_0_1_n_n_wf none (tokM v9) v2 l n).trans ?_
  unfold Cert.XAttn.logit
  exact Finset.sum_congr rfl fun d _ => by rw [tokM_apply, h2]

/-- The rectified logit at `(l, n)`. -/
theorem leakyM_apply (l : Fin 577) (n : Fin 1024) : leakyM v2 v9 (ix2 l n) = Cert.XAttn.leaky (tok v9) q l n := by
  have e := logitM_apply v2 v9 q h2 l n
  unfold leakyM Cert.XAttn.leaky
  show Scalar.select (Ideal.cmp .oge (logitM v2 v9 (ix2 l n)) (Ideal.ofBits .f32 0x00000000#32)) (logitM v2 v9 (ix2 l n))
    (Ideal.ofBits .f32 0x3DCCCCCD#32 * logitM v2 v9 (ix2 l n)) = _
  rw [e]

/-- Token `l`'s sum of squares: a sum over the phrases. -/
theorem sqSumV_apply (l : Fin 577) :
    sqSumV v2 v9 (ix1 l) = ∑ n : Fin 1024, Cert.XAttn.leaky (tok v9) q l n * Cert.XAttn.leaky (tok v9) q l n := by
  unfold sqSumV
  refine (PlainMatmul.sum_axis1_apply (mulf (leakyM v2 v9) (leakyM v2 v9)) 0x00000000#32 Gen.reduces_S577x1024_S577
    (.inl rfl) rfl l).trans ?_
  exact Finset.sum_congr rfl fun n _ => by
    show leakyM v2 v9 (ix2 l n) * leakyM v2 v9 (ix2 l n) = _
    rw [leakyM_apply v2 v9 q h2]

/-- Token `l`'s floored norm. -/
theorem normC_apply (l : Fin 577) : normC v2 v9 (ix2 l (0 : Fin 1)) = Cert.XAttn.rowNorm (tok v9) q l := by
  unfold normC Cert.XAttn.rowNorm
  show max (Ideal.sqrt (shapeCast S577x1 (sqSumV v2 v9) Gen.shapeCasts_S577_S577x1 (ix2 l (0 : Fin 1))))
    (Ideal.ofBits .f32 0x322BCC77#32) = _
  rw [shapeCast_a_a1_apply, sqSumV_apply v2 v9 q h2]

/-- The normalised, smoothed logit at `(l, n)`. -/
theorem scaledM_apply (l : Fin 577) (n : Fin 1024) : scaledM v2 v9 (ix2 l n) = Cert.XAttn.scaled (tok v9) q l n := by
  unfold scaledM Cert.XAttn.scaled
  show Ideal.div (leakyM v2 v9 (ix2 l n))
      (broadcastTo S577x1024 (normC v2 v9) Gen.broadcasts_S577x1_S577x1024 (ix2 l n))
    * Ideal.ofBits .f32 0x40800000#32 = _
  rw [broadcastTo_a1_ab_apply, leakyM_apply v2 v9 q h2, normC_apply v2 v9 q h2]

/-- Phrase `n`'s maximum over the tokens: the fold of `max` from the least value. -/
theorem colMaxV_apply (n : Fin 1024) : colMaxV v2 v9 (ix1 n) = Cert.XAttn.colMax (tok v9) q n := by
  unfold colMaxV Cert.XAttn.colMax
  refine (PlainMatmul.max_axis0_apply (scaledM v2 v9) 0xFF800000#32 Gen.reduces_S577x1024_S1024 (.inl rfl) rfl n).trans ?_
  have hf : (fun l : Fin 577 => scaledM v2 v9 (ix2 l n)) = fun l => Cert.XAttn.scaled (tok v9) q l n :=
    funext fun l => scaledM_apply v2 v9 q h2 l n
  rw [hf]

/-- The exponential at `(l, n)`. -/
theorem exM_apply (l : Fin 577) (n : Fin 1024) : exM v2 v9 (ix2 l n) = Cert.XAttn.ex (tok v9) q l n := by
  unfold exM Cert.XAttn.ex
  show Ideal.exp (scaledM v2 v9 (ix2 l n)
    - broadcastTo S577x1024 (shapeCast S1x1024 (colMaxV v2 v9) Gen.shapeCasts_S1024_S1x1024)
        Gen.broadcasts_S1x1024_S577x1024 (ix2 l n)) = _
  rw [broadcastTo_1b_ab_apply, shapeCast_a_1a_apply, scaledM_apply v2 v9 q h2, colMaxV_apply v2 v9 q h2]

/-- Phrase `n`'s sum of exponentials over the tokens. -/
theorem exSumV_apply (n : Fin 1024) : exSumV v2 v9 (ix1 n) = ∑ l : Fin 577, Cert.XAttn.ex (tok v9) q l n := by
  unfold exSumV
  refine (PlainMatmul.sum_axis0_apply (exM v2 v9) 0x00000000#32 Gen.reduces_S577x1024_S1024 (.inl rfl) rfl n).trans ?_
  exact Finset.sum_congr rfl fun l _ => exM_apply v2 v9 q h2 l n

/-- The softmax weight at `(l, n)`. -/
theorem softM_apply (l : Fin 577) (n : Fin 1024) : softM v2 v9 (ix2 l n) = Cert.XAttn.soft (tok v9) q l n := by
  unfold softM Cert.XAttn.soft
  show Ideal.div (exM v2 v9 (ix2 l n))
    (broadcastTo S577x1024 (shapeCast S1x1024 (exSumV v2 v9) Gen.shapeCasts_S1024_S1x1024)
      Gen.broadcasts_S1x1024_S577x1024 (ix2 l n)) = _
  rw [broadcastTo_1b_ab_apply, shapeCast_a_1a_apply, exM_apply v2 v9 q h2, exSumV_apply v2 v9 q h2]

/-- The second product at `(d, n)` is the weighted context of phrase `n`, feature `d`: a sum over the tokens. -/
theorem ctxM_apply (d : Fin 768) (n : Fin 1024) : ctxM v2 v9 (ix2 d n) = Cert.XAttn.ctx (tok v9) q n d := by
  unfold ctxM
  refine (PlainMatmul.matmul_zero_apply Gen.dot_S768x577_S577x1024_S768x1024_1_0_0_1_n_n_wf none
    (transpose S768x577 [1, 0] (tokM v9) Gen.transposes_S577x768_p1_0_S768x577)
    (truncf .bf16 (softM v2 v9) Gen.bitsLt_bf16_f32) d n).trans ?_
  unfold Cert.XAttn.ctx
  exact Finset.sum_congr rfl fun l _ => by
    rw [transpose_ix2_apply, tokM_apply, truncf_apply, softM_apply v2 v9 q h2]

/-- Context `n`'s sum of squares: a sum over the features. -/
theorem ctxSqV_apply (n : Fin 1024) :
    ctxSqV v2 v9 (ix1 n) = ∑ d : Fin 768, Cert.XAttn.ctx (tok v9) q n d * Cert.XAttn.ctx (tok v9) q n d := by
  unfold ctxSqV
  refine (PlainMatmul.sum_axis0_apply (mulf (ctxM v2 v9) (ctxM v2 v9)) 0x00000000#32 Gen.reduces_S768x1024_S1024
    (.inl rfl) rfl n).trans ?_
  exact Finset.sum_congr rfl fun d _ => by
    show ctxM v2 v9 (ix2 d n) * ctxM v2 v9 (ix2 d n) = _
    rw [ctxM_apply v2 v9 q h2]

variable (h4 : ∀ (d : Fin 768) (n : Fin 1024), v4 (ix2 d n) = q n d)
include h4

/-- Phrase `n`'s inner product with its context: a sum over the features. -/
theorem dotV_apply (n : Fin 1024) :
    dotV v2 v4 v9 (ix1 n) = ∑ d : Fin 768, q n d * Cert.XAttn.ctx (tok v9) q n d := by
  unfold dotV
  refine (PlainMatmul.sum_axis0_apply (mulf v4 (ctxM v2 v9)) 0x00000000#32 Gen.reduces_S768x1024_S1024
    (.inl rfl) rfl n).trans ?_
  exact Finset.sum_congr rfl fun d _ => by
    show v4 (ix2 d n) * ctxM v2 v9 (ix2 d n) = _
    rw [h4, ctxM_apply v2 v9 q h2]

variable (h6 : ∀ n : Fin 1024, v6 (ix2 (0 : Fin 1) n) = Cert.XAttn.qNorm q n)
include h6

/-- The row of cosines at `(0, n)`. -/
theorem simR_apply (n : Fin 1024) : simR v2 v4 v6 v9 (ix2 (0 : Fin 1) n) = Cert.XAttn.sim (tok v9) q n := by
  unfold simR Cert.XAttn.sim
  show Ideal.div (shapeCast S1x1024 (dotV v2 v4 v9) Gen.shapeCasts_S1024_S1x1024 (ix2 (0 : Fin 1) n))
    (max (v6 (ix2 (0 : Fin 1) n)
        * Ideal.sqrt (shapeCast S1x1024 (ctxSqV v2 v9) Gen.shapeCasts_S1024_S1x1024 (ix2 (0 : Fin 1) n)))
      (Ideal.ofBits .f32 0x322BCC77#32)) = _
  rw [shapeCast_a_1a_apply, shapeCast_a_1a_apply, dotV_apply v2 v4 v9 q h2 h4, ctxSqV_apply v2 v9 q h2, h6]

/-- The vector of cosines at `n`. -/
theorem simV_apply (n : Fin 1024) : simV v2 v4 v6 v9 (ix1 n) = Cert.XAttn.sim (tok v9) q n := by
  unfold simV
  rw [shapeCast_1a_a_apply, simR_apply v2 v4 v6 v9 q h2 h4 h6]

end AtIndex

/-! ## The payloads at an index -/

/-- THE BODY'S VALUE AT PHRASE `n` is the similarity of the specification, over the token rows loaded and the phrase
    rows the three phrase operands hold. -/
theorem pay5_apply (v2 : FVec Ideal S768x1024 .bf16) (v4 : FVec Ideal S768x1024 .f32) (v6 : FVec Ideal S1x1024 .f32)
    (v9 : Vec Ideal S1x577x768 .bf16) (q : Fin 1024 → Fin 768 → EReal)
    (h2 : ∀ (d : Fin 768) (n : Fin 1024), v2 (ix2 d n) = q n d) (h4 : ∀ (d : Fin 768) (n : Fin 1024), v4 (ix2 d n) = q n d)
    (h6 : ∀ n : Fin 1024, v6 (ix2 (0 : Fin 1) n) = Cert.XAttn.qNorm q n) (n : Fin 1024) :
    Gen.k0_pay5 (F := Ideal) v2 v4 v6 v9 (ix1 n) = Cert.XAttn.sim (fun l d => v9 (ix3 (0 : Fin 1) l d)) q n := by
  rw [pay5_eq]
  exact simV_apply v2 v4 v6 v9 q h2 h4 h6 n

/-- The phrase matrix transposed: `(d, n)` reads `(n, d)`. -/
theorem pay1_apply (x1 : Vec Ideal S1024x768 .bf16) (d : Fin 768) (n : Fin 1024) :
    Gen.k0_pay1 (F := Ideal) x1 (ix2 d n) = x1 (ix2 n d) := by
  show transpose S768x1024 [1, 0] (shapeCast S1024x768 x1 Gen.shapeCasts_S1024x768_S1024x768)
    Gen.transposes_S1024x768_p1_0_S768x1024 (ix2 d n) = _
  rw [transpose_ix2_apply, shapeCast_self]

/-- A cast to the same shape changes nothing. -/
theorem pay2_apply (x2 : Vec Ideal S768x1024 .f32) (j : S768x1024.Idx) : Gen.k0_pay2 (F := Ideal) x2 j = x2 j := by
  show shapeCast S768x1024 x2 Gen.shapeCasts_S768x1024_S768x1024 j = _
  rw [shapeCast_self]

/-- A cast to the same shape changes nothing. -/
theorem pay3_apply (x3 : Vec Ideal S1x1024 .f32) (j : S1x1024.Idx) : Gen.k0_pay3 (F := Ideal) x3 j = x3 j := by
  show shapeCast S1x1024 x3 Gen.shapeCasts_S1x1024_S1x1024 j = _
  rw [shapeCast_self]

/-- A vector laid out as one row: `(0, n)` reads `n`. -/
theorem pay4_apply (v : FVec Ideal S1024 .f32) (n : Fin 1024) :
    Gen.k0_pay4 (F := Ideal) v (ix2 (0 : Fin 1) n) = v (ix1 n) := by
  show shapeCast S1x1024 v Gen.shapeCasts_S1024_S1x1024 (ix2 (0 : Fin 1) n) = _
  rw [shapeCast_a_1a_apply]

end Cert.KernelIdeal.KerPay

end
-- ==== Proof.LibHostRowScalar.lean ====
/-
  Host layout steps read at an index written by coordinates, for any element type and any extents, and two
  identities between a reshape and a broadcast.

  A row `[1, b]` copied down `a` rows reads, at `(i, j)`, the row at `j`.  A vector `[b]` broadcast to the single row `[1, b]` reads, at `(u, j)`, the vector at `j`.
  Reshaping a vector `[a]` to the column `[a, 1]` keeps the elements in row-major order, and so does broadcasting it
  along the new unit axis: the two arrays are equal; likewise for the row `[1, b]`.  General; no program is imported.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- A row `[1, b]` copied down `a` rows reads, at `(i, j)`, the row at `j`. -/
theorem broadcastInDim_row_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply ![0, 1] h v (ix2 i j) (ix2 (0 : Fin 1) j) fun ax => ?_
  match ax with
  | ⟨0, _⟩ => exact (if_pos rfl).symm
  | ⟨1, _⟩ =>
    show j.val = if b = 1 then 0 else j.val
    split
    · have := j.isLt; omega
    · rfl

/-- A vector `[b]` broadcast to the single row `[1, b]` reads, at `(u, j)`, the vector at `j`. -/
theorem broadcastInDim_vec_row_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply ![1] h x (ix2 u j) (ix1 j) fun ax => ?_
  match ax with
  | ⟨0, _⟩ =>
    show j.val = if b = 1 then 0 else j.val
    split
    · have := j.isLt; omega
    · rfl

/-- A vector `[a]` broadcast to the column `[a, 1]` reads, at `(i, u)`, the vector at `i`. -/
theorem broadcastInDim_vec_column_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The reshape of a vector to the column `[a, 1]` is its broadcast along the new unit axis. -/
theorem shapeCast_column_eq_broadcastInDim {a : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨i, u, rfl⟩ : ∃ (i : Fin a) (u : Fin 1), j = ix2 i u := ⟨j 0, j 1, eq_ix2 j⟩
  rw [broadcastInDim_vec_column_apply]
  exact shapeCast_apply x hc _ _ (by
    have hu : u.val = 0 := by omega
    rw [Shape.rowMajor_val_two, Shape.rowMajor_val_one]
    show i.val = i.val * 1 + u.val
    rw [hu, Nat.mul_one, Nat.add_zero])

/-- The reshape of a vector to the row `[1, b]` is its broadcast along the new unit axis. -/
theorem shapeCast_row_eq_broadcastInDim {b : ℕ} (x : (⟨1, ![b]⟩ : Shape).Idx → α)
    (hc : (⟨1, ![b]⟩ : Shape).ShapeCasts ⟨2, ![1, b]⟩) (hb : (⟨1, ![b]⟩ : Shape).BroadcastsInDim ⟨2, ![1, b]⟩ ![1]) :
    shapeCast ⟨2, ![1, b]⟩ x hc = broadcastInDim ⟨2, ![1, b]⟩ ![1] hb x := by
  funext j
  obtain ⟨u, i, rfl⟩ : ∃ (u : Fin 1) (i : Fin b), j = ix2 u i := ⟨j 0, j 1, eq_ix2 j⟩
  rw [broadcastInDim_vec_row_apply, shapeCast_a_1a_apply]

end Idealize.ShloMosaic.ValueIdx
-- ==== Proof.LibHostLayout.lean ====
/-
  Host layout steps read at an index written by coordinates, for any extents.

  A vector of `b` entries broadcast first to the single row `[1, b]` and then down `a` rows reads, at `(i, j)`, the
  vector at `j`.  A column `[a, 1]` broadcast along `b` columns reads, at `(i, j)`, the column at row `i`.  A vector of
  `a` entries broadcast to the column `[a, 1]` reads, at `(i, u)`, the vector at `i`.  The host's sum of a matrix along
  its rows, at the ideal values, is the initial value plus the sum of that row's entries.  General; no program is
  imported.
-/
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

noncomputable section

open scoped BigOperators

namespace Idealize.ShloMosaic.ValueIdx

open Idealize.ShloMosaic

variable {α : Type}

/-- A vector `[b]` made the row `[1, b]` and copied down `a` rows reads, at `(i, j)`, the vector at `j`. -/
theorem broadcastInDim_vec_rows_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (i : Fin a) (j : Fin b) :
    broadcastInDim ⟨2, ![a, b]⟩ ![0, 1] h2 (broadcastInDim ⟨2, ![1, b]⟩ ![1] h1 x) (ix2 i j) = x (ix1 j) := by
  refine (broadcastInDim_apply ![0, 1] h2 _ (ix2 i j) (ix2 (0 : Fin 1) j) fun ax => ?_).trans
    (broadcastInDim_apply ![1] h1 x (ix2 (0 : Fin 1) j) (ix1 j) fun ax => ?_)
  · match ax with
    | ⟨0, _⟩ => exact (if_pos rfl).symm
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

/-- A column `[a, 1]` copied along `b` columns reads, at `(i, j)`, the column at row `i`. -/
theorem broadcastInDim_col_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ => exact (if_pos rfl).symm

/-- A vector `[a]` made the column `[a, 1]` reads, at `(i, u)`, the vector at `i`. -/
theorem broadcastInDim_vec_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's sum of a matrix along its rows, at the ideal values, read at row `i`: the initial value plus the
    sum of the row's entries. -/
theorem hostRowSum_apply {a b : ℕ} {u : Shape} (z : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd z init h' hu (ix1 i) = init (Shape.Idx.first hu) + ∑ k : Fin b, z (ix2 i k) := by
  refine (hostReduceAdd_apply z init h' hu (ix1 i)).trans ((Ideal.hostReduceAdd_single h' h z _ (ix1 i)).trans ?_)
  refine congrArg (fun s => init (Shape.Idx.first hu) + s) ?_
  show ∑ k : Fin b, z (h.lift (ix1 i) k) = _
  refine Finset.sum_congr rfl fun k _ => congrArg z ?_
  funext ax; apply Fin.ext
  fin_cases ax <;> rfl

end Idealize.ShloMosaic.ValueIdx

end
-- ==== Proof.KerSim.lean ====
/-
  The kernel's similarity array, read at an index, is the specification.

  Row `b` of the array is the body's similarity payload of image `b` of the (format-changed) token array and of the
  three resident arrays.  At the ideal values the format change is the identity, the transposed phrase rows read
  the phrase rows with the coordinates exchanged, and the row of norms reads the square root of each phrase row's
  sum of squares; so the payload is the specification's similarity of image `b` against the phrase rows.
-/
import proofs.«134603_j83648783057700_1_alg».proof.Proof.KerArray
import proofs.«134603_j83648783057700_1_alg».proof.Proof.KerPay
import proofs.«134603_j83648783057700_1_alg».proof.Proof.LibHostRowScalar
import proofs.«134603_j83648783057700_1_alg».proof.Proof.LibHostLayout
import Idealize.ShloMosaic.Lib.ValueLayout

noncomputable section

namespace Cert.KernelIdeal.SimArray

open Idealize.ShloMosaic Idealize.ShloMosaic.ValueIdx
open Cert.KernelIdeal Cert.KernelIdeal.Gen

/-- The row of phrase norms the host computes, read at phrase `n`. -/
theorem normRow_apply (A4 : FVec Ideal S1024x768 .f32) (n : Fin 1024) :
    broadcastInDim S1x1024 ![1] bcast_S1024_S1x1024_1
        (Host.sqrt (F := Ideal)
          (Host.reduceAdd (F := Ideal) (mulf A4 A4) (constant (F := Ideal) S_ .f32 0x00000000#32) reducesTo_S1024x768_S1024_d1 h_S_))
        (ix2 (0 : Fin 1) n)
      = Cert.XAttn.qNorm (fun n d => A4 (ix2 n d)) n := by
  rw [broadcastInDim_vec_row_apply]
  show Ideal.sqrt (Host.reduceAdd (F := Ideal) (mulf A4 A4) (constant (F := Ideal) S_ .f32 0x00000000#32) reducesTo_S1024x768_S1024_d1 h_S_ (ix1 n)) = _
  rw [hostRowSum_apply (mulf A4 A4) _ reducesTo_S1024x768_S1024_d1
    ⟨reducesTo_S1024x768_S1024_d1.1, Nat.succ_pos 0, reducesTo_S1024x768_S1024_d1.2⟩ h_S_ n]
  show Ideal.sqrt (Ideal.ofBits .f32 0x00000000#32 + ∑ k : Fin 768, A4 (ix2 n k) * A4 (ix2 n k)) = _
  rw [Ideal.ofBits_zero_f32, zero_add]
  rfl

/-- THE KERNEL'S SIMILARITY at image `b`, phrase `n`. -/
theorem simArr_apply (A4 : FVec Ideal S1024x768 .f32) (A6 : FVec Ideal S128x577x768 .f32) (b : Fin 128) (n : Fin 1024) :
    simArr (F := Ideal) (truncf .bf16 A6 bitsLt_bf16_f32) (truncf .bf16 A4 bitsLt_bf16_f32)
        (transpose S768x1024 [1, 0] A4 transposes_S1024x768_S768x1024_1_0)
        (broadcastInDim S1x1024 ![1] bcast_S1024_S1x1024_1
          (Host.sqrt (F := Ideal)
            (Host.reduceAdd (F := Ideal) (mulf A4 A4) (constant (F := Ideal) S_ .f32 0x00000000#32) reducesTo_S1024x768_S1024_d1 h_S_)))
        (ix2 b n)
      = Cert.XAttn.sim (fun l d => A6 (ix3 b l d)) (fun n d => A4 (ix2 n d)) n := by
  show k0_pay4 (k0_pay5 (k0_pay1 (truncf .bf16 A4 bitsLt_bf16_f32)) (k0_pay2 (transpose S768x1024 [1, 0] A4 transposes_S1024x768_S768x1024_1_0))
      (k0_pay3 (broadcastInDim S1x1024 ![1] bcast_S1024_S1x1024_1
          (Host.sqrt (F := Ideal)
            (Host.reduceAdd (F := Ideal) (mulf A4 A4) (constant (F := Ideal) S_ .f32 0x00000000#32) reducesTo_S1024x768_S1024_d1 h_S_))))
      (imageOf (truncf .bf16 A6 bitsLt_bf16_f32) b)) (ix2 (0 : Fin 1) n) = _
  rw [KerPay.pay4_apply]
  have h2 : ∀ (d : Fin 768) (n : Fin 1024),
      k0_pay1 (F := Ideal) (truncf .bf16 A4 bitsLt_bf16_f32) (ix2 d n) = (fun n d => A4 (ix2 n d)) n d :=
    fun d n => KerPay.pay1_apply (truncf .bf16 A4 bitsLt_bf16_f32) d n
  have h4 : ∀ (d : Fin 768) (n : Fin 1024),
      k0_pay2 (F := Ideal) (transpose S768x1024 [1, 0] A4 transposes_S1024x768_S768x1024_1_0) (ix2 d n) = (fun n d => A4 (ix2 n d)) n d :=
    fun d n => (KerPay.pay2_apply _ _).trans (transpose_ix2_apply A4 _ d n)
  have h6 : ∀ n : Fin 1024,
      k0_pay3 (F := Ideal) (broadcastInDim S1x1024 ![1] bcast_S1024_S1x1024_1
          (Host.sqrt (F := Ideal)
            (Host.reduceAdd (F := Ideal) (mulf A4 A4) (constant (F := Ideal) S_ .f32 0x00000000#32) reducesTo_S1024x768_S1024_d1 h_S_)))
        (ix2 (0 : Fin 1) n) = Cert.XAttn.qNorm (fun n d => A4 (ix2 n d)) n :=
    fun n => (KerPay.pay3_apply _ _).trans (normRow_apply A4 n)
  exact (KerPay.pay5_apply _ _ _ _ (fun n d => A4 (ix2 n d)) h2 h4 h6 n).trans rfl

end Cert.KernelIdeal.SimArray

end
-- ==== Proof.KTerms.lean ====
/-
  The host-side parts of the loss as pure functions of arrays, spelt with the operations the program applies:
  the log-sigmoid (through the softplus), the image-text contrastive term, the phrase labels, the phrase
  term, and the cross-attention term from a similarity array; their sum is the loss.
-/
import proofs.«134603_j83648783057700_1_alg».proof.KernelIdeal
import proofs.«134603_j83648783057700_1_alg».proof.Proof.Gen.KernelIdeal
import Idealize.ShloMosaic.PureOps.Ideal

noncomputable section

namespace Cert.KernelIdeal.HostTerms

open Idealize.ShloMosaic Cert.KernelIdeal Cert.KernelIdeal.Facts₀ Cert.KernelIdeal.Facts

/-- Zero arrays. -/
def zeros128 : FVec Ideal S128x128 .f32 := broadcastInDim S128x128 ![] bcast_S_S128x128 (constant (F := Ideal) S_ .f32 0x00000000#32)
def zeros1024 : FVec Ideal S128x1024 .f32 := broadcastInDim S128x1024 ![] bcast_S_S128x1024 (constant (F := Ideal) S_ .f32 0x00000000#32)

/-- The softplus, guarded as the source guards it. -/
def softplus128 (x : FVec Ideal S128x128 .f32) : FVec Ideal S128x128 .f32 :=
  select (cmpf .une (subf x zeros128) (subf x zeros128)) (addf x zeros128)
    (addf (maximumf x zeros128) (Host.log1p (Host.exp (Host.negf (Host.absf (subf x zeros128))))))
def softplus1024 (x : FVec Ideal S128x1024 .f32) : FVec Ideal S128x1024 .f32 :=
  select (cmpf .une (subf x zeros1024) (subf x zeros1024)) (addf x zeros1024)
    (addf (maximumf x zeros1024) (Host.log1p (Host.exp (Host.negf (Host.absf (subf x zeros1024))))))

/-- The log-sigmoid: minus the softplus of the negation. -/
def logSig128 (x : FVec Ideal S128x128 .f32) : FVec Ideal S128x128 .f32 := Host.negf (softplus128 (Host.negf x))
def logSig1024 (x : FVec Ideal S128x1024 .f32) : FVec Ideal S128x1024 .f32 := Host.negf (softplus1024 (Host.negf x))

/-- The image-text contrastive term. -/
def contrastive (a0 a1 : FVec Ideal S128x768 .f32) (a2 a3 : FVec Ideal S_ .f32) : FVec Ideal S_ .f32 :=
  Host.divf
    (Host.negf
      (Host.reduceAdd
        (logSig128
          (mulf
            (subf
              (mulf (broadcastInDim S128x128 ![] bcast_S_S128x128 (constant (F := Ideal) S_ .f32 0x40000000#32))
                (uitofp .f32
                  (cmpi .eq
                    (addi (iotaInDim S128x128 32 0) (broadcastInDim S128x128 ![] bcast_S_S128x128 (constantI S_ 32 0#32)))
                    (iotaInDim S128x128 32 1))))
              (broadcastInDim S128x128 ![] bcast_S_S128x128 (constant (F := Ideal) S_ .f32 0x3F800000#32)))
            (addf
              (mulf
                (Host.dotGeneral (F := Ideal) dot_S128x768_S768x128_S128x128_1_0_0_1_n_n none a0
                  (transpose S768x128 [1, 0] a1 transposes_S128x768_S768x128_1_0))
                (broadcastInDim S128x128 ![] bcast_S_S128x128 a2))
              (broadcastInDim S128x128 ![] bcast_S_S128x128 a3))))
        (constant (F := Ideal) S_ .f32 0x00000000#32) reducesTo_S128x128_S_d0_1 h_S_))
    (constant (F := Ideal) S_ .f32 0x43000000#32)

/-- The phrase labels: plus one where the phrase belongs to the image, minus one elsewhere. -/
def labels (a5 : (⟨S1024, .i32⟩ : BufTy).Contents (Elt Ideal)) : FVec Ideal S128x1024 .f32 :=
  id
    (select
      (cmpi .eq
        (broadcastInDim S128x1024 ![0, 1] bcast_S1x1024_S128x1024_0_1 (broadcastInDim S1x1024 ![1] bcast_S1024_S1x1024_1 a5))
        (broadcastInDim S128x1024 ![0, 1] bcast_S128x1_S128x1024_0_1 (broadcastInDim S128x1 ![0] bcast_S128_S128x1_0 (iotaInDim S128 32 0))))
      (broadcastInDim S128x1024 ![] bcast_S_S128x1024 (constant (F := Ideal) S_ .f32 0x3F800000#32))
      (broadcastInDim S128x1024 ![] bcast_S_S128x1024 (constant (F := Ideal) S_ .f32 0xBF800000#32)))

/-- The scaled, shifted logits against the labels, through the log-sigmoid, summed, negated, averaged. -/
def meanTerm (lab : FVec Ideal S128x1024 .f32) (a2 a3 : FVec Ideal S_ .f32) (x : FVec Ideal S128x1024 .f32) : FVec Ideal S_ .f32 :=
  Host.divf
    (Host.negf
      (Host.reduceAdd
        (logSig1024
          (mulf lab
            (addf (mulf x (broadcastInDim S128x1024 ![] bcast_S_S128x1024 a2)) (broadcastInDim S128x1024 ![] bcast_S_S128x1024 a3))))
        (constant (F := Ideal) S_ .f32 0x00000000#32) reducesTo_S128x1024_S_d0_1 h_S_))
    (constant (F := Ideal) S_ .f32 0x44800000#32)

/-- The phrase term. -/
def npc (a0 : FVec Ideal S128x768 .f32) (a2 a3 : FVec Ideal S_ .f32) (a4 : FVec Ideal S1024x768 .f32)
    (lab : FVec Ideal S128x1024 .f32) : FVec Ideal S_ .f32 :=
  mulf
    (meanTerm lab a2 a3
      (Host.dotGeneral (F := Ideal) dot_S128x768_S768x1024_S128x1024_1_0_0_1_n_n none a0
        (transpose S768x1024 [1, 0] a4 transposes_S1024x768_S768x1024_1_0)))
    (constant (F := Ideal) S_ .f32 0x3F800000#32)

/-- The loss from the first two terms and a similarity array. -/
def total (c20 c40 : FVec Ideal S_ .f32) (lab : FVec Ideal S128x1024 .f32) (a2 a3 : FVec Ideal S_ .f32)
    (sim : FVec Ideal S128x1024 .f32) : FVec Ideal S_ .f32 :=
  addf (addf c20 c40) (mulf (meanTerm lab a2 a3 sim) (constant (F := Ideal) S_ .f32 0x3C23D70A#32))

end Cert.KernelIdeal.HostTerms

end
-- ==== Proof.KerHost.lean ====
/-
  What the host lines around the region compute, at the ideal values: the four arrays the region reads (the phrase
  rows and the image tokens with their format changed, which is the identity on the extended reals; the phrase
  rows transposed; the phrase rows' Euclidean norms as a row), the two loss terms and the labels computed before
  the region, and the loss the lines after the region compute from them and from the region's result.
-/
import proofs.«134603_j83648783057700_1_alg».proof.Proof.KerArray
import proofs.«134603_j83648783057700_1_alg».proof.Proof.KTerms
import Idealize.ShloMosaic.Lib.StableHlo.Run
import Idealize.ShloMosaic.Lib.Pipeline.FrameSuffix

set_option maxRecDepth 16384

noncomputable section

namespace Cert.KernelIdeal.HostRead

open Idealize.ShloMosaic Idealize.ShloMosaic.TcCoe Idealize.ShloMosaic.StableHlo
open Idealize.SL Idealize.SL.Sem
open Cert.KernelIdeal Cert.KernelIdeal.Gen Cert.KernelIdeal.HostTerms

variable (m : (ℓ : Loc nD τ sig) → Buf (Elt Ideal) ℓ)

/-- The lines after the region, from any contents: the loss of the two earlier terms, the labels, the scale and
    the shift, and the similarity array. -/
theorem tail_of (X : Valuation τ sig (Elt Ideal)) :
    after (List.flatten [hostOps1, hostOps1_1, hostOps1_2]) X (Proc.devRef .tc main_v60)
      = total (X (Proc.devRef .tc main_v20)) (X (Proc.devRef .tc main_v40)) (X (Proc.devRef .tc main_v28))
          (X (Proc.devRef .tc main_arg2)) (X (Proc.devRef .tc main_arg3)) (X (Proc.devRef .tc main_v48)) := by
  simp only [hostOps1, hostOps1_1, hostOps1_2, List.flatten_cons, List.flatten_nil, List.append_nil, List.cons_append, List.nil_append]
  after_results_simp
  rfl

/-- The lines before the region, from any contents: the four arrays the region reads. -/
theorem pre_v41 (X : Valuation τ sig (Elt Ideal)) :
    @Eq (FVec Ideal S1024x768 .bf16) (after (List.flatten [hostOps0, hostOps0_1, hostOps0_2, hostOps0_3, hostOps0_4, hostOps0_5, hostOps0_6]) X (Proc.devRef .tc main_v41))
      (truncf .bf16 (X (Proc.devRef .tc main_arg4) : FVec Ideal S1024x768 .f32) bitsLt_bf16_f32) := by
  simp only [hostOps0, hostOps0_1, hostOps0_2, hostOps0_3, hostOps0_4, hostOps0_5, hostOps0_6, List.flatten_cons, List.flatten_nil, List.append_nil, List.cons_append, List.nil_append]
  after_results_simp

theorem pre_v42 (X : Valuation τ sig (Elt Ideal)) :
    @Eq (FVec Ideal S128x577x768 .bf16) (after (List.flatten [hostOps0, hostOps0_1, hostOps0_2, hostOps0_3, hostOps0_4, hostOps0_5, hostOps0_6]) X (Proc.devRef .tc main_v42))
      (truncf .bf16 (X (Proc.devRef .tc main_arg6) : FVec Ideal S128x577x768 .f32) bitsLt_bf16_f32) := by
  simp only [hostOps0, hostOps0_1, hostOps0_2, hostOps0_3, hostOps0_4, hostOps0_5, hostOps0_6, List.flatten_cons, List.flatten_nil, List.append_nil, List.cons_append, List.nil_append]
  after_results_simp

theorem pre_v43 (X : Valuation τ sig (Elt Ideal)) :
    after (List.flatten [hostOps0, hostOps0_1, hostOps0_2, hostOps0_3, hostOps0_4, hostOps0_5, hostOps0_6]) X (Proc.devRef .tc main_v43)
      = transpose S768x1024 [1, 0] (X (Proc.devRef .tc main_arg4)) transposes_S1024x768_S768x1024_1_0 := by
  simp only [hostOps0, hostOps0_1, hostOps0_2, hostOps0_3, hostOps0_4, hostOps0_5, hostOps0_6, List.flatten_cons, List.flatten_nil, List.append_nil, List.cons_append, List.nil_append]
  after_results_simp

theorem pre_v47 (X : Valuation τ sig (Elt Ideal)) :
    after (List.flatten [hostOps0, hostOps0_1, hostOps0_2, hostOps0_3, hostOps0_4, hostOps0_5, hostOps0_6]) X (Proc.devRef .tc main_v47)
      = broadcastInDim S1x1024 ![1] bcast_S1024_S1x1024_1
          (Host.sqrt (F := Ideal)
            (Host.reduceAdd (F := Ideal) (mulf (X (Proc.devRef .tc main_arg4)) (X (Proc.devRef .tc main_arg4)))
              (constant (F := Ideal) S_ .f32 0x00000000#32) reducesTo_S1024x768_S1024_d1 h_S_)) := by
  simp only [hostOps0, hostOps0_1, hostOps0_2, hostOps0_3, hostOps0_4, hostOps0_5, hostOps0_6, List.flatten_cons, List.flatten_nil, List.append_nil, List.cons_append, List.nil_append]
  after_results_simp

end Cert.KernelIdeal.HostRead

end
-- ==== Proof.KerHostLoss.lean ====
/-
  The two loss terms and the labels the host lines before the region compute, at the ideal values.
-/
import proofs.«134603_j83648783057700_1_alg».proof.Proof.Gen.KernelIdeal.Frame
import proofs.«134603_j83648783057700_1_alg».proof.Proof.KTerms
import Idealize.ShloMosaic.Lib.StableHlo.Run

set_option maxRecDepth 16384

noncomputable section

namespace Cert.KernelIdeal.HostRead

open Idealize.ShloMosaic Idealize.ShloMosaic.TcCoe Idealize.ShloMosaic.StableHlo
open Idealize.SL Idealize.SL.Sem
open Cert.KernelIdeal Cert.KernelIdeal.Gen Cert.KernelIdeal.HostTerms

/-- The image-text contrastive term. -/
theorem pre_v20 (X : Valuation τ sig (Elt Ideal)) :
    after (List.flatten [hostOps0, hostOps0_1, hostOps0_2, hostOps0_3, hostOps0_4, hostOps0_5, hostOps0_6]) X (Proc.devRef .tc main_v20)
      = contrastive (X (Proc.devRef .tc main_arg0)) (X (Proc.devRef .tc main_arg1)) (X (Proc.devRef .tc main_arg2)) (X (Proc.devRef .tc main_arg3)) := by
  simp only [hostOps0, hostOps0_1, hostOps0_2, hostOps0_3, hostOps0_4, hostOps0_5, hostOps0_6, List.flatten_cons, List.flatten_nil, List.append_nil, List.cons_append, List.nil_append]
  after_results_simp
  rfl

/-- The phrase labels. -/
theorem pre_v28 (X : Valuation τ sig (Elt Ideal)) :
    after (List.flatten [hostOps0, hostOps0_1, hostOps0_2, hostOps0_3, hostOps0_4, hostOps0_5, hostOps0_6]) X (Proc.devRef .tc main_v28) = labels (X (Proc.devRef .tc main_arg5)) := by
  simp only [hostOps0, hostOps0_1, hostOps0_2, hostOps0_3, hostOps0_4, hostOps0_5, hostOps0_6, List.flatten_cons, List.flatten_nil, List.append_nil, List.cons_append, List.nil_append]
  after_results_simp
  rfl

/-- The phrase term. -/
theorem pre_v40 (X : Valuation τ sig (Elt Ideal)) :
    after (List.flatten [hostOps0, hostOps0_1, hostOps0_2, hostOps0_3, hostOps0_4, hostOps0_5, hostOps0_6]) X (Proc.devRef .tc main_v40)
      = npc (X (Proc.devRef .tc main_arg0)) (X (Proc.devRef .tc main_arg2)) (X (Proc.devRef .tc main_arg3)) (X (Proc.devRef .tc main_arg4))
          (labels (X (Proc.devRef .tc main_arg5))) := by
  simp only [hostOps0, hostOps0_1, hostOps0_2, hostOps0_3, hostOps0_4, hostOps0_5, hostOps0_6, List.flatten_cons, List.flatten_nil, List.append_nil, List.cons_append, List.nil_append]
  after_results_simp
  rfl

end Cert.KernelIdeal.HostRead

end
-- ==== Proof.KerRun.lean ====
/-
  The kernel program's run with its result named: the loss of the argument arrays, the cross-attention term taken
  from the similarity array the region leaves.
-/
import proofs.«134603_j83648783057700_1_alg».proof.Proof.KerHost
import proofs.«134603_j83648783057700_1_alg».proof.Proof.KerHostLoss

set_option maxRecDepth 16384

noncomputable section

namespace Cert.KernelIdeal.RunValue

open Idealize.ShloMosaic Idealize.ShloMosaic.TcCoe Idealize.ShloMosaic.StableHlo
open Idealize.SL Idealize.SL.Sem
open Cert.KernelIdeal Cert.KernelIdeal.Gen Cert.KernelIdeal.HostTerms Cert.KernelIdeal.HostRead Cert.KernelIdeal.SimArray

/-- The kernel program's loss as a function of the argument arrays. -/
def lossK (A0 A1 : FVec Ideal S128x768 .f32) (A2 A3 : FVec Ideal S_ .f32) (A4 : FVec Ideal S1024x768 .f32)
    (A5 : (⟨S1024, .i32⟩ : BufTy).Contents (Elt Ideal)) (A6 : FVec Ideal S128x577x768 .f32) : FVec Ideal S_ .f32 :=
  total (contrastive A0 A1 A2 A3) (npc A0 A2 A3 A4 (labels A5)) (labels A5) A2 A3
    (simArr (F := Ideal) (truncf .bf16 A6 bitsLt_bf16_f32) (truncf .bf16 A4 bitsLt_bf16_f32)
      (transpose S768x1024 [1, 0] A4 transposes_S1024x768_S768x1024_1_0)
      (broadcastInDim S1x1024 ![1] bcast_S1024_S1x1024_1
        (Host.sqrt (F := Ideal)
          (Host.reduceAdd (F := Ideal) (mulf A4 A4) (constant (F := Ideal) S_ .f32 0x00000000#32) reducesTo_S1024x768_S1024_d1 h_S_))))

variable (m : (ℓ : Loc nD τ sig) → Buf (Elt Ideal) ℓ) (ρ : Dev nD → PrngReg)

/-- What the result buffer holds after the lines that follow the region. -/
theorem tail_eq (c : Dev nD) :
    Pipeline.afterTail₀ cfgs (dats m) 0 (V0 m) [hostOps1, hostOps1_1, hostOps1_2] c main_v60
      = lossK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  unfold Pipeline.afterTail₀
  rw [tail_of]
  rw [Pipeline.withArrays_of_ne _ c (V0 m c) _ main_v20 (by exact (by decide : ∀ w, Pipeline.arrRef spec0 w ≠ main_v20)),
    Pipeline.withArrays_of_ne _ c (V0 m c) _ main_v40 (by exact (by decide : ∀ w, Pipeline.arrRef spec0 w ≠ main_v40)),
    Pipeline.withArrays_of_ne _ c (V0 m c) _ main_v28 (by exact (by decide : ∀ w, Pipeline.arrRef spec0 w ≠ main_v28)),
    Pipeline.withArrays_of_ne _ c (V0 m c) _ main_arg2 (by exact (by decide : ∀ w, Pipeline.arrRef spec0 w ≠ main_arg2)),
    Pipeline.withArrays_of_ne _ c (V0 m c) _ main_arg3 (by exact (by decide : ∀ w, Pipeline.arrRef spec0 w ≠ main_arg3))]
  have e48 : Pipeline.withArrays (cfgs 0).spec c (V0 m c) (fun w => (dats m 0 c).arrAt w (cfgs 0).N) (Proc.devRef .tc main_v48)
      = (dats m 0 c).arrAt 4 cfg0.N :=
    Pipeline.withArrays_arr spec0 launch0.win.arr_inj c (V0 m c) (fun w => (dats m 0 c).arrAt w (cfgs 0).N) 4
  rw [e48, SimArray.final m c]
  unfold lossK
  show total (V m c main_v20) (V m c main_v40) (V m c main_v28) (V m c main_arg2) (V m c main_arg3)
      (simArr (V m c main_v42) (V m c main_v41) (V m c main_v43) (V m c main_v47)) = _
  rw [V_main_arg2, V_main_arg3]
  rw [show V m c main_v20 = _ from pre_v20 (fun b => m (c, b)), show V m c main_v40 = _ from pre_v40 (fun b => m (c, b)),
    show V m c main_v28 = _ from pre_v28 (fun b => m (c, b)),
    show V m c main_v41 = _ from pre_v41 (fun b => m (c, b)), show V m c main_v42 = _ from pre_v42 (fun b => m (c, b)),
    show V m c main_v43 = _ from pre_v43 (fun b => m (c, b)), show V m c main_v47 = _ from pre_v47 (fun b => m (c, b))]

/-- THE KERNEL PROGRAM'S RUN: every weakly fair execution terminates with the result buffer at the loss of the
    argument arrays, the argument arrays unchanged. -/
theorem run : θ_run defs (onTc (τ := τ) (main (F := Ideal))) ⟨m, fun _ => 0, ρ⟩ (fun r => ∀ c : Dev nD,
      r.2.mem ((c.tc : Thread nD τ).loc main_v60)
        = lossK (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v60 (Pipeline.mem_restRefs_of main_v60 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩) (run_main m ρ)

end Cert.KernelIdeal.RunValue

end
-- ==== Proof.RefTerms.lean ====
/-
  The reference's cross-attention computation as pure functions of arrays, stage by stage, each spelt with the
  host operations the reference applies, in its order: the logits, the leaky rectifier, the row normalisation
  with the smoothing factor (laid out phrase-major), the softmax over the tokens, the weighted context, and the
  cosine similarity.  Their composition `simR` is what the reference's similarity buffer holds.
-/
import proofs.«134603_j83648783057700_1_alg».proof.ReferenceIdeal
import proofs.«134603_j83648783057700_1_alg».proof.Proof.Gen.ReferenceIdeal
import Idealize.ShloMosaic.PureOps.Ideal

noncomputable section

namespace Cert.ReferenceIdeal.Terms

open Idealize.ShloMosaic Cert.ReferenceIdeal Cert.ReferenceIdeal.Facts₀ Cert.ReferenceIdeal.Facts

/-- Token rows against phrase rows, for every image: [128, 577, 1024]. -/
def logitsR (A4 : FVec Ideal S1024x768 .f32) (A6 : FVec Ideal S128x577x768 .f32) : FVec Ideal S128x577x1024 .f32 :=
  Host.dotGeneral (F := Ideal) dot_S128x577x768_S1024x768_S128x577x1024_2_1_01_0_n_n none A6 A4

/-- The leaky rectifier, elementwise. -/
def leakyR (x : FVec Ideal S128x577x1024 .f32) : FVec Ideal S128x577x1024 .f32 :=
  select (cmpf .oge x (broadcastInDim S128x577x1024 ![] bcast_S_S128x577x1024 (constant (F := Ideal) S_ .f32 0x00000000#32)))
    x (mulf (broadcastInDim S128x577x1024 ![] bcast_S_S128x577x1024 (constant (F := Ideal) S_ .f32 0x3DCCCCCD#32)) x)

/-- The floored norm of each token's row over the phrases, as a column [128, 577, 1]. -/
def normR (y : FVec Ideal S128x577x1024 .f32) : FVec Ideal S128x577x1 .f32 :=
  maximumf
    (Host.sqrt (broadcastInDim S128x577x1 ![0, 1] bcast_S128x577_S128x577x1_0_1
      (Host.reduceAdd (mulf y y) (constant (F := Ideal) S_ .f32 0x00000000#32) reducesTo_S128x577x1024_S128x577_d2 h_S_)))
    (broadcastInDim S128x577x1 ![] bcast_S_S128x577x1 (constant (F := Ideal) S_ .f32 0x322BCC77#32))

/-- Rows divided by their norm, laid out phrase-major [128, 1024, 577], times the smoothing factor. -/
def scaledR (y : FVec Ideal S128x577x1024 .f32) : FVec Ideal S128x1024x577 .f32 :=
  mulf
    (transpose S128x1024x577 [0, 2, 1]
      (Host.divf y (broadcastInDim S128x577x1024 ![0, 1, 2] bcast_S128x577x1_S128x577x1024_0_1_2 (normR y)))
      transposes_S128x577x1024_S128x1024x577_0_2_1)
    (broadcastInDim S128x1024x577 ![] bcast_S_S128x1024x577 (constant (F := Ideal) S_ .f32 0x40800000#32))

/-- The maximum over the tokens, joined with minus infinity: [128, 1024]. -/
def maxR (z : FVec Ideal S128x1024x577 .f32) : FVec Ideal S128x1024 .f32 :=
  maximumf (broadcastInDim S128x1024 ![] bcast_S_S128x1024 (constant (F := Ideal) S_ .f32 0xFF800000#32))
    (Host.reduce FloatOps.maximumf z (constant (F := Ideal) S_ .f32 0xFF800000#32) reducesTo_S128x1024x577_S128x1024_d2 h_S_)

/-- A [128, 1024] array copied along a new last axis of extent 577. -/
def alongTokens (u : FVec Ideal S128x1024 .f32) : FVec Ideal S128x1024x577 .f32 :=
  broadcastInDim S128x1024x577 ![0, 1, 2] bcast_S128x1024x1_S128x1024x577_0_1_2
    (broadcastInDim S128x1024x1 ![0, 1] bcast_S128x1024_S128x1024x1_0_1 u)

/-- The exponentials below the maximum. -/
def expR (z : FVec Ideal S128x1024x577 .f32) : FVec Ideal S128x1024x577 .f32 :=
  Host.exp (subf z (alongTokens (maxR z)))

/-- The softmax over the tokens. -/
def softR (z : FVec Ideal S128x1024x577 .f32) : FVec Ideal S128x1024x577 .f32 :=
  Host.divf (expR z)
    (alongTokens (Host.reduceAdd (expR z) (constant (F := Ideal) S_ .f32 0x00000000#32) reducesTo_S128x1024x577_S128x1024_d2 h_S_))

/-- The weighted context [128, 1024, 768]. -/
def ctxR (s : FVec Ideal S128x1024x577 .f32) (A6 : FVec Ideal S128x577x768 .f32) : FVec Ideal S128x1024x768 .f32 :=
  Host.dotGeneral (F := Ideal) dot_S128x1024x577_S128x577x768_S128x1024x768_2_1_1_2_0_0 none s A6

/-- The phrase rows with a leading unit axis. -/
def q3R (A4 : FVec Ideal S1024x768 .f32) : FVec Ideal S1x1024x768 .f32 :=
  broadcastInDim S1x1024x768 ![1, 2] bcast_S1024x768_S1x1024x768_1_2 A4

/-- The cosine similarity from the phrase rows and the weighted context: [128, 1024]. -/
def cosR (A4 : FVec Ideal S1024x768 .f32) (w : FVec Ideal S128x1024x768 .f32) : FVec Ideal S128x1024 .f32 :=
  Host.divf
    (Host.reduceAdd (mulf (broadcastInDim S128x1024x768 ![0, 1, 2] bcast_S1x1024x768_S128x1024x768_0_1_2 (q3R A4)) w)
      (constant (F := Ideal) S_ .f32 0x00000000#32) reducesTo_S128x1024x768_S128x1024_d2 h_S_)
    (maximumf
      (mulf
        (broadcastInDim S128x1024 ![0, 1] bcast_S1x1024_S128x1024_0_1
          (Host.sqrt (Host.reduceAdd (mulf (q3R A4) (q3R A4)) (constant (F := Ideal) S_ .f32 0x00000000#32) reducesTo_S1x1024x768_S1x1024_d2 h_S_)))
        (Host.sqrt (Host.reduceAdd (mulf w w) (constant (F := Ideal) S_ .f32 0x00000000#32) reducesTo_S128x1024x768_S128x1024_d2 h_S_)))
      (broadcastInDim S128x1024 ![] bcast_S_S128x1024 (constant (F := Ideal) S_ .f32 0x322BCC77#32)))

/-- What the reference's similarity buffer holds, from the phrase rows and the image tokens. -/
def simR (A4 : FVec Ideal S1024x768 .f32) (A6 : FVec Ideal S128x577x768 .f32) : FVec Ideal S128x1024 .f32 :=
  cosR A4 (ctxR (softR (scaledR (leakyR (logitsR A4 A6)))) A6)

end Cert.ReferenceIdeal.Terms

end
-- ==== Proof.LibRowMax3.lean ====
import Idealize.ShloMosaic.Lib.ValueIdx
import Idealize.ShloMosaic.PureOps.Ideal.Laws

/-!
  A MAXIMUM OVER THE LAST AXIS OF A RANK-3 ARRAY AS A FOLD.

  The host's reduction with a maximum body over the LAST axis of `x : [A, B, J]` is, at the ideal values and
  at `(a, r)`, the fold of `max` from the initial value over the entries `x (a, r, c')`, `c' < J`.  The
  maximum is commutative and associative, so the order in which the host visits the axis does not matter.
-/

open Idealize.ShloMosaic Idealize.ShloMosaic.ValueIdx

namespace RowMax3

variable {A B J : Nat}

/-- Dropping the last axis of `[A, B, J]` leaves `[A, B]`, a shape with an axis: the host's shape fact gives
    the vector reduction's. -/
theorem reduces_of_reducesTo (h' : (⟨3, ![A, B, J]⟩ : Shape).ReducesTo [2] (⟨2, ![A, B]⟩ : Shape)) :
    (⟨3, ![A, B, J]⟩ : Shape).Reduces [2] (⟨2, ![A, B]⟩ : Shape) :=
  ⟨h'.1, Nat.succ_pos 1, h'.2⟩

/-- `(a, r)` with the last coordinate `k` put back is `(a, r, k)`. -/
theorem lift_ix3 (h : (⟨3, ![A, B, J]⟩ : Shape).Reduces [2] (⟨2, ![A, B]⟩ : Shape)) (a : Fin A) (r : Fin B)
    (k : Fin ((⟨3, ![A, B, J]⟩ : Shape).size 2)) :
    h.lift (ix2 a r) k = ix3 a r (⟨k.val, k.isLt⟩ : Fin J) := by
  funext c; apply Fin.ext
  fin_cases c <;> rfl

/-- THE MAXIMUM AT `(a, r)`: the fold of `max` from the initial value's element over the last axis. -/
theorem hostReduce_maximumf_last {φ : FTy} {u : Shape} (x : FVec Ideal ⟨3, ![A, B, J]⟩ φ) (init : u.Idx → Ideal φ)
    (h' : (⟨3, ![A, B, J]⟩ : Shape).ReducesTo [2] (⟨2, ![A, B]⟩ : Shape)) (hu : 0 < u.numel)
    (a : Fin A) (r : Fin B) :
    Host.reduce FloatOps.maximumf x init h' hu (ix2 a r)
      = (Finset.univ : Finset (Fin J)).fold max (init (Shape.Idx.first hu)) (fun c' => x (ix3 a r c')) := by
  have h := reduces_of_reducesTo h'
  rw [Host.reduce_eq_fold_single FloatOps.maximumf x init h' h hu]
  have hf : (x ∘ h.lift (ix2 a r)) = fun c' : Fin J => x (ix3 a r c') :=
    funext fun k => congrArg x (lift_ix3 h a r k)
  exact congrArg (fun f => Finset.fold max (init (Shape.Idx.first hu)) f (Finset.univ : Finset (Fin J))) hf

/-- The same from a constant array holding the word `b`: the fold starts from what `b` reads as. -/
theorem hostReduce_maximumf_last_constant {φ : FTy} {u : Shape} (x : FVec Ideal ⟨3, ![A, B, J]⟩ φ) (b : BitVec φ.bits)
    (h' : (⟨3, ![A, B, J]⟩ : Shape).ReducesTo [2] (⟨2, ![A, B]⟩ : Shape)) (hu : 0 < u.numel)
    (a : Fin A) (r : Fin B) :
    Host.reduce FloatOps.maximumf x (constant (F := Ideal) u φ b) h' hu (ix2 a r)
      = (Finset.univ : Finset (Fin J)).fold max (Ideal.ofBits φ b) (fun c' => x (ix3 a r c')) :=
  hostReduce_maximumf_last x (constant (F := Ideal) u φ b) h' hu a r

end RowMax3
-- ==== Proof.LibRowMax.lean ====
import Idealize.ShloMosaic.Lib.ValueIdx
import Idealize.ShloMosaic.PureOps.Ideal.Laws

/-!
  A ROW MAXIMUM AS A FOLD.

  The host's reduction with a maximum body over the LAST axis of a rank-2 array `x : [N, J]` is, at the ideal
  values and at row `r`, the fold of `max` from the initial value over the row's entries `x (r, c')`, `c' < J`.
  The maximum is commutative and associative, so the order in which the host visits the row does not matter.
  The f32 word `0xFF800000` reads as `-∞`, the least extended real, so a fold of `max` from it is the maximum of
  the entries alone; the f32 word `0x00000000` reads as `0`.
-/

open Idealize.ShloMosaic Idealize.ShloMosaic.ValueIdx

namespace RowMax

variable {N J : Nat}

/-- Dropping the last axis of `[N, J]` leaves `[N]`, a shape with an axis: the host's shape fact gives the
    vector reduction's. -/
theorem reduces_of_reducesTo (h' : (⟨2, ![N, J]⟩ : Shape).ReducesTo [1] (⟨1, ![N]⟩ : Shape)) :
    (⟨2, ![N, J]⟩ : Shape).Reduces [1] (⟨1, ![N]⟩ : Shape) :=
  ⟨h'.1, Nat.one_pos, h'.2⟩

/-- Row `r` with column `k` put back is `(r, k)`. -/
theorem lift_ix2 (h : (⟨2, ![N, J]⟩ : Shape).Reduces [1] (⟨1, ![N]⟩ : Shape)) (r : Fin N)
    (k : Fin ((⟨2, ![N, J]⟩ : Shape).size 1)) :
    h.lift (ix1 r) k = ix2 r (⟨k.val, k.isLt⟩ : Fin J) := by
  funext c; apply Fin.ext
  fin_cases c <;> rfl

/-- THE ROW MAXIMUM AT A ROW: the fold of `max` from the initial value's element over the row's entries. -/
theorem hostReduce_maximumf_rows {φ : FTy} {u : Shape} (x : FVec Ideal ⟨2, ![N, J]⟩ φ) (init : u.Idx → Ideal φ)
    (h' : (⟨2, ![N, J]⟩ : Shape).ReducesTo [1] (⟨1, ![N]⟩ : Shape)) (hu : 0 < u.numel) (r : Fin N) :
    Host.reduce FloatOps.maximumf x init h' hu (ix1 r)
      = (Finset.univ : Finset (Fin J)).fold max (init (Shape.Idx.first hu)) (fun c' => x (ix2 r c')) := by
  have h := reduces_of_reducesTo h'
  rw [Host.reduce_eq_fold_single FloatOps.maximumf x init h' h hu]
  have hf : (x ∘ h.lift (ix1 r)) = fun c' : Fin J => x (ix2 r c') :=
    funext fun k => congrArg x (lift_ix2 h r k)
  exact congrArg (fun f => Finset.fold max (init (Shape.Idx.first hu)) f (Finset.univ : Finset (Fin J))) hf

/-- The same from a constant initial value `v`. -/
theorem hostReduce_maximumf_rows_const {φ : FTy} {u : Shape} (x : FVec Ideal ⟨2, ![N, J]⟩ φ) (v : Ideal φ)
    (h' : (⟨2, ![N, J]⟩ : Shape).ReducesTo [1] (⟨1, ![N]⟩ : Shape)) (hu : 0 < u.numel) (r : Fin N) :
    Host.reduce FloatOps.maximumf x (fun _ : u.Idx => v) h' hu (ix1 r)
      = (Finset.univ : Finset (Fin J)).fold max v (fun c' => x (ix2 r c')) :=
  hostReduce_maximumf_rows x (fun _ : u.Idx => v) h' hu r

/-- The same from a constant array holding the word `b`: the fold starts from what `b` reads as. -/
theorem hostReduce_maximumf_rows_constant {φ : FTy} {u : Shape} (x : FVec Ideal ⟨2, ![N, J]⟩ φ) (b : BitVec φ.bits)
    (h' : (⟨2, ![N, J]⟩ : Shape).ReducesTo [1] (⟨1, ![N]⟩ : Shape)) (hu : 0 < u.numel) (r : Fin N) :
    Host.reduce FloatOps.maximumf x (constant (F := Ideal) u φ b) h' hu (ix1 r)
      = (Finset.univ : Finset (Fin J)).fold max (Ideal.ofBits φ b) (fun c' => x (ix2 r c')) :=
  hostReduce_maximumf_rows x (constant (F := Ideal) u φ b) h' hu r

/-! ## Two f32 words -/

/-- The f32 word `0xFF800000` is `-∞`, the least extended real. -/
theorem ofBits_ninf_f32 : Ideal.ofBits .f32 0xFF800000#32 = ⊥ := by
  simp [Ideal.ofBits, Ideal.ieee]

/-- So the maximum of it with anything is that thing. -/
theorem max_ninf_left (y : EReal) : max (Ideal.ofBits .f32 0xFF800000#32) y = y := by
  rw [ofBits_ninf_f32]; exact max_bot_left y

theorem max_ninf_right (y : EReal) : max y (Ideal.ofBits .f32 0xFF800000#32) = y := by
  rw [ofBits_ninf_f32]; exact max_bot_right y

/-- The f32 word `0x00000000` is `0`. -/
theorem ofBits_zero_f32 : Ideal.ofBits .f32 0x00000000#32 = 0 := Ideal.ofBits_zero_f32

end RowMax
-- ==== Proof.LibBcastInDim3.lean ====
/-
  The host's `broadcast_in_dim` around a unit axis of a rank-3 array, and its sum over the last axis of a rank-3
  array, read at an index written by coordinates; for any extents.

  A matrix `[a, b]` laid out as `[a, b, 1]` reads, at `(i, j, u)`, the matrix at `(i, j)`; an `[a, b, 1]` array copied
  along `c` entries of the last axis reads, at `(i, j, k)`, the array at `(i, j, 0)`; a matrix `[b, c]` given a leading
  unit axis reads, at `(u, j, k)`, the matrix at `(j, k)`; a `[1, b, c]` array copied `a` times along the first axis
  reads, at `(i, j, k)`, the array at `(0, j, k)`; a single row `[1, b]` copied down `a` rows reads, at `(i, j)`, the
  row at `j`.  The host's sum of an `[a, b, c]` array over its last axis, at the ideal values and at `(i, j)`, is the
  initial value plus the sum over `k` of the entries `(i, j, k)`; from the zero word it is that sum alone.  General;
  no program is imported.
-/
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

noncomputable section

open scoped BigOperators

namespace BcastInDim3

open Idealize.ShloMosaic Idealize.ShloMosaic.ValueIdx

variable {α : Type}

/-- A matrix `[a, b]` laid out as `[a, b, 1]` reads, at `(i, j, u)`, the matrix at `(i, j)`. -/
theorem ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply ![0, 1] h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array copied along `c` entries of the last axis reads, at `(i, j, k)`, the array at `(i, j, 0)`. -/
theorem ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply ![0, 1, 2] h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => exact (if_pos rfl).symm

/-- A matrix `[b, c]` given a leading unit axis reads, at `(u, j, k)`, the matrix at `(j, k)`. -/
theorem bc_1bc_apply {b c : ℕ} (v : (⟨2, ![b, c]⟩ : Shape).Idx → α)
    (h : (⟨2, ![b, c]⟩ : Shape).BroadcastsInDim ⟨3, ![1, b, c]⟩ ![1, 2]) (u : Fin 1) (j : Fin b) (k : Fin c) :
    broadcastInDim ⟨3, ![1, b, c]⟩ ![1, 2] h v (ix3 u j k) = v (ix2 j k) := by
  refine broadcastInDim_apply ![1, 2] h v (ix3 u j k) (ix2 j k) fun ax => ?_
  match ax with
  | ⟨0, _⟩ =>
    show j.val = if b = 1 then 0 else j.val
    split
    · have := j.isLt; omega
    · rfl
  | ⟨1, _⟩ =>
    show k.val = if c = 1 then 0 else k.val
    split
    · have := k.isLt; omega
    · rfl

/-- A `[1, b, c]` array copied `a` times along the first axis reads, at `(i, j, k)`, the array at `(0, j, k)`. -/
theorem _1bc_abc_apply {a b c : ℕ} (v : (⟨3, ![1, b, c]⟩ : Shape).Idx → α)
    (h : (⟨3, ![1, b, c]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 (0 : Fin 1) j k) := by
  refine broadcastInDim_apply ![0, 1, 2] h v (ix3 i j k) (ix3 (0 : Fin 1) j k) fun ax => ?_
  match ax with
  | ⟨0, _⟩ => exact (if_pos rfl).symm
  | ⟨1, _⟩ =>
    show j.val = if b = 1 then 0 else j.val
    split
    · have := j.isLt; omega
    · rfl
  | ⟨2, _⟩ =>
    show k.val = if c = 1 then 0 else k.val
    split
    · have := k.isLt; omega
    · rfl

/-- A single row `[1, b]` copied down `a` rows reads, at `(i, j)`, the row at `j`. -/
theorem _1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply ![0, 1] h v (ix2 i j) (ix2 (0 : Fin 1) j) fun ax => ?_
  match ax with
  | ⟨0, _⟩ => exact (if_pos rfl).symm
  | ⟨1, _⟩ =>
    show j.val = if b = 1 then 0 else j.val
    split
    · have := j.isLt; omega
    · rfl

/-- Dropping the last axis of `[a, b, c]` leaves `[a, b]`, a shape with an axis: the host's shape fact gives the
    vector reduction's. -/
theorem reduces_of_reducesTo {a b c : ℕ} (h' : (⟨3, ![a, b, c]⟩ : Shape).ReducesTo [2] (⟨2, ![a, b]⟩ : Shape)) :
    (⟨3, ![a, b, c]⟩ : Shape).Reduces [2] (⟨2, ![a, b]⟩ : Shape) :=
  ⟨h'.1, Nat.succ_pos 1, h'.2⟩

/-- The host's sum of an `[a, b, c]` array over its last axis, at the ideal values and at `(i, j)`: the initial
    value plus the sum over `k` of the entries `(i, j, k)`. -/
theorem hostSumLast_apply {a b c : ℕ} {u : Shape} (z : FVec Ideal ⟨3, ![a, b, c]⟩ .f32) (init : u.Idx → EReal)
    (h' : (⟨3, ![a, b, c]⟩ : Shape).ReducesTo [2] ⟨2, ![a, b]⟩) (hu : 0 < u.numel) (i : Fin a) (j : Fin b) :
    Host.reduceAdd z init h' hu (ix2 i j) = init (Shape.Idx.first hu) + ∑ k : Fin c, z (ix3 i j k) := by
  have h := reduces_of_reducesTo h'
  refine (hostReduceAdd_apply z init h' hu (ix2 i j)).trans ((Ideal.hostReduceAdd_single h' h z _ (ix2 i j)).trans ?_)
  refine congrArg (fun s => init (Shape.Idx.first hu) + s) ?_
  show ∑ k : Fin c, z (h.lift (ix2 i j) k) = _
  refine Finset.sum_congr rfl fun k _ => congrArg z ?_
  funext ax; apply Fin.ext
  fin_cases ax <;> rfl

/-- From the zero word the host's sum over the last axis is the sum of the entries alone. -/
theorem hostSumLast_zero_apply {a b c : ℕ} {u : Shape} (z : FVec Ideal ⟨3, ![a, b, c]⟩ .f32)
    (h' : (⟨3, ![a, b, c]⟩ : Shape).ReducesTo [2] ⟨2, ![a, b]⟩) (hu : 0 < u.numel) (i : Fin a) (j : Fin b) :
    Host.reduceAdd z (constant (F := Ideal) u .f32 0x00000000#32) h' hu (ix2 i j) = ∑ k : Fin c, z (ix3 i j k) := by
  refine (hostSumLast_apply z _ h' hu i j).trans ?_
  show Ideal.ofBits .f32 0x00000000#32 + _ = _
  rw [Ideal.ofBits_zero_f32, zero_add]

end BcastInDim3

end
-- ==== Proof.RefSim.lean ====
/-
  The reference's cross-attention similarity, read at an index, is the specification's.

  Each stage of the reference (the logits, the leaky rectifier, the floored row norm, the smoothed and transposed
  quotient, the maximum over the tokens, the exponentials, the softmax, the weighted context, the cosine) is read at
  an index written by coordinates: a `dot_general` is the sum over its one contracted coordinate, a host reduction
  over the last axis is the sum (or the fold of `max`) over that axis's coordinate, a broadcast reads its operand at
  the kept coordinates, a transpose swaps the coordinates.  Composed in the reference's order, and with the image
  `b` fixed, these are the specification's definitions term by term; the one rearrangement is the order of the two
  factors in the weighted context, which the commutativity of the product settles.
-/
import proofs.«134603_j83648783057700_1_alg».proof.Proof.Spec
import proofs.«134603_j83648783057700_1_alg».proof.Proof.RefTerms
import proofs.«134603_j83648783057700_1_alg».proof.Proof.LibRowMax3
import proofs.«134603_j83648783057700_1_alg».proof.Proof.LibRowMax
import proofs.«134603_j83648783057700_1_alg».proof.Proof.LibBcastInDim3
import Idealize.ShloMosaic.Lib.StackMember
import Idealize.ShloMosaic.Lib.IdealHost
import Idealize.ShloMosaic.Lib.Pipeline.Value

noncomputable section

open scoped BigOperators

namespace Cert.ReferenceIdeal.RefSim

open Idealize.ShloMosaic Idealize.ShloMosaic.ValueIdx Cert.ReferenceIdeal Cert.ReferenceIdeal.Facts₀ Cert.ReferenceIdeal.Facts

/-! ## The stages at an index -/

/-- The logits at `(b, l, n)`: the inner product of token `l` of image `b` with phrase `n`. -/
theorem logitsR_apply (A4 : FVec Ideal S1024x768 .f32) (A6 : FVec Ideal S128x577x768 .f32) (b : Fin 128) (l : Fin 577) (n : Fin 1024) :
    Terms.logitsR A4 A6 (ix3 b l n) = ∑ d : Fin 768, A6 (ix3 b l d) * A4 (ix2 n d) := by
  show FloatOps.dotGeneral _ none _ A6 A4 (ix3 b l n) = _
  rw [Ideal.dotGeneral_apply,
    ← Equiv.sum_comp (contrEquiv1 dot_S128x577x768_S1024x768_S128x577x1024_2_1_01_0_n_n 768 rfl rfl).symm]
  refine Finset.sum_congr rfl fun c _ => ?_
  have c3 := contrEquiv1_symm_val dot_S128x577x768_S1024x768_S128x577x1024_2_1_01_0_n_n 768 rfl rfl c
  have l3 : dot_S128x577x768_S1024x768_S128x577x1024_2_1_01_0_n_n.lhsIdx (ix3 b l n)
      ((contrEquiv1 _ 768 rfl rfl).symm c) = ix3 b l c := by
    funext ax; apply Fin.ext
    match ax with
    | ⟨0, _⟩ => simp [DotDims.lhsIdx, dot_S128x577x768_S1024x768_S128x577x1024_2_1_01_0_n_n]; rfl
    | ⟨1, _⟩ => simp [DotDims.lhsIdx, dot_S128x577x768_S1024x768_S128x577x1024_2_1_01_0_n_n]; rfl
    | ⟨2, _⟩ => simp [DotDims.lhsIdx, dot_S128x577x768_S1024x768_S128x577x1024_2_1_01_0_n_n]; exact c3
  have r3 : dot_S128x577x768_S1024x768_S128x577x1024_2_1_01_0_n_n.rhsIdx (ix3 b l n)
      ((contrEquiv1 _ 768 rfl rfl).symm c) = ix2 n c := by
    funext ax; apply Fin.ext
    match ax with
    | ⟨0, _⟩ => simp [DotDims.rhsIdx, dot_S128x577x768_S1024x768_S128x577x1024_2_1_01_0_n_n]; rfl
    | ⟨1, _⟩ => simp [DotDims.rhsIdx, dot_S128x577x768_S1024x768_S128x577x1024_2_1_01_0_n_n]; exact c3
  rw [l3, r3]

/-- The leaky rectifier at an index: the element where it is not negative, the slope times it elsewhere. -/
theorem leakyR_apply (x : FVec Ideal S128x577x1024 .f32) (i : S128x577x1024.Idx) :
    Terms.leakyR x i
      = Scalar.select (Ideal.cmp .oge (x i) (Ideal.ofBits .f32 0x00000000#32)) (x i) (Ideal.ofBits .f32 0x3DCCCCCD#32 * x i) := rfl

/-- The floored norm at `(b, l, u)`: the square root of the sum of the squares along the row, floored. -/
theorem normR_apply (y : FVec Ideal S128x577x1024 .f32) (b : Fin 128) (l : Fin 577) (u : Fin 1) :
    Terms.normR y (ix3 b l u)
      = max (Ideal.sqrt (∑ n : Fin 1024, y (ix3 b l n) * y (ix3 b l n))) (Ideal.ofBits .f32 0x322BCC77#32) := by
  show max (Ideal.sqrt (broadcastInDim S128x577x1 ![0, 1] bcast_S128x577_S128x577x1_0_1
      (Host.reduceAdd (mulf y y) (constant (F := Ideal) S_ .f32 0x00000000#32) reducesTo_S128x577x1024_S128x577_d2 h_S_) (ix3 b l u)))
    (Ideal.ofBits .f32 0x322BCC77#32) = _
  rw [BcastInDim3.ab_ab1_apply, BcastInDim3.hostSumLast_zero_apply]
  rfl

/-- The smoothed quotient at `(b, n, l)`: the rectified logit of token `l` against phrase `n` over the token's norm,
    times the smoothing factor. -/
theorem scaledR_apply (y : FVec Ideal S128x577x1024 .f32) (b : Fin 128) (n : Fin 1024) (l : Fin 577) :
    Terms.scaledR y (ix3 b n l)
      = Ideal.div (y (ix3 b l n)) (Terms.normR y (ix3 b l (0 : Fin 1))) * Ideal.ofBits .f32 0x40800000#32 := by
  show transpose S128x1024x577 [0, 2, 1]
      (Host.divf y (broadcastInDim S128x577x1024 ![0, 1, 2] bcast_S128x577x1_S128x577x1024_0_1_2 (Terms.normR y)))
      transposes_S128x577x1024_S128x1024x577_0_2_1 (ix3 b n l) * Ideal.ofBits .f32 0x40800000#32 = _
  refine congrArg (· * Ideal.ofBits .f32 0x40800000#32) ?_
  refine (transpose_apply [0, 2, 1] _ transposes_S128x577x1024_S128x1024x577_0_2_1 (ix3 b n l) (ix3 b l n) fun ax => ?_).trans ?_
  · match ax with
    | ⟨0, _⟩ => rfl
    | ⟨1, _⟩ => rfl
    | ⟨2, _⟩ => rfl
  · show Ideal.div (y (ix3 b l n))
      (broadcastInDim S128x577x1024 ![0, 1, 2] bcast_S128x577x1_S128x577x1024_0_1_2 (Terms.normR y) (ix3 b l n)) = _
    rw [BcastInDim3.ab1_abc_apply]

/-- The maximum over the tokens at `(b, n)`: the fold of `max` from minus infinity over the tokens. -/
theorem maxR_apply (z : FVec Ideal S128x1024x577 .f32) (b : Fin 128) (n : Fin 1024) :
    Terms.maxR z (ix2 b n)
      = (Finset.univ : Finset (Fin 577)).fold max (Ideal.ofBits .f32 0xFF800000#32) (fun l => z (ix3 b n l)) := by
  unfold Terms.maxR
  rw [maximumf_apply, broadcastInDim_scalar_apply, constant_apply, RowMax.max_ninf_left]
  exact RowMax3.hostReduce_maximumf_last_constant z 0xFF800000#32 reducesTo_S128x1024x577_S128x1024_d2 h_S_ b n

/-- A `[128, 1024]` array copied along the tokens reads, at `(b, n, l)`, the array at `(b, n)`. -/
theorem alongTokens_apply (u : FVec Ideal S128x1024 .f32) (b : Fin 128) (n : Fin 1024) (l : Fin 577) :
    Terms.alongTokens u (ix3 b n l) = u (ix2 b n) := by
  unfold Terms.alongTokens
  rw [BcastInDim3.ab1_abc_apply, BcastInDim3.ab_ab1_apply]

/-- The exponential at `(b, n, l)`: of the element less its phrase's maximum. -/
theorem expR_apply (z : FVec Ideal S128x1024x577 .f32) (b : Fin 128) (n : Fin 1024) (l : Fin 577) :
    Terms.expR z (ix3 b n l) = Ideal.exp (z (ix3 b n l) - Terms.maxR z (ix2 b n)) := by
  show Ideal.exp (z (ix3 b n l) - Terms.alongTokens (Terms.maxR z) (ix3 b n l)) = _
  rw [alongTokens_apply]

/-- The softmax at `(b, n, l)`: the exponential over the sum of the exponentials over the tokens. -/
theorem softR_apply (z : FVec Ideal S128x1024x577 .f32) (b : Fin 128) (n : Fin 1024) (l : Fin 577) :
    Terms.softR z (ix3 b n l)
      = Ideal.div (Terms.expR z (ix3 b n l)) (∑ l' : Fin 577, Terms.expR z (ix3 b n l')) := by
  show Ideal.div (Terms.expR z (ix3 b n l))
    (Terms.alongTokens (Host.reduceAdd (Terms.expR z) (constant (F := Ideal) S_ .f32 0x00000000#32)
      reducesTo_S128x1024x577_S128x1024_d2 h_S_) (ix3 b n l)) = _
  rw [alongTokens_apply, BcastInDim3.hostSumLast_zero_apply]

/-- The weighted context at `(b, n, d)`: the sum over the tokens of the weight times the token's feature. -/
theorem ctxR_apply (s : FVec Ideal S128x1024x577 .f32) (A6 : FVec Ideal S128x577x768 .f32) (b : Fin 128) (n : Fin 1024) (d : Fin 768) :
    Terms.ctxR s A6 (ix3 b n d) = ∑ l : Fin 577, s (ix3 b n l) * A6 (ix3 b l d) :=
  StackMember.dotGeneral_stack_apply dot_S128x1024x577_S128x577x768_S128x1024x768_2_1_1_2_0_0_wf none s A6 b n d

/-- The phrase rows with a leading unit axis read the phrase rows. -/
theorem q3R_apply (A4 : FVec Ideal S1024x768 .f32) (u : Fin 1) (n : Fin 1024) (d : Fin 768) :
    Terms.q3R A4 (ix3 u n d) = A4 (ix2 n d) :=
  BcastInDim3.bc_1bc_apply A4 bcast_S1024x768_S1x1024x768_1_2 u n d

/-- The cosine at `(b, n)`. -/
theorem cosR_apply (A4 : FVec Ideal S1024x768 .f32) (w : FVec Ideal S128x1024x768 .f32) (b : Fin 128) (n : Fin 1024) :
    Terms.cosR A4 w (ix2 b n)
      = Ideal.div (∑ d : Fin 768, A4 (ix2 n d) * w (ix3 b n d))
          (max (Ideal.sqrt (∑ d : Fin 768, A4 (ix2 n d) * A4 (ix2 n d)) * Ideal.sqrt (∑ d : Fin 768, w (ix3 b n d) * w (ix3 b n d)))
            (Ideal.ofBits .f32 0x322BCC77#32)) := by
  show Ideal.div
      (Host.reduceAdd (mulf (broadcastInDim S128x1024x768 ![0, 1, 2] bcast_S1x1024x768_S128x1024x768_0_1_2 (Terms.q3R A4)) w)
        (constant (F := Ideal) S_ .f32 0x00000000#32) reducesTo_S128x1024x768_S128x1024_d2 h_S_ (ix2 b n))
      (max
        (broadcastInDim S128x1024 ![0, 1] bcast_S1x1024_S128x1024_0_1
            (Host.sqrt (Host.reduceAdd (mulf (Terms.q3R A4) (Terms.q3R A4)) (constant (F := Ideal) S_ .f32 0x00000000#32)
              reducesTo_S1x1024x768_S1x1024_d2 h_S_)) (ix2 b n)
          * Ideal.sqrt (Host.reduceAdd (mulf w w) (constant (F := Ideal) S_ .f32 0x00000000#32)
              reducesTo_S128x1024x768_S128x1024_d2 h_S_ (ix2 b n)))
        (Ideal.ofBits .f32 0x322BCC77#32)) = _
  rw [BcastInDim3._1b_ab_apply, BcastInDim3.hostSumLast_zero_apply, BcastInDim3.hostSumLast_zero_apply]
  show Ideal.div _ (max (Ideal.sqrt (Host.reduceAdd (mulf (Terms.q3R A4) (Terms.q3R A4)) (constant (F := Ideal) S_ .f32 0x00000000#32)
              reducesTo_S1x1024x768_S1x1024_d2 h_S_ (ix2 (0 : Fin 1) n)) * _) _) = _
  rw [BcastInDim3.hostSumLast_zero_apply]
  have hq : ∀ d : Fin 768, mulf (Terms.q3R A4) (Terms.q3R A4) (ix3 (0 : Fin 1) n d) = A4 (ix2 n d) * A4 (ix2 n d) := fun d => by
    rw [mulf_apply, q3R_apply]
  have hn : ∀ d : Fin 768,
      mulf (broadcastInDim S128x1024x768 ![0, 1, 2] bcast_S1x1024x768_S128x1024x768_0_1_2 (Terms.q3R A4)) w (ix3 b n d)
        = A4 (ix2 n d) * w (ix3 b n d) := fun d => by
    rw [mulf_apply, BcastInDim3._1bc_abc_apply, q3R_apply]
  rw [Finset.sum_congr rfl fun d _ => hq d, Finset.sum_congr rfl fun d _ => hn d]
  rfl

/-! ## The composition

  With the image `b` fixed, write `tok l d` for the image's token rows and `q n d` for the phrase rows. Stage by stage
  the reference's arrays read the specification's functions of `tok` and `q`. -/

section Compose

variable (A4 : FVec Ideal S1024x768 .f32) (A6 : FVec Ideal S128x577x768 .f32) (b : Fin 128)

/-- The rectified logits. -/
theorem leaky_eq (l : Fin 577) (n : Fin 1024) :
    Terms.leakyR (Terms.logitsR A4 A6) (ix3 b l n)
      = Cert.XAttn.leaky (fun l d => A6 (ix3 b l d)) (fun n d => A4 (ix2 n d)) l n := by
  rw [leakyR_apply, logitsR_apply]
  rfl

/-- The floored row norms. -/
theorem norm_eq (l : Fin 577) (u : Fin 1) :
    Terms.normR (Terms.leakyR (Terms.logitsR A4 A6)) (ix3 b l u)
      = Cert.XAttn.rowNorm (fun l d => A6 (ix3 b l d)) (fun n d => A4 (ix2 n d)) l := by
  rw [normR_apply]
  simp only [leaky_eq]
  rfl

/-- The smoothed quotients, phrase-major. -/
theorem scaled_eq (n : Fin 1024) (l : Fin 577) :
    Terms.scaledR (Terms.leakyR (Terms.logitsR A4 A6)) (ix3 b n l)
      = Cert.XAttn.scaled (fun l d => A6 (ix3 b l d)) (fun n d => A4 (ix2 n d)) l n := by
  rw [scaledR_apply, leaky_eq, norm_eq]
  rfl

/-- The maxima over the tokens. -/
theorem max_eq (n : Fin 1024) :
    Terms.maxR (Terms.scaledR (Terms.leakyR (Terms.logitsR A4 A6))) (ix2 b n)
      = Cert.XAttn.colMax (fun l d => A6 (ix3 b l d)) (fun n d => A4 (ix2 n d)) n := by
  rw [maxR_apply]
  simp only [scaled_eq]
  rfl

/-- The exponentials. -/
theorem ex_eq (n : Fin 1024) (l : Fin 577) :
    Terms.expR (Terms.scaledR (Terms.leakyR (Terms.logitsR A4 A6))) (ix3 b n l)
      = Cert.XAttn.ex (fun l d => A6 (ix3 b l d)) (fun n d => A4 (ix2 n d)) l n := by
  rw [expR_apply, scaled_eq, max_eq]
  rfl

/-- The softmax weights. -/
theorem soft_eq (n : Fin 1024) (l : Fin 577) :
    Terms.softR (Terms.scaledR (Terms.leakyR (Terms.logitsR A4 A6))) (ix3 b n l)
      = Cert.XAttn.soft (fun l d => A6 (ix3 b l d)) (fun n d => A4 (ix2 n d)) l n := by
  rw [softR_apply]
  simp only [ex_eq]
  rfl

/-- The weighted contexts: the reference multiplies the weight by the feature, the specification the feature by the
    weight. -/
theorem ctx_eq (n : Fin 1024) (d : Fin 768) :
    Terms.ctxR (Terms.softR (Terms.scaledR (Terms.leakyR (Terms.logitsR A4 A6)))) A6 (ix3 b n d)
      = Cert.XAttn.ctx (fun l d => A6 (ix3 b l d)) (fun n d => A4 (ix2 n d)) n d := by
  rw [ctxR_apply]
  unfold Cert.XAttn.ctx
  refine Finset.sum_congr rfl fun l _ => ?_
  rw [soft_eq]
  exact mul_comm _ _

end Compose

/-- THE REFERENCE'S SIMILARITY AT `(b, n)` is the specification's similarity of phrase `n` for image `b`. -/
theorem simR_apply (A4 : FVec Ideal S1024x768 .f32) (A6 : FVec Ideal S128x577x768 .f32) (b : Fin 128) (n : Fin 1024) :
    Terms.simR A4 A6 (ix2 b n) = Cert.XAttn.sim (fun l d => A6 (ix3 b l d)) (fun n d => A4 (ix2 n d)) n := by
  unfold Terms.simR
  rw [cosR_apply]
  simp only [ctx_eq]
  rfl

end Cert.ReferenceIdeal.RefSim

end
-- ==== Proof.LibChainSeq.lean ====
/-
  Straight lines of host operations run one after the other are one straight line.

  A host block is stated as a chain of items; when every item is a straight line of operations, the chain is the
  straight line of all the operations in order.  Also: an operation whose one result buffer is drawn from a list of
  references writes only within that list.  General; no program is imported.
-/
import Idealize.ShloMosaic.Lib.StableHlo.Run
import Idealize.ShloMosaic.Lib.Pipeline.Regions

namespace Idealize.ShloMosaic.Pipeline

open Idealize.SL.Sem

variable {nD : Nat} {τ : Topo} {sig : RefSig} {Val : EltTy → Type} {Λ : Labels}

/-- The chain of several straight lines is the straight line of their concatenation. -/
theorem chain_map_seq (ls : List (List (HloOp τ sig Val))) :
    (chain (ls.map StableHlo.seq) : Prog (TpuEff nD τ sig Val Λ .tc) PUnit) = StableHlo.seq ls.flatten := by
  induction ls with
  | nil => rfl
  | cons l ls ih => rw [List.map_cons, chain_cons, List.flatten_cons, StableHlo.seq_append, ih]

/-- A single result buffer drawn from a list of references lies in the list's set of device buffers. -/
theorem singleton_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem h))

end Idealize.ShloMosaic.Pipeline
-- ==== Proof.RefRun.lean ====
/-
  The reference program's run, read as one straight line of host operations.

  @main of the reference is a sequence of StableHLO operations and five calls of module-local functions
  (the logarithm of the logistic function, twice nested over the softplus, and two selections).  A call executes
  the callee's body on the caller's buffers, so the whole program is the straight line of its own operations with
  each callee's operations in the call's place.  This file lists that line (in three consecutive parts: everything
  up to the second scalar loss term, the cross-attention similarity, and the third loss term with the final sum),
  proves that @main is that line, and reads the run back: every weakly fair execution terminates, the result buffer
  holds the fold of the operations over the launch contents, and the seven argument buffers are unchanged.
-/
import proofs.«134603_j83648783057700_1_alg».proof.Proof.Gen.ReferenceIdeal
import Idealize.ShloMosaic.Lib.StableHlo.Run
import Idealize.ShloMosaic.Lib.Pipeline.Regions
import Idealize.ShloMosaic.Lib.Pipeline.Frame
import proofs.«134603_j83648783057700_1_alg».proof.Proof.LibChainSeq

set_option maxRecDepth 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-! ## The line, stretch by stretch

A stretch is a maximal run of @main's own operations, or the body of one call. -/

/-- @main's operations %0 … %16. -/
abbrev sP0 : List (HloOp τ sig (Elt F)) :=
  [ StableHlo.unary main_arg1 main_v0 ((transpose S768x128 [1, 0] · transposes_S128x768_S768x128_1_0) : (⟨S128x768, .f32⟩ : BufTy).Contents (Elt F) → (⟨S768x128, .f32⟩ : BufTy).Contents (Elt F)),
    StableHlo.binary main_arg0 main_v0 main_v1 ((fun l r => Host.dotGeneral dot_S128x768_S768x128_S128x128_1_0_0_1_n_n none l r) : (⟨S128x768, .f32⟩ : BufTy).Contents (Elt F) → (⟨S768x128, .f32⟩ : BufTy).Contents (Elt F) → (⟨S128x128, .f32⟩ : BufTy).Contents (Elt F)),
    StableHlo.unary main_arg2 main_v2 (broadcastInDim S128x128 ![] bcast_S_S128x128 : (⟨S_, .f32⟩ : BufTy).Contents (Elt F) → (⟨S128x128, .f32⟩ : BufTy).Contents (Elt F)),
    StableHlo.binary main_v1 main_v2 main_v3 (mulf : (⟨S128x128, .f32⟩ : BufTy).Contents (Elt F) → (⟨S128x128, .f32⟩ : BufTy).Contents (Elt F) → (⟨S128x128, .f32⟩ : BufTy).Contents (Elt F)),
    StableHlo.unary main_arg3 main_v4 (broadcastInDim S128x128 ![] bcast_S_S128x128 : (⟨S_, .f32⟩ : BufTy).Contents (Elt F) → (⟨S128x128, .f32⟩ : BufTy).Contents (Elt F)),
    StableHlo.binary main_v3 main_v4 main_v5 (addf : (⟨S128x128, .f32⟩ : BufTy).Contents (Elt F) → (⟨S128x128, .f32⟩ : BufTy).Contents (Elt F) → (⟨S128x128, .f32⟩ : BufTy).Contents (Elt F)),
    StableHlo.nullary main_v6 (iotaInDim S128x128 32 0),
    StableHlo.nullary main_v7 (iotaInDim S128x128 32 1),
    StableHlo.nullary main_c (constantI S_ 32 0#32),
    StableHlo.unary main_c main_v8 (broadcastInDim S128x128 ![] bcast_S_S128x128 : (⟨S_, .i32⟩ : BufTy).Contents (Elt F) → (⟨S128x128, .i32⟩ : BufTy).Contents (Elt F)),
    StableHlo.binary main_v6 main_v8 main_v9 (addi : (⟨S128x128, .i32⟩ : BufTy).Contents (Elt F) → (⟨S128x128, .i32⟩ : BufTy).Contents (Elt F) → (⟨S128x128, .i32⟩ : BufTy).Contents (Elt F)),
    StableHlo.binary main_v9 main_v7 main_v10 (cmpi .eq : (⟨S128x128, .i32⟩ : BufTy).Contents (Elt F) → (⟨S128x128, .i32⟩ : BufTy).Contents (Elt F) → (⟨S128x128, .i1⟩ : BufTy).Contents (Elt F)),
    StableHlo.unary main_v10 main_v11 (uitofp .f32 : (⟨S128x128, .i1⟩ : BufTy).Contents (Elt F) → (⟨S128x128, .f32⟩ : BufTy).Contents (Elt F)),
    StableHlo.nullary main_cst (constant S_ .f32 0x40000000#32),
    StableHlo.unary main_cst main_v12 (broadcastInDim S128x128 ![] bcast_S_S128x128 : (⟨S_, .f32⟩ : BufTy).Contents (Elt F) → (⟨S128x128, .f32⟩ : BufTy).Contents (Elt F)),
    StableHlo.binary main_v12 main_v11 main_v13 (mulf : (⟨S128x128, .f32⟩ : BufTy).Contents (Elt F) → (⟨S128x128, .f32⟩ : BufTy).Contents (Elt F) → (⟨S128x128, .f32⟩ : BufTy).Contents (Elt F)),
    StableHlo.nullary main_cst_0 (constant S_ .f32 0x3F800000#32),
    StableHlo.unary main_cst_0 main_v14 (broadcastInDim S128x128 ![] bcast_S_S128x128 : (⟨S_, .f32⟩ : BufTy).Contents (Elt F) → (⟨S128x128, .f32⟩ : BufTy).Contents (Elt F)),
    StableHlo.binary main_v13 main_v14 main_v15 (subf : (⟨S128x128, .f32⟩ : BufTy).Contents (Elt F) → (⟨S128x128, .f32⟩ : BufTy).Contents (Elt F) → (⟨S128x128, .f32⟩ : BufTy).Contents (Elt F)),
    StableHlo.binary main_v15 main_v5 main_v16 (mulf : (⟨S128x128, .f32⟩ : BufTy).Contents (Elt F) → (⟨S128x128, .f32⟩ : BufTy).Contents (Elt F) → (⟨S128x128, .f32⟩ : BufTy).Contents (Elt F)) ]

/-- The body of @log_sigmoid at its call %17, with @softplus's inside it. -/
abbrev sC0 : List (HloOp τ sig (Elt F)) :=
  [ StableHlo.TRef.unary (.of main_v16 : StableHlo.TRef sig ⟨S128x128, .f32⟩) (.of main_call0_v0 : StableHlo.TRef sig ⟨S128x128, .f32⟩) Host.negf,
    StableHlo.TRef.nullary (.of main_call0_call0_cst : StableHlo.TRef sig ⟨S_, .f32⟩) (constant S_ .f32 0x00000000#32),
    StableHlo.TRef.unary (.of main_call0_call0_cst : StableHlo.TRef sig ⟨S_, .f32⟩) (.of main_call0_call0_v0 : StableHlo.TRef sig ⟨S128x128, .f32⟩) (broadcastInDim S128x128 ![] bcast_S_S128x128),
    StableHlo.TRef.binary (.of main_call0_v0 : StableHlo.TRef sig ⟨S128x128, .f32⟩) (.of main_call0_call0_v0 : StableHlo.TRef sig ⟨S128x128, .f32⟩) (.of main_call0_call0_v1 : StableHlo.TRef sig ⟨S128x128, .f32⟩) maximumf,
    StableHlo.TRef.unary (.of main_call0_call0_cst : StableHlo.TRef sig ⟨S_, .f32⟩) (.of main_call0_call0_v2 : StableHlo.TRef sig ⟨S128x128, .f32⟩) (broadcastInDim S128x128 ![] bcast_S_S128x128),
    StableHlo.TRef.binary (.of main_call0_v0 : StableHlo.TRef sig ⟨S128x128, .f32⟩) (.of main_call0_call0_v2 : StableHlo.TRef sig ⟨S128x128, .f32⟩) (.of main_call0_call0_v3 : StableHlo.TRef sig ⟨S128x128, .f32⟩) subf,
    StableHlo.TRef.binary (.of main_call0_call0_v3 : StableHlo.TRef sig ⟨S128x128, .f32⟩) (.of main_call0_call0_v3 : StableHlo.TRef sig ⟨S128x128, .f32⟩) (.of main_call0_call0_v4 : StableHlo.TRef sig ⟨S128x128, .i1⟩) (cmpf .une),
    StableHlo.TRef.unary (.of main_call0_call0_cst : StableHlo.TRef sig ⟨S_, .f32⟩) (.of main_call0_call0_v5 : StableHlo.TRef sig ⟨S128x128, .f32⟩) (broadcastInDim S128x128 ![] bcast_S_S128x128),
    StableHlo.TRef.binary (.of main_call0_v0 : StableHlo.TRef sig ⟨S128x128, .f32⟩) (.of main_call0_call0_v5 : StableHlo.TRef sig ⟨S128x128, .f32⟩) (.of main_call0_call0_v6 : StableHlo.TRef sig ⟨S128x128, .f32⟩) addf,
    StableHlo.TRef.unary (.of main_call0_call0_v3 : StableHlo.TRef sig ⟨S128x128, .f32⟩) (.of main_call0_call0_v7 : StableHlo.TRef sig ⟨S128x128, .f32⟩) Host.absf,
    StableHlo.TRef.unary (.of main_call0_call0_v7 : StableHlo.TRef sig ⟨S128x128, .f32⟩) (.of main_call0_call0_v8 : StableHlo.TRef sig ⟨S128x128, .f32⟩) Host.negf,
    StableHlo.TRef.unary (.of main_call0_call0_v8 : StableHlo.TRef sig ⟨S128x128, .f32⟩) (.of main_call0_call0_v9 : StableHlo.TRef sig ⟨S128x128, .f32⟩) Host.exp,
    StableHlo.TRef.unary (.of main_call0_call0_v9 : StableHlo.TRef sig ⟨S128x128, .f32⟩) (.of main_call0_call0_v10 : StableHlo.TRef sig ⟨S128x128, .f32⟩) Host.log1p,
    StableHlo.TRef.binary (.of main_call0_call0_v1 : StableHlo.TRef sig ⟨S128x128, .f32⟩) (.of main_call0_call0_v10 : StableHlo.TRef sig ⟨S128x128, .f32⟩) (.of main_call0_call0_v11 : StableHlo.TRef sig ⟨S128x128, .f32⟩) addf,
    StableHlo.TRef.ternary (.of main_call0_call0_v4 : StableHlo.TRef sig ⟨S128x128, .i1⟩) (.of main_call0_call0_v6 : StableHlo.TRef sig ⟨S128x128, .f32⟩) (.of main_call0_call0_v11 : StableHlo.TRef sig ⟨S128x128, .f32⟩) (.of main_call0_v1 : StableHlo.TRef sig ⟨S128x128, .f32⟩) select,
    StableHlo.TRef.unary main_call0_call0.v12 (.of main_v17 : StableHlo.TRef sig ⟨S128x128, .f32⟩) Host.negf ]

/-- @main's operations %cst_1 … %cst_4. -/
abbrev sP1 : List (HloOp τ sig (Elt F)) :=
  [ StableHlo.nullary main_cst_1 (constant S_ .f32 0x00000000#32),
    StableHlo.binary main_v17 main_cst_1 main_v18 ((fun x v => Host.reduceAdd x v reducesTo_S128x128_S_d0_1 h_S_) : (⟨S128x128, .f32⟩ : BufTy).Contents (Elt F) → (⟨S_, .f32⟩ : BufTy).Contents (Elt F) → (⟨S_, .f32⟩ : BufTy).Contents (Elt F)),
    StableHlo.unary main_v18 main_v19 (Host.negf : (⟨S_, .f32⟩ : BufTy).Contents (Elt F) → (⟨S_, .f32⟩ : BufTy).Contents (Elt F)),
    StableHlo.nullary main_cst_2 (constant S_ .f32 0x43000000#32),
    StableHlo.binary main_v19 main_cst_2 main_v20 (Host.divf : (⟨S_, .f32⟩ : BufTy).Contents (Elt F) → (⟨S_, .f32⟩ : BufTy).Contents (Elt F) → (⟨S_, .f32⟩ : BufTy).Contents (Elt F)),
    StableHlo.unary main_arg5 main_v21 (broadcastInDim S1x1024 ![1] bcast_S1024_S1x1024_1 : (⟨S1024, .i32⟩ : BufTy).Contents (Elt F) → (⟨S1x1024, .i32⟩ : BufTy).Contents (Elt F)),
    StableHlo.nullary main_v22 (iotaInDim S128 32 0),
    StableHlo.unary main_v22 main_v23 (broadcastInDim S128x1 ![0] bcast_S128_S128x1_0 : (⟨S128, .i32⟩ : BufTy).Contents (Elt F) → (⟨S128x1, .i32⟩ : BufTy).Contents (Elt F)),
    StableHlo.unary main_v21 main_v24 (broadcastInDim S128x1024 ![0, 1] bcast_S1x1024_S128x1024_0_1 : (⟨S1x1024, .i32⟩ : BufTy).Contents (Elt F) → (⟨S128x1024, .i32⟩ : BufTy).Contents (Elt F)),
    StableHlo.unary main_v23 main_v25 (broadcastInDim S128x1024 ![0, 1] bcast_S128x1_S128x1024_0_1 : (⟨S128x1, .i32⟩ : BufTy).Contents (Elt F) → (⟨S128x1024, .i32⟩ : BufTy).Contents (Elt F)),
    StableHlo.binary main_v24 main_v25 main_v26 (cmpi .eq : (⟨S128x1024, .i32⟩ : BufTy).Contents (Elt F) → (⟨S128x1024, .i32⟩ : BufTy).Contents (Elt F) → (⟨S128x1024, .i1⟩ : BufTy).Contents (Elt F)),
    StableHlo.nullary main_cst_3 (constant S_ .f32 0x3F800000#32),
    StableHlo.nullary main_cst_4 (constant S_ .f32 0xBF800000#32) ]

/-- The body of @_where at its call %27. -/
abbrev sC1 : List (HloOp τ sig (Elt F)) :=
  [ StableHlo.TRef.unary (.of main_cst_3 : StableHlo.TRef sig ⟨S_, .f32⟩) (.of main_call1_v0 : StableHlo.TRef sig ⟨S128x1024, .f32⟩) (broadcastInDim S128x1024 ![] bcast_S_S128x1024),
    StableHlo.TRef.unary (.of main_cst_4 : StableHlo.TRef sig ⟨S_, .f32⟩) (.of main_call1_v1 : StableHlo.TRef sig ⟨S128x1024, .f32⟩) (broadcastInDim S128x1024 ![] bcast_S_S128x1024),
    StableHlo.TRef.ternary (.of main_v26 : StableHlo.TRef sig ⟨S128x1024, .i1⟩) (.of main_call1_v0 : StableHlo.TRef sig ⟨S128x1024, .f32⟩) (.of main_call1_v1 : StableHlo.TRef sig ⟨S128x1024, .f32⟩) (.of main_v27 : StableHlo.TRef sig ⟨S128x1024, .f32⟩) select ]

/-- @main's operations %28 … %35. -/
abbrev sP2 : List (HloOp τ sig (Elt F)) :=
  [ StableHlo.unary main_v27 main_v28 (id : (⟨S128x1024, .f32⟩ : BufTy).Contents (Elt F) → (⟨S128x1024, .f32⟩ : BufTy).Contents (Elt F)),
    StableHlo.unary main_arg4 main_v29 ((transpose S768x1024 [1, 0] · transposes_S1024x768_S768x1024_1_0) : (⟨S1024x768, .f32⟩ : BufTy).Contents (Elt F) → (⟨S768x1024, .f32⟩ : BufTy).Contents (Elt F)),
    StableHlo.binary main_arg0 main_v29 main_v30 ((fun l r => Host.dotGeneral dot_S128x768_S768x1024_S128x1024_1_0_0_1_n_n none l r) : (⟨S128x768, .f32⟩ : BufTy).Contents (Elt F) → (⟨S768x1024, .f32⟩ : BufTy).Contents (Elt F) → (⟨S128x1024, .f32⟩ : BufTy).Contents (Elt F)),
    StableHlo.unary main_arg2 main_v31 (broadcastInDim S128x1024 ![] bcast_S_S128x1024 : (⟨S_, .f32⟩ : BufTy).Contents (Elt F) → (⟨S128x1024, .f32⟩ : BufTy).Contents (Elt F)),
    StableHlo.binary main_v30 main_v31 main_v32 (mulf : (⟨S128x1024, .f32⟩ : BufTy).Contents (Elt F) → (⟨S128x1024, .f32⟩ : BufTy).Contents (Elt F) → (⟨S128x1024, .f32⟩ : BufTy).Contents (Elt F)),
    StableHlo.unary main_arg3 main_v33 (broadcastInDim S128x1024 ![] bcast_S_S128x1024 : (⟨S_, .f32⟩ : BufTy).Contents (Elt F) → (⟨S128x1024, .f32⟩ : BufTy).Contents (Elt F)),
    StableHlo.binary main_v32 main_v33 main_v34 (addf : (⟨S128x1024, .f32⟩ : BufTy).Contents (Elt F) → (⟨S128x1024, .f32⟩ : BufTy).Contents (Elt F) → (⟨S128x1024, .f32⟩ : BufTy).Contents (Elt F)),
    StableHlo.binary main_v28 main_v34 main_v35 (mulf : (⟨S128x1024, .f32⟩ : BufTy).Contents (Elt F) → (⟨S128x1024, .f32⟩ : BufTy).Contents (Elt F) → (⟨S128x1024, .f32⟩ : BufTy).Contents (Elt F)) ]

/-- The body of @log_sigmoid_0 at its call %36, with @softplus_1's inside it. -/
abbrev sC2 : List (HloOp τ sig (Elt F)) :=
  [ StableHlo.TRef.unary (.of main_v35 : StableHlo.TRef sig ⟨S128x1024, .f32⟩) (.of main_call2_v0 : StableHlo.TRef sig ⟨S128x1024, .f32⟩) Host.negf,
    StableHlo.TRef.nullary (.of main_call2_call0_cst : StableHlo.TRef sig ⟨S_, .f32⟩) (constant S_ .f32 0x00000000#32),
    StableHlo.TRef.unary (.of main_call2_call0_cst : StableHlo.TRef sig ⟨S_, .f32⟩) (.of main_call2_call0_v0 : StableHlo.TRef sig ⟨S128x1024, .f32⟩) (broadcastInDim S128x1024 ![] bcast_S_S128x1024),
    StableHlo.TRef.binary (.of main_call2_v0 : StableHlo.TRef sig ⟨S128x1024, .f32⟩) (.of main_call2_call0_v0 : StableHlo.TRef sig ⟨S128x1024, .f32⟩) (.of main_call2_call0_v1 : StableHlo.TRef sig ⟨S128x1024, .f32⟩) maximumf,
    StableHlo.TRef.unary (.of main_call2_call0_cst : StableHlo.TRef sig ⟨S_, .f32⟩) (.of main_call2_call0_v2 : StableHlo.TRef sig ⟨S128x1024, .f32⟩) (broadcastInDim S128x1024 ![] bcast_S_S128x1024),
    StableHlo.TRef.binary (.of main_call2_v0 : StableHlo.TRef sig ⟨S128x1024, .f32⟩) (.of main_call2_call0_v2 : StableHlo.TRef sig ⟨S128x1024, .f32⟩) (.of main_call2_call0_v3 : StableHlo.TRef sig ⟨S128x1024, .f32⟩) subf,
    StableHlo.TRef.binary (.of main_call2_call0_v3 : StableHlo.TRef sig ⟨S128x1024, .f32⟩) (.of main_call2_call0_v3 : StableHlo.TRef sig ⟨S128x1024, .f32⟩) (.of main_call2_call0_v4 : StableHlo.TRef sig ⟨S128x1024, .i1⟩) (cmpf .une),
    StableHlo.TRef.unary (.of main_call2_call0_cst : StableHlo.TRef sig ⟨S_, .f32⟩) (.of main_call2_call0_v5 : StableHlo.TRef sig ⟨S128x1024, .f32⟩) (broadcastInDim S128x1024 ![] bcast_S_S128x1024),
    StableHlo.TRef.binary (.of main_call2_v0 : StableHlo.TRef sig ⟨S128x1024, .f32⟩) (.of main_call2_call0_v5 : StableHlo.TRef sig ⟨S128x1024, .f32⟩) (.of main_call2_call0_v6 : StableHlo.TRef sig ⟨S128x1024, .f32⟩) addf,
    StableHlo.TRef.unary (.of main_call2_call0_v3 : StableHlo.TRef sig ⟨S128x1024, .f32⟩) (.of main_call2_call0_v7 : StableHlo.TRef sig ⟨S128x1024, .f32⟩) Host.absf,
    StableHlo.TRef.unary (.of main_call2_call0_v7 : StableHlo.TRef sig ⟨S128x1024, .f32⟩) (.of main_call2_call0_v8 : StableHlo.TRef sig ⟨S128x1024, .f32⟩) Host.negf,
    StableHlo.TRef.unary (.of main_call2_call0_v8 : StableHlo.TRef sig ⟨S128x1024, .f32⟩) (.of main_call2_call0_v9 : StableHlo.TRef sig ⟨S128x1024, .f32⟩) Host.exp,
    StableHlo.TRef.unary (.of main_call2_call0_v9 : StableHlo.TRef sig ⟨S128x1024, .f32⟩) (.of main_call2_call0_v10 : StableHlo.TRef sig ⟨S128x1024, .f32⟩) Host.log1p,
    StableHlo.TRef.binary (.of main_call2_call0_v1 : StableHlo.TRef sig ⟨S128x1024, .f32⟩) (.of main_call2_call0_v10 : StableHlo.TRef sig ⟨S128x1024, .f32⟩) (.of main_call2_call0_v11 : StableHlo.TRef sig ⟨S128x1024, .f32⟩) addf,
    StableHlo.TRef.ternary (.of main_call2_call0_v4 : StableHlo.TRef sig ⟨S128x1024, .i1⟩) (.of main_call2_call0_v6 : StableHlo.TRef sig ⟨S128x1024, .f32⟩) (.of main_call2_call0_v11 : StableHlo.TRef sig ⟨S128x1024, .f32⟩) (.of main_call2_v1 : StableHlo.TRef sig ⟨S128x1024, .f32⟩) select,
    StableHlo.TRef.unary main_call2_call0.v12 (.of main_v36 : StableHlo.TRef sig ⟨S128x1024, .f32⟩) Host.negf ]

/-- @main's operations %cst_5 … %40. -/
abbrev sP3 : List (HloOp τ sig (Elt F)) :=
  [ StableHlo.nullary main_cst_5 (constant S_ .f32 0x00000000#32),
    StableHlo.binary main_v36 main_cst_5 main_v37 ((fun x v => Host.reduceAdd x v reducesTo_S128x1024_S_d0_1 h_S_) : (⟨S128x1024, .f32⟩ : BufTy).Contents (Elt F) → (⟨S_, .f32⟩ : BufTy).Contents (Elt F) → (⟨S_, .f32⟩ : BufTy).Contents (Elt F)),
    StableHlo.unary main_v37 main_v38 (Host.negf : (⟨S_, .f32⟩ : BufTy).Contents (Elt F) → (⟨S_, .f32⟩ : BufTy).Contents (Elt F)),
    StableHlo.nullary main_cst_6 (constant S_ .f32 0x44800000#32),
    StableHlo.binary main_v38 main_cst_6 main_v39 (Host.divf : (⟨S_, .f32⟩ : BufTy).Contents (Elt F) → (⟨S_, .f32⟩ : BufTy).Contents (Elt F) → (⟨S_, .f32⟩ : BufTy).Contents (Elt F)),
    StableHlo.nullary main_cst_7 (constant S_ .f32 0x3F800000#32),
    StableHlo.binary main_v39 main_cst_7 main_v40 (mulf : (⟨S_, .f32⟩ : BufTy).Contents (Elt F) → (⟨S_, .f32⟩ : BufTy).Contents (Elt F) → (⟨S_, .f32⟩ : BufTy).Contents (Elt F)) ]

/-- @main's operations %41 … %45. -/
abbrev sM0 : List (HloOp τ sig (Elt F)) :=
  [ StableHlo.binary main_arg6 main_arg4 main_v41 ((fun l r => Host.dotGeneral dot_S128x577x768_S1024x768_S128x577x1024_2_1_01_0_n_n none l r) : (⟨S128x577x768, .f32⟩ : BufTy).Contents (Elt F) → (⟨S1024x768, .f32⟩ : BufTy).Contents (Elt F) → (⟨S128x577x1024, .f32⟩ : BufTy).Contents (Elt F)),
    StableHlo.nullary main_cst_8 (constant S_ .f32 0x00000000#32),
    StableHlo.unary main_cst_8 main_v42 (broadcastInDim S128x577x1024 ![] bcast_S_S128x577x1024 : (⟨S_, .f32⟩ : BufTy).Contents (Elt F) → (⟨S128x577x1024, .f32⟩ : BufTy).Contents (Elt F)),
    StableHlo.binary main_v41 main_v42 main_v43 (cmpf .oge : (⟨S128x577x1024, .f32⟩ : BufTy).Contents (Elt F) → (⟨S128x577x1024, .f32⟩ : BufTy).Contents (Elt F) → (⟨S128x577x1024, .i1⟩ : BufTy).Contents (Elt F)),
    StableHlo.nullary main_cst_9 (constant S_ .f32 0x3DCCCCCD#32),
    StableHlo.unary main_cst_9 main_v44 (broadcastInDim S128x577x1024 ![] bcast_S_S128x577x1024 : (⟨S_, .f32⟩ : BufTy).Contents (Elt F) → (⟨S128x577x1024, .f32⟩ : BufTy).Contents (Elt F)),
    StableHlo.binary main_v44 main_v41 main_v45 (mulf : (⟨S128x577x1024, .f32⟩ : BufTy).Contents (Elt F) → (⟨S128x577x1024, .f32⟩ : BufTy).Contents (Elt F) → (⟨S128x577x1024, .f32⟩ : BufTy).Contents (Elt F)) ]

/-- The body of @_where_2 at its call %46. -/
abbrev sC3 : List (HloOp τ sig (Elt F)) :=
  [ StableHlo.TRef.ternary (.of main_v43 : StableHlo.TRef sig ⟨S128x577x1024, .i1⟩) (.of main_v41 : StableHlo.TRef sig ⟨S128x577x1024, .f32⟩) (.of main_v45 : StableHlo.TRef sig ⟨S128x577x1024, .f32⟩) (.of main_v46 : StableHlo.TRef sig ⟨S128x577x1024, .f32⟩) select ]

/-- @main's operation %47. -/
abbrev sM1 : List (HloOp τ sig (Elt F)) :=
  [ StableHlo.binary main_v46 main_v46 main_v47 (mulf : (⟨S128x577x1024, .f32⟩ : BufTy).Contents (Elt F) → (⟨S128x577x1024, .f32⟩ : BufTy).Contents (Elt F) → (⟨S128x577x1024, .f32⟩ : BufTy).Contents (Elt F)) ]

/-- @main's operations %cst_10 … %84. -/
abbrev sM2 : List (HloOp τ sig (Elt F)) :=
  [ StableHlo.nullary main_cst_10 (constant S_ .f32 0x00000000#32),
    StableHlo.binary main_v47 main_cst_10 main_v48 ((fun x v => Host.reduceAdd x v reducesTo_S128x577x1024_S128x577_d2 h_S_) : (⟨S128x577x1024, .f32⟩ : BufTy).Contents (Elt F) → (⟨S_, .f32⟩ : BufTy).Contents (Elt F) → (⟨S128x577, .f32⟩ : BufTy).Contents (Elt F)),
    StableHlo.unary main_v48 main_v49 (broadcastInDim S128x577x1 ![0, 1] bcast_S128x577_S128x577x1_0_1 : (⟨S128x577, .f32⟩ : BufTy).Contents (Elt F) → (⟨S128x577x1, .f32⟩ : BufTy).Contents (Elt F)),
    StableHlo.unary main_v49 main_v50 (Host.sqrt : (⟨S128x577x1, .f32⟩ : BufTy).Contents (Elt F) → (⟨S128x577x1, .f32⟩ : BufTy).Contents (Elt F)),
    StableHlo.nullary main_cst_11 (constant S_ .f32 0x322BCC77#32),
    StableHlo.unary main_cst_11 main_v51 (broadcastInDim S128x577x1 ![] bcast_S_S128x577x1 : (⟨S_, .f32⟩ : BufTy).Contents (Elt F) → (⟨S128x577x1, .f32⟩ : BufTy).Contents (Elt F)),
    StableHlo.binary main_v50 main_v51 main_v52 (maximumf : (⟨S128x577x1, .f32⟩ : BufTy).Contents (Elt F) → (⟨S128x577x1, .f32⟩ : BufTy).Contents (Elt F) → (⟨S128x577x1, .f32⟩ : BufTy).Contents (Elt F)),
    StableHlo.unary main_v52 main_v53 (broadcastInDim S128x577x1024 ![0, 1, 2] bcast_S128x577x1_S128x577x1024_0_1_2 : (⟨S128x577x1, .f32⟩ : BufTy).Contents (Elt F) → (⟨S128x577x1024, .f32⟩ : BufTy).Contents (Elt F)),
    StableHlo.binary main_v46 main_v53 main_v54 (Host.divf : (⟨S128x577x1024, .f32⟩ : BufTy).Contents (Elt F) → (⟨S128x577x1024, .f32⟩ : BufTy).Contents (Elt F) → (⟨S128x577x1024, .f32⟩ : BufTy).Contents (Elt F)),
    StableHlo.unary main_v54 main_v55 ((transpose S128x1024x577 [0, 2, 1] · transposes_S128x577x1024_S128x1024x577_0_2_1) : (⟨S128x577x1024, .f32⟩ : BufTy).Contents (Elt F) → (⟨S128x1024x577, .f32⟩ : BufTy).Contents (Elt F)),
    StableHlo.nullary main_cst_12 (constant S_ .f32 0x40800000#32),
    StableHlo.unary main_cst_12 main_v56 (broadcastInDim S128x1024x577 ![] bcast_S_S128x1024x577 : (⟨S_, .f32⟩ : BufTy).Contents (Elt F) → (⟨S128x1024x577, .f32⟩ : BufTy).Contents (Elt F)),
    StableHlo.binary main_v55 main_v56 main_v57 (mulf : (⟨S128x1024x577, .f32⟩ : BufTy).Contents (Elt F) → (⟨S128x1024x577, .f32⟩ : BufTy).Contents (Elt F) → (⟨S128x1024x577, .f32⟩ : BufTy).Contents (Elt F)),
    StableHlo.nullary main_cst_13 (constant S_ .f32 0xFF800000#32),
    StableHlo.binary main_v57 main_cst_13 main_v58 ((fun x v => Host.reduce FloatOps.maximumf x v reducesTo_S128x1024x577_S128x1024_d2 h_S_) : (⟨S128x1024x577, .f32⟩ : BufTy).Contents (Elt F) → (⟨S_, .f32⟩ : BufTy).Contents (Elt F) → (⟨S128x1024, .f32⟩ : BufTy).Contents (Elt F)),
    StableHlo.nullary main_cst_14 (constant S_ .f32 0xFF800000#32),
    StableHlo.unary main_cst_14 main_v59 (broadcastInDim S128x1024 ![] bcast_S_S128x1024 : (⟨S_, .f32⟩ : BufTy).Contents (Elt F) → (⟨S128x1024, .f32⟩ : BufTy).Contents (Elt F)),
    StableHlo.binary main_v59 main_v58 main_v60 (maximumf : (⟨S128x1024, .f32⟩ : BufTy).Contents (Elt F) → (⟨S128x1024, .f32⟩ : BufTy).Contents (Elt F) → (⟨S128x1024, .f32⟩ : BufTy).Contents (Elt F)),
    StableHlo.unary main_v60 main_v61 (broadcastInDim S128x1024x1 ![0, 1] bcast_S128x1024_S128x1024x1_0_1 : (⟨S128x1024, .f32⟩ : BufTy).Contents (Elt F) → (⟨S128x1024x1, .f32⟩ : BufTy).Contents (Elt F)),
    StableHlo.unary main_v61 main_v62 (broadcastInDim S128x1024x577 ![0, 1, 2] bcast_S128x1024x1_S128x1024x577_0_1_2 : (⟨S128x1024x1, .f32⟩ : BufTy).Contents (Elt F) → (⟨S128x1024x577, .f32⟩ : BufTy).Contents (Elt F)),
    StableHlo.binary main_v57 main_v62 main_v63 (subf : (⟨S128x1024x577, .f32⟩ : BufTy).Contents (Elt F) → (⟨S128x1024x577, .f32⟩ : BufTy).Contents (Elt F) → (⟨S128x1024x577, .f32⟩ : BufTy).Contents (Elt F)),
    StableHlo.unary main_v63 main_v64 (Host.exp : (⟨S128x1024x577, .f32⟩ : BufTy).Contents (Elt F) → (⟨S128x1024x577, .f32⟩ : BufTy).Contents (Elt F)),
    StableHlo.nullary main_cst_15 (constant S_ .f32 0x00000000#32),
    StableHlo.binary main_v64 main_cst_15 main_v65 ((fun x v => Host.reduceAdd x v reducesTo_S128x1024x577_S128x1024_d2 h_S_) : (⟨S128x1024x577, .f32⟩ : BufTy).Contents (Elt F) → (⟨S_, .f32⟩ : BufTy).Contents (Elt F) → (⟨S128x1024, .f32⟩ : BufTy).Contents (Elt F)),
    StableHlo.unary main_v65 main_v66 (broadcastInDim S128x1024x1 ![0, 1] bcast_S128x1024_S128x1024x1_0_1 : (⟨S128x1024, .f32⟩ : BufTy).Contents (Elt F) → (⟨S128x1024x1, .f32⟩ : BufTy).Contents (Elt F)),
    StableHlo.unary main_v66 main_v67 (broadcastInDim S128x1024x577 ![0, 1, 2] bcast_S128x1024x1_S128x1024x577_0_1_2 : (⟨S128x1024x1, .f32⟩ : BufTy).Contents (Elt F) → (⟨S128x1024x577, .f32⟩ : BufTy).Contents (Elt F)),
    StableHlo.binary main_v64 main_v67 main_v68 (Host.divf : (⟨S128x1024x577, .f32⟩ : BufTy).Contents (Elt F) → (⟨S128x1024x577, .f32⟩ : BufTy).Contents (Elt F) → (⟨S128x1024x577, .f32⟩ : BufTy).Contents (Elt F)),
    StableHlo.binary main_v68 main_arg6 main_v69 ((fun l r => Host.dotGeneral dot_S128x1024x577_S128x577x768_S128x1024x768_2_1_1_2_0_0 none l r) : (⟨S128x1024x577, .f32⟩ : BufTy).Contents (Elt F) → (⟨S128x577x768, .f32⟩ : BufTy).Contents (Elt F) → (⟨S128x1024x768, .f32⟩ : BufTy).Contents (Elt F)),
    StableHlo.unary main_arg4 main_v70 (broadcastInDim S1x1024x768 ![1, 2] bcast_S1024x768_S1x1024x768_1_2 : (⟨S1024x768, .f32⟩ : BufTy).Contents (Elt F) → (⟨S1x1024x768, .f32⟩ : BufTy).Contents (Elt F)),
    StableHlo.unary main_v70 main_v71 (broadcastInDim S128x1024x768 ![0, 1, 2] bcast_S1x1024x768_S128x1024x768_0_1_2 : (⟨S1x1024x768, .f32⟩ : BufTy).Contents (Elt F) → (⟨S128x1024x768, .f32⟩ : BufTy).Contents (Elt F)),
    StableHlo.binary main_v71 main_v69 main_v72 (mulf : (⟨S128x1024x768, .f32⟩ : BufTy).Contents (Elt F) → (⟨S128x1024x768, .f32⟩ : BufTy).Contents (Elt F) → (⟨S128x1024x768, .f32⟩ : BufTy).Contents (Elt F)),
    StableHlo.nullary main_cst_16 (constant S_ .f32 0x00000000#32),
    StableHlo.binary main_v72 main_cst_16 main_v73 ((fun x v => Host.reduceAdd x v reducesTo_S128x1024x768_S128x1024_d2 h_S_) : (⟨S128x1024x768, .f32⟩ : BufTy).Contents (Elt F) → (⟨S_, .f32⟩ : BufTy).Contents (Elt F) → (⟨S128x1024, .f32⟩ : BufTy).Contents (Elt F)),
    StableHlo.binary main_v70 main_v70 main_v74 (mulf : (⟨S1x1024x768, .f32⟩ : BufTy).Contents (Elt F) → (⟨S1x1024x768, .f32⟩ : BufTy).Contents (Elt F) → (⟨S1x1024x768, .f32⟩ : BufTy).Contents (Elt F)),
    StableHlo.nullary main_cst_17 (constant S_ .f32 0x00000000#32),
    StableHlo.binary main_v74 main_cst_17 main_v75 ((fun x v => Host.reduceAdd x v reducesTo_S1x1024x768_S1x1024_d2 h_S_) : (⟨S1x1024x768, .f32⟩ : BufTy).Contents (Elt F) → (⟨S_, .f32⟩ : BufTy).Contents (Elt F) → (⟨S1x1024, .f32⟩ : BufTy).Contents (Elt F)),
    StableHlo.unary main_v75 main_v76 (Host.sqrt : (⟨S1x1024, .f32⟩ : BufTy).Contents (Elt F) → (⟨S1x1024, .f32⟩ : BufTy).Contents (Elt F)),
    StableHlo.binary main_v69 main_v69 main_v77 (mulf : (⟨S128x1024x768, .f32⟩ : BufTy).Contents (Elt F) → (⟨S128x1024x768, .f32⟩ : BufTy).Contents (Elt F) → (⟨S128x1024x768, .f32⟩ : BufTy).Contents (Elt F)),
    StableHlo.nullary main_cst_18 (constant S_ .f32 0x00000000#32),
    StableHlo.binary main_v77 main_cst_18 main_v78 ((fun x v => Host.reduceAdd x v reducesTo_S128x1024x768_S128x1024_d2 h_S_) : (⟨S128x1024x768, .f32⟩ : BufTy).Contents (Elt F) → (⟨S_, .f32⟩ : BufTy).Contents (Elt F) → (⟨S128x1024, .f32⟩ : BufTy).Contents (Elt F)),
    StableHlo.unary main_v78 main_v79 (Host.sqrt : (⟨S128x1024, .f32⟩ : BufTy).Contents (Elt F) → (⟨S128x1024, .f32⟩ : BufTy).Contents (Elt F)),
    StableHlo.unary main_v76 main_v80 (broadcastInDim S128x1024 ![0, 1] bcast_S1x1024_S128x1024_0_1 : (⟨S1x1024, .f32⟩ : BufTy).Contents (Elt F) → (⟨S128x1024, .f32⟩ : BufTy).Contents (Elt F)),
    StableHlo.binary main_v80 main_v79 main_v81 (mulf : (⟨S128x1024, .f32⟩ : BufTy).Contents (Elt F) → (⟨S128x1024, .f32⟩ : BufTy).Contents (Elt F) → (⟨S128x1024, .f32⟩ : BufTy).Contents (Elt F)),
    StableHlo.nullary main_cst_19 (constant S_ .f32 0x322BCC77#32),
    StableHlo.unary main_cst_19 main_v82 (broadcastInDim S128x1024 ![] bcast_S_S128x1024 : (⟨S_, .f32⟩ : BufTy).Contents (Elt F) → (⟨S128x1024, .f32⟩ : BufTy).Contents (Elt F)),
    StableHlo.binary main_v81 main_v82 main_v83 (maximumf : (⟨S128x1024, .f32⟩ : BufTy).Contents (Elt F) → (⟨S128x1024, .f32⟩ : BufTy).Contents (Elt F) → (⟨S128x1024, .f32⟩ : BufTy).Contents (Elt F)),
    StableHlo.binary main_v73 main_v83 main_v84 (Host.divf : (⟨S128x1024, .f32⟩ : BufTy).Contents (Elt F) → (⟨S128x1024, .f32⟩ : BufTy).Contents (Elt F) → (⟨S128x1024, .f32⟩ : BufTy).Contents (Elt F)) ]

/-- @main's operations %85 … %89. -/
abbrev sT0 : List (HloOp τ sig (Elt F)) :=
  [ StableHlo.unary main_arg2 main_v85 (broadcastInDim S128x1024 ![] bcast_S_S128x1024 : (⟨S_, .f32⟩ : BufTy).Contents (Elt F) → (⟨S128x1024, .f32⟩ : BufTy).Contents (Elt F)),
    StableHlo.binary main_v84 main_v85 main_v86 (mulf : (⟨S128x1024, .f32⟩ : BufTy).Contents (Elt F) → (⟨S128x1024, .f32⟩ : BufTy).Contents (Elt F) → (⟨S128x1024, .f32⟩ : BufTy).Contents (Elt F)),
    StableHlo.unary main_arg3 main_v87 (broadcastInDim S128x1024 ![] bcast_S_S128x1024 : (⟨S_, .f32⟩ : BufTy).Contents (Elt F) → (⟨S128x1024, .f32⟩ : BufTy).Contents (Elt F)),
    StableHlo.binary main_v86 main_v87 main_v88 (addf : (⟨S128x1024, .f32⟩ : BufTy).Contents (Elt F) → (⟨S128x1024, .f32⟩ : BufTy).Contents (Elt F) → (⟨S128x1024, .f32⟩ : BufTy).Contents (Elt F)),
    StableHlo.binary main_v28 main_v88 main_v89 (mulf : (⟨S128x1024, .f32⟩ : BufTy).Contents (Elt F) → (⟨S128x1024, .f32⟩ : BufTy).Contents (Elt F) → (⟨S128x1024, .f32⟩ : BufTy).Contents (Elt F)) ]

/-- The body of @log_sigmoid_0 at its call %90, with @softplus_1's inside it. -/
abbrev sC4 : List (HloOp τ sig (Elt F)) :=
  [ StableHlo.TRef.unary (.of main_v89 : StableHlo.TRef sig ⟨S128x1024, .f32⟩) (.of main_call4_v0 : StableHlo.TRef sig ⟨S128x1024, .f32⟩) Host.negf,
    StableHlo.TRef.nullary (.of main_call4_call0_cst : StableHlo.TRef sig ⟨S_, .f32⟩) (constant S_ .f32 0x00000000#32),
    StableHlo.TRef.unary (.of main_call4_call0_cst : StableHlo.TRef sig ⟨S_, .f32⟩) (.of main_call4_call0_v0 : StableHlo.TRef sig ⟨S128x1024, .f32⟩) (broadcastInDim S128x1024 ![] bcast_S_S128x1024),
    StableHlo.TRef.binary (.of main_call4_v0 : StableHlo.TRef sig ⟨S128x1024, .f32⟩) (.of main_call4_call0_v0 : StableHlo.TRef sig ⟨S128x1024, .f32⟩) (.of main_call4_call0_v1 : StableHlo.TRef sig ⟨S128x1024, .f32⟩) maximumf,
    StableHlo.TRef.unary (.of main_call4_call0_cst : StableHlo.TRef sig ⟨S_, .f32⟩) (.of main_call4_call0_v2 : StableHlo.TRef sig ⟨S128x1024, .f32⟩) (broadcastInDim S128x1024 ![] bcast_S_S128x1024),
    StableHlo.TRef.binary (.of main_call4_v0 : StableHlo.TRef sig ⟨S128x1024, .f32⟩) (.of main_call4_call0_v2 : StableHlo.TRef sig ⟨S128x1024, .f32⟩) (.of main_call4_call0_v3 : StableHlo.TRef sig ⟨S128x1024, .f32⟩) subf,
    StableHlo.TRef.binary (.of main_call4_call0_v3 : StableHlo.TRef sig ⟨S128x1024, .f32⟩) (.of main_call4_call0_v3 : StableHlo.TRef sig ⟨S128x1024, .f32⟩) (.of main_call4_call0_v4 : StableHlo.TRef sig ⟨S128x1024, .i1⟩) (cmpf .une),
    StableHlo.TRef.unary (.of main_call4_call0_cst : StableHlo.TRef sig ⟨S_, .f32⟩) (.of main_call4_call0_v5 : StableHlo.TRef sig ⟨S128x1024, .f32⟩) (broadcastInDim S128x1024 ![] bcast_S_S128x1024),
    StableHlo.TRef.binary (.of main_call4_v0 : StableHlo.TRef sig ⟨S128x1024, .f32⟩) (.of main_call4_call0_v5 : StableHlo.TRef sig ⟨S128x1024, .f32⟩) (.of main_call4_call0_v6 : StableHlo.TRef sig ⟨S128x1024, .f32⟩) addf,
    StableHlo.TRef.unary (.of main_call4_call0_v3 : StableHlo.TRef sig ⟨S128x1024, .f32⟩) (.of main_call4_call0_v7 : StableHlo.TRef sig ⟨S128x1024, .f32⟩) Host.absf,
    StableHlo.TRef.unary (.of main_call4_call0_v7 : StableHlo.TRef sig ⟨S128x1024, .f32⟩) (.of main_call4_call0_v8 : StableHlo.TRef sig ⟨S128x1024, .f32⟩) Host.negf,
    StableHlo.TRef.unary (.of main_call4_call0_v8 : StableHlo.TRef sig ⟨S128x1024, .f32⟩) (.of main_call4_call0_v9 : StableHlo.TRef sig ⟨S128x1024, .f32⟩) Host.exp,
    StableHlo.TRef.unary (.of main_call4_call0_v9 : StableHlo.TRef sig ⟨S128x1024, .f32⟩) (.of main_call4_call0_v10 : StableHlo.TRef sig ⟨S128x1024, .f32⟩) Host.log1p,
    StableHlo.TRef.binary (.of main_call4_call0_v1 : StableHlo.TRef sig ⟨S128x1024, .f32⟩) (.of main_call4_call0_v10 : StableHlo.TRef sig ⟨S128x1024, .f32⟩) (.of main_call4_call0_v11 : StableHlo.TRef sig ⟨S128x1024, .f32⟩) addf,
    StableHlo.TRef.ternary (.of main_call4_call0_v4 : StableHlo.TRef sig ⟨S128x1024, .i1⟩) (.of main_call4_call0_v6 : StableHlo.TRef sig ⟨S128x1024, .f32⟩) (.of main_call4_call0_v11 : StableHlo.TRef sig ⟨S128x1024, .f32⟩) (.of main_call4_v1 : StableHlo.TRef sig ⟨S128x1024, .f32⟩) select,
    StableHlo.TRef.unary main_call4_call0.v12 (.of main_v90 : StableHlo.TRef sig ⟨S128x1024, .f32⟩) Host.negf ]

/-- @main's operations %cst_20 … %94. -/
abbrev sT1 : List (HloOp τ sig (Elt F)) :=
  [ StableHlo.nullary main_cst_20 (constant S_ .f32 0x00000000#32),
    StableHlo.binary main_v90 main_cst_20 main_v91 ((fun x v => Host.reduceAdd x v reducesTo_S128x1024_S_d0_1 h_S_) : (⟨S128x1024, .f32⟩ : BufTy).Contents (Elt F) → (⟨S_, .f32⟩ : BufTy).Contents (Elt F) → (⟨S_, .f32⟩ : BufTy).Contents (Elt F)),
    StableHlo.unary main_v91 main_v92 (Host.negf : (⟨S_, .f32⟩ : BufTy).Contents (Elt F) → (⟨S_, .f32⟩ : BufTy).Contents (Elt F)),
    StableHlo.nullary main_cst_21 (constant S_ .f32 0x44800000#32),
    StableHlo.binary main_v92 main_cst_21 main_v93 (Host.divf : (⟨S_, .f32⟩ : BufTy).Contents (Elt F) → (⟨S_, .f32⟩ : BufTy).Contents (Elt F) → (⟨S_, .f32⟩ : BufTy).Contents (Elt F)),
    StableHlo.nullary main_cst_22 (constant S_ .f32 0x3C23D70A#32),
    StableHlo.binary main_v93 main_cst_22 main_v94 (mulf : (⟨S_, .f32⟩ : BufTy).Contents (Elt F) → (⟨S_, .f32⟩ : BufTy).Contents (Elt F) → (⟨S_, .f32⟩ : BufTy).Contents (Elt F)) ]

/-- @main's operations %95 and %96. -/
abbrev sT2 : List (HloOp τ sig (Elt F)) :=
  [ StableHlo.binary main_v20 main_v40 main_v95 (addf : (⟨S_, .f32⟩ : BufTy).Contents (Elt F) → (⟨S_, .f32⟩ : BufTy).Contents (Elt F) → (⟨S_, .f32⟩ : BufTy).Contents (Elt F)),
    StableHlo.binary main_v95 main_v94 main_v96 (addf : (⟨S_, .f32⟩ : BufTy).Contents (Elt F) → (⟨S_, .f32⟩ : BufTy).Contents (Elt F) → (⟨S_, .f32⟩ : BufTy).Contents (Elt F)) ]

/-! ## The line in three parts -/

/-- Everything up to and including %40: the first two loss terms. -/
abbrev opsPre : List (HloOp τ sig (Elt F)) :=
  [ StableHlo.unary main_arg1 main_v0 ((transpose S768x128 [1, 0] · transposes_S128x768_S768x128_1_0) : (⟨S128x768, .f32⟩ : BufTy).Contents (Elt F) → (⟨S768x128, .f32⟩ : BufTy).Contents (Elt F)),
    StableHlo.binary main_arg0 main_v0 main_v1 ((fun l r => Host.dotGeneral dot_S128x768_S768x128_S128x128_1_0_0_1_n_n none l r) : (⟨S128x768, .f32⟩ : BufTy).Contents (Elt F) → (⟨S768x128, .f32⟩ : BufTy).Contents (Elt F) → (⟨S128x128, .f32⟩ : BufTy).Contents (Elt F)),
    StableHlo.unary main_arg2 main_v2 (broadcastInDim S128x128 ![] bcast_S_S128x128 : (⟨S_, .f32⟩ : BufTy).Contents (Elt F) → (⟨S128x128, .f32⟩ : BufTy).Contents (Elt F)),
    StableHlo.binary main_v1 main_v2 main_v3 (mulf : (⟨S128x128, .f32⟩ : BufTy).Contents (Elt F) → (⟨S128x128, .f32⟩ : BufTy).Contents (Elt F) → (⟨S128x128, .f32⟩ : BufTy).Contents (Elt F)),
    StableHlo.unary main_arg3 main_v4 (broadcastInDim S128x128 ![] bcast_S_S128x128 : (⟨S_, .f32⟩ : BufTy).Contents (Elt F) → (⟨S128x128, .f32⟩ : BufTy).Contents (Elt F)),
    StableHlo.binary main_v3 main_v4 main_v5 (addf : (⟨S128x128, .f32⟩ : BufTy).Contents (Elt F) → (⟨S128x128, .f32⟩ : BufTy).Contents (Elt F) → (⟨S128x128, .f32⟩ : BufTy).Contents (Elt F)),
    StableHlo.nullary main_v6 (iotaInDim S128x128 32 0),
    StableHlo.nullary main_v7 (iotaInDim S128x128 32 1),
    StableHlo.nullary main_c (constantI S_ 32 0#32),
    StableHlo.unary main_c main_v8 (broadcastInDim S128x128 ![] bcast_S_S128x128 : (⟨S_, .i32⟩ : BufTy).Contents (Elt F) → (⟨S128x128, .i32⟩ : BufTy).Contents (Elt F)),
    StableHlo.binary main_v6 main_v8 main_v9 (addi : (⟨S128x128, .i32⟩ : BufTy).Contents (Elt F) → (⟨S128x128, .i32⟩ : BufTy).Contents (Elt F) → (⟨S128x128, .i32⟩ : BufTy).Contents (Elt F)),
    StableHlo.binary main_v9 main_v7 main_v10 (cmpi .eq : (⟨S128x128, .i32⟩ : BufTy).Contents (Elt F) → (⟨S128x128, .i32⟩ : BufTy).Contents (Elt F) → (⟨S128x128, .i1⟩ : BufTy).Contents (Elt F)),
    StableHlo.unary main_v10 main_v11 (uitofp .f32 : (⟨S128x128, .i1⟩ : BufTy).Contents (Elt F) → (⟨S128x128, .f32⟩ : BufTy).Contents (Elt F)),
    StableHlo.nullary main_cst (constant S_ .f32 0x40000000#32),
    StableHlo.unary main_cst main_v12 (broadcastInDim S128x128 ![] bcast_S_S128x128 : (⟨S_, .f32⟩ : BufTy).Contents (Elt F) → (⟨S128x128, .f32⟩ : BufTy).Contents (Elt F)),
    StableHlo.binary main_v12 main_v11 main_v13 (mulf : (⟨S128x128, .f32⟩ : BufTy).Contents (Elt F) → (⟨S128x128, .f32⟩ : BufTy).Contents (Elt F) → (⟨S128x128, .f32⟩ : BufTy).Contents (Elt F)),
    StableHlo.nullary main_cst_0 (constant S_ .f32 0x3F800000#32),
    StableHlo.unary main_cst_0 main_v14 (broadcastInDim S128x128 ![] bcast_S_S128x128 : (⟨S_, .f32⟩ : BufTy).Contents (Elt F) → (⟨S128x128, .f32⟩ : BufTy).Contents (Elt F)),
    StableHlo.binary main_v13 main_v14 main_v15 (subf : (⟨S128x128, .f32⟩ : BufTy).Contents (Elt F) → (⟨S128x128, .f32⟩ : BufTy).Contents (Elt F) → (⟨S128x128, .f32⟩ : BufTy).Contents (Elt F)),
    StableHlo.binary main_v15 main_v5 main_v16 (mulf : (⟨S128x128, .f32⟩ : BufTy).Contents (Elt F) → (⟨S128x128, .f32⟩ : BufTy).Contents (Elt F) → (⟨S128x128, .f32⟩ : BufTy).Contents (Elt F)),
    StableHlo.TRef.unary (.of main_v16 : StableHlo.TRef sig ⟨S128x128, .f32⟩) (.of main_call0_v0 : StableHlo.TRef sig ⟨S128x128, .f32⟩) Host.negf,
    StableHlo.TRef.nullary (.of main_call0_call0_cst : StableHlo.TRef sig ⟨S_, .f32⟩) (constant S_ .f32 0x00000000#32),
    StableHlo.TRef.unary (.of main_call0_call0_cst : StableHlo.TRef sig ⟨S_, .f32⟩) (.of main_call0_call0_v0 : StableHlo.TRef sig ⟨S128x128, .f32⟩) (broadcastInDim S128x128 ![] bcast_S_S128x128),
    StableHlo.TRef.binary (.of main_call0_v0 : StableHlo.TRef sig ⟨S128x128, .f32⟩) (.of main_call0_call0_v0 : StableHlo.TRef sig ⟨S128x128, .f32⟩) (.of main_call0_call0_v1 : StableHlo.TRef sig ⟨S128x128, .f32⟩) maximumf,
    StableHlo.TRef.unary (.of main_call0_call0_cst : StableHlo.TRef sig ⟨S_, .f32⟩) (.of main_call0_call0_v2 : StableHlo.TRef sig ⟨S128x128, .f32⟩) (broadcastInDim S128x128 ![] bcast_S_S128x128),
    StableHlo.TRef.binary (.of main_call0_v0 : StableHlo.TRef sig ⟨S128x128, .f32⟩) (.of main_call0_call0_v2 : StableHlo.TRef sig ⟨S128x128, .f32⟩) (.of main_call0_call0_v3 : StableHlo.TRef sig ⟨S128x128, .f32⟩) subf,
    StableHlo.TRef.binary (.of main_call0_call0_v3 : StableHlo.TRef sig ⟨S128x128, .f32⟩) (.of main_call0_call0_v3 : StableHlo.TRef sig ⟨S128x128, .f32⟩) (.of main_call0_call0_v4 : StableHlo.TRef sig ⟨S128x128, .i1⟩) (cmpf .une),
    StableHlo.TRef.unary (.of main_call0_call0_cst : StableHlo.TRef sig ⟨S_, .f32⟩) (.of main_call0_call0_v5 : StableHlo.TRef sig ⟨S128x128, .f32⟩) (broadcastInDim S128x128 ![] bcast_S_S128x128),
    StableHlo.TRef.binary (.of main_call0_v0 : StableHlo.TRef sig ⟨S128x128, .f32⟩) (.of main_call0_call0_v5 : StableHlo.TRef sig ⟨S128x128, .f32⟩) (.of main_call0_call0_v6 : StableHlo.TRef sig ⟨S128x128, .f32⟩) addf,
    StableHlo.TRef.unary (.of main_call0_call0_v3 : StableHlo.TRef sig ⟨S128x128, .f32⟩) (.of main_call0_call0_v7 : StableHlo.TRef sig ⟨S128x128, .f32⟩) Host.absf,
    StableHlo.TRef.unary (.of main_call0_call0_v7 : StableHlo.TRef sig ⟨S128x128, .f32⟩) (.of main_call0_call0_v8 : StableHlo.TRef sig ⟨S128x128, .f32⟩) Host.negf,
    StableHlo.TRef.unary (.of main_call0_call0_v8 : StableHlo.TRef sig ⟨S128x128, .f32⟩) (.of main_call0_call0_v9 : StableHlo.TRef sig ⟨S128x128, .f32⟩) Host.exp,
    StableHlo.TRef.unary (.of main_call0_call0_v9 : StableHlo.TRef sig ⟨S128x128, .f32⟩) (.of main_call0_call0_v10 : StableHlo.TRef sig ⟨S128x128, .f32⟩) Host.log1p,
    StableHlo.TRef.binary (.of main_call0_call0_v1 : StableHlo.TRef sig ⟨S128x128, .f32⟩) (.of main_call0_call0_v10 : StableHlo.TRef sig ⟨S128x128, .f32⟩) (.of main_call0_call0_v11 : StableHlo.TRef sig ⟨S128x128, .f32⟩) addf,
    StableHlo.TRef.ternary (.of main_call0_call0_v4 : StableHlo.TRef sig ⟨S128x128, .i1⟩) (.of main_call0_call0_v6 : StableHlo.TRef sig ⟨S128x128, .f32⟩) (.of main_call0_call0_v11 : StableHlo.TRef sig ⟨S128x128, .f32⟩) (.of main_call0_v1 : StableHlo.TRef sig ⟨S128x128, .f32⟩) select,
    StableHlo.TRef.unary main_call0_call0.v12 (.of main_v17 : StableHlo.TRef sig ⟨S128x128, .f32⟩) Host.negf,
    StableHlo.nullary main_cst_1 (constant S_ .f32 0x00000000#32),
    StableHlo.binary main_v17 main_cst_1 main_v18 ((fun x v => Host.reduceAdd x v reducesTo_S128x128_S_d0_1 h_S_) : (⟨S128x128, .f32⟩ : BufTy).Contents (Elt F) → (⟨S_, .f32⟩ : BufTy).Contents (Elt F) → (⟨S_, .f32⟩ : BufTy).Contents (Elt F)),
    StableHlo.unary main_v18 main_v19 (Host.negf : (⟨S_, .f32⟩ : BufTy).Contents (Elt F) → (⟨S_, .f32⟩ : BufTy).Contents (Elt F)),
    StableHlo.nullary main_cst_2 (constant S_ .f32 0x43000000#32),
    StableHlo.binary main_v19 main_cst_2 main_v20 (Host.divf : (⟨S_, .f32⟩ : BufTy).Contents (Elt F) → (⟨S_, .f32⟩ : BufTy).Contents (Elt F) → (⟨S_, .f32⟩ : BufTy).Contents (Elt F)),
    StableHlo.unary main_arg5 main_v21 (broadcastInDim S1x1024 ![1] bcast_S1024_S1x1024_1 : (⟨S1024, .i32⟩ : BufTy).Contents (Elt F) → (⟨S1x1024, .i32⟩ : BufTy).Contents (Elt F)),
    StableHlo.nullary main_v22 (iotaInDim S128 32 0),
    StableHlo.unary main_v22 main_v23 (broadcastInDim S128x1 ![0] bcast_S128_S128x1_0 : (⟨S128, .i32⟩ : BufTy).Contents (Elt F) → (⟨S128x1, .i32⟩ : BufTy).Contents (Elt F)),
    StableHlo.unary main_v21 main_v24 (broadcastInDim S128x1024 ![0, 1] bcast_S1x1024_S128x1024_0_1 : (⟨S1x1024, .i32⟩ : BufTy).Contents (Elt F) → (⟨S128x1024, .i32⟩ : BufTy).Contents (Elt F)),
    StableHlo.unary main_v23 main_v25 (broadcastInDim S128x1024 ![0, 1] bcast_S128x1_S128x1024_0_1 : (⟨S128x1, .i32⟩ : BufTy).Contents (Elt F) → (⟨S128x1024, .i32⟩ : BufTy).Contents (Elt F)),
    StableHlo.binary main_v24 main_v25 main_v26 (cmpi .eq : (⟨S128x1024, .i32⟩ : BufTy).Contents (Elt F) → (⟨S128x1024, .i32⟩ : BufTy).Contents (Elt F) → (⟨S128x1024, .i1⟩ : BufTy).Contents (Elt F)),
    StableHlo.nullary main_cst_3 (constant S_ .f32 0x3F800000#32),
    StableHlo.nullary main_cst_4 (constant S_ .f32 0xBF800000#32),
    StableHlo.TRef.unary (.of main_cst_3 : StableHlo.TRef sig ⟨S_, .f32⟩) (.of main_call1_v0 : StableHlo.TRef sig ⟨S128x1024, .f32⟩) (broadcastInDim S128x1024 ![] bcast_S_S128x1024),
    StableHlo.TRef.unary (.of main_cst_4 : StableHlo.TRef sig ⟨S_, .f32⟩) (.of main_call1_v1 : StableHlo.TRef sig ⟨S128x1024, .f32⟩) (broadcastInDim S128x1024 ![] bcast_S_S128x1024),
    StableHlo.TRef.ternary (.of main_v26 : StableHlo.TRef sig ⟨S128x1024, .i1⟩) (.of main_call1_v0 : StableHlo.TRef sig ⟨S128x1024, .f32⟩) (.of main_call1_v1 : StableHlo.TRef sig ⟨S128x1024, .f32⟩) (.of main_v27 : StableHlo.TRef sig ⟨S128x1024, .f32⟩) select,
    StableHlo.unary main_v27 main_v28 (id : (⟨S128x1024, .f32⟩ : BufTy).Contents (Elt F) → (⟨S128x1024, .f32⟩ : BufTy).Contents (Elt F)),
    StableHlo.unary main_arg4 main_v29 ((transpose S768x1024 [1, 0] · transposes_S1024x768_S768x1024_1_0) : (⟨S1024x768, .f32⟩ : BufTy).Contents (Elt F) → (⟨S768x1024, .f32⟩ : BufTy).Contents (Elt F)),
    StableHlo.binary main_arg0 main_v29 main_v30 ((fun l r => Host.dotGeneral dot_S128x768_S768x1024_S128x1024_1_0_0_1_n_n none l r) : (⟨S128x768, .f32⟩ : BufTy).Contents (Elt F) → (⟨S768x1024, .f32⟩ : BufTy).Contents (Elt F) → (⟨S128x1024, .f32⟩ : BufTy).Contents (Elt F)),
    StableHlo.unary main_arg2 main_v31 (broadcastInDim S128x1024 ![] bcast_S_S128x1024 : (⟨S_, .f32⟩ : BufTy).Contents (Elt F) → (⟨S128x1024, .f32⟩ : BufTy).Contents (Elt F)),
    StableHlo.binary main_v30 main_v31 main_v32 (mulf : (⟨S128x1024, .f32⟩ : BufTy).Contents (Elt F) → (⟨S128x1024, .f32⟩ : BufTy).Contents (Elt F) → (⟨S128x1024, .f32⟩ : BufTy).Contents (Elt F)),
    StableHlo.unary main_arg3 main_v33 (broadcastInDim S128x1024 ![] bcast_S_S128x1024 : (⟨S_, .f32⟩ : BufTy).Contents (Elt F) → (⟨S128x1024, .f32⟩ : BufTy).Contents (Elt F)),
    StableHlo.binary main_v32 main_v33 main_v34 (addf : (⟨S128x1024, .f32⟩ : BufTy).Contents (Elt F) → (⟨S128x1024, .f32⟩ : BufTy).Contents (Elt F) → (⟨S128x1024, .f32⟩ : BufTy).Contents (Elt F)),
    StableHlo.binary main_v28 main_v34 main_v35 (mulf : (⟨S128x1024, .f32⟩ : BufTy).Contents (Elt F) → (⟨S128x1024, .f32⟩ : BufTy).Contents (Elt F) → (⟨S128x1024, .f32⟩ : BufTy).Contents (Elt F)),
    StableHlo.TRef.unary (.of main_v35 : StableHlo.TRef sig ⟨S128x1024, .f32⟩) (.of main_call2_v0 : StableHlo.TRef sig ⟨S128x1024, .f32⟩) Host.negf,
    StableHlo.TRef.nullary (.of main_call2_call0_cst : StableHlo.TRef sig ⟨S_, .f32⟩) (constant S_ .f32 0x00000000#32),
    StableHlo.TRef.unary (.of main_call2_call0_cst : StableHlo.TRef sig ⟨S_, .f32⟩) (.of main_call2_call0_v0 : StableHlo.TRef sig ⟨S128x1024, .f32⟩) (broadcastInDim S128x1024 ![] bcast_S_S128x1024),
    StableHlo.TRef.binary (.of main_call2_v0 : StableHlo.TRef sig ⟨S128x1024, .f32⟩) (.of main_call2_call0_v0 : StableHlo.TRef sig ⟨S128x1024, .f32⟩) (.of main_call2_call0_v1 : StableHlo.TRef sig ⟨S128x1024, .f32⟩) maximumf,
    StableHlo.TRef.unary (.of main_call2_call0_cst : StableHlo.TRef sig ⟨S_, .f32⟩) (.of main_call2_call0_v2 : StableHlo.TRef sig ⟨S128x1024, .f32⟩) (broadcastInDim S128x1024 ![] bcast_S_S128x1024),
    StableHlo.TRef.binary (.of main_call2_v0 : StableHlo.TRef sig ⟨S128x1024, .f32⟩) (.of main_call2_call0_v2 : StableHlo.TRef sig ⟨S128x1024, .f32⟩) (.of main_call2_call0_v3 : StableHlo.TRef sig ⟨S128x1024, .f32⟩) subf,
    StableHlo.TRef.binary (.of main_call2_call0_v3 : StableHlo.TRef sig ⟨S128x1024, .f32⟩) (.of main_call2_call0_v3 : StableHlo.TRef sig ⟨S128x1024, .f32⟩) (.of main_call2_call0_v4 : StableHlo.TRef sig ⟨S128x1024, .i1⟩) (cmpf .une),
    StableHlo.TRef.unary (.of main_call2_call0_cst : StableHlo.TRef sig ⟨S_, .f32⟩) (.of main_call2_call0_v5 : StableHlo.TRef sig ⟨S128x1024, .f32⟩) (broadcastInDim S128x1024 ![] bcast_S_S128x1024),
    StableHlo.TRef.binary (.of main_call2_v0 : StableHlo.TRef sig ⟨S128x1024, .f32⟩) (.of main_call2_call0_v5 : StableHlo.TRef sig ⟨S128x1024, .f32⟩) (.of main_call2_call0_v6 : StableHlo.TRef sig ⟨S128x1024, .f32⟩) addf,
    StableHlo.TRef.unary (.of main_call2_call0_v3 : StableHlo.TRef sig ⟨S128x1024, .f32⟩) (.of main_call2_call0_v7 : StableHlo.TRef sig ⟨S128x1024, .f32⟩) Host.absf,
    StableHlo.TRef.unary (.of main_call2_call0_v7 : StableHlo.TRef sig ⟨S128x1024, .f32⟩) (.of main_call2_call0_v8 : StableHlo.TRef sig ⟨S128x1024, .f32⟩) Host.negf,
    StableHlo.TRef.unary (.of main_call2_call0_v8 : StableHlo.TRef sig ⟨S128x1024, .f32⟩) (.of main_call2_call0_v9 : StableHlo.TRef sig ⟨S128x1024, .f32⟩) Host.exp,
    StableHlo.TRef.unary (.of main_call2_call0_v9 : StableHlo.TRef sig ⟨S128x1024, .f32⟩) (.of main_call2_call0_v10 : StableHlo.TRef sig ⟨S128x1024, .f32⟩) Host.log1p,
    StableHlo.TRef.binary (.of main_call2_call0_v1 : StableHlo.TRef sig ⟨S128x1024, .f32⟩) (.of main_call2_call0_v10 : StableHlo.TRef sig ⟨S128x1024, .f32⟩) (.of main_call2_call0_v11 : StableHlo.TRef sig ⟨S128x1024, .f32⟩) addf,
    StableHlo.TRef.ternary (.of main_call2_call0_v4 : StableHlo.TRef sig ⟨S128x1024, .i1⟩) (.of main_call2_call0_v6 : StableHlo.TRef sig ⟨S128x1024, .f32⟩) (.of main_call2_call0_v11 : StableHlo.TRef sig ⟨S128x1024, .f32⟩) (.of main_call2_v1 : StableHlo.TRef sig ⟨S128x1024, .f32⟩) select,
    StableHlo.TRef.unary main_call2_call0.v12 (.of main_v36 : StableHlo.TRef sig ⟨S128x1024, .f32⟩) Host.negf,
    StableHlo.nullary main_cst_5 (constant S_ .f32 0x00000000#32),
    StableHlo.binary main_v36 main_cst_5 main_v37 ((fun x v => Host.reduceAdd x v reducesTo_S128x1024_S_d0_1 h_S_) : (⟨S128x1024, .f32⟩ : BufTy).Contents (Elt F) → (⟨S_, .f32⟩ : BufTy).Contents (Elt F) → (⟨S_, .f32⟩ : BufTy).Contents (Elt F)),
    StableHlo.unary main_v37 main_v38 (Host.negf : (⟨S_, .f32⟩ : BufTy).Contents (Elt F) → (⟨S_, .f32⟩ : BufTy).Contents (Elt F)),
    StableHlo.nullary main_cst_6 (constant S_ .f32 0x44800000#32),
    StableHlo.binary main_v38 main_cst_6 main_v39 (Host.divf : (⟨S_, .f32⟩ : BufTy).Contents (Elt F) → (⟨S_, .f32⟩ : BufTy).Contents (Elt F) → (⟨S_, .f32⟩ : BufTy).Contents (Elt F)),
    StableHlo.nullary main_cst_7 (constant S_ .f32 0x3F800000#32),
    StableHlo.binary main_v39 main_cst_7 main_v40 (mulf : (⟨S_, .f32⟩ : BufTy).Contents (Elt F) → (⟨S_, .f32⟩ : BufTy).Contents (Elt F) → (⟨S_, .f32⟩ : BufTy).Contents (Elt F)) ]

/-- %41 … %84: the cross-attention similarity (the selection @_where_2 inlined). -/
abbrev opsMid : List (HloOp τ sig (Elt F)) :=
  [ StableHlo.binary main_arg6 main_arg4 main_v41 ((fun l r => Host.dotGeneral dot_S128x577x768_S1024x768_S128x577x1024_2_1_01_0_n_n none l r) : (⟨S128x577x768, .f32⟩ : BufTy).Contents (Elt F) → (⟨S1024x768, .f32⟩ : BufTy).Contents (Elt F) → (⟨S128x577x1024, .f32⟩ : BufTy).Contents (Elt F)),
    StableHlo.nullary main_cst_8 (constant S_ .f32 0x00000000#32),
    StableHlo.unary main_cst_8 main_v42 (broadcastInDim S128x577x1024 ![] bcast_S_S128x577x1024 : (⟨S_, .f32⟩ : BufTy).Contents (Elt F) → (⟨S128x577x1024, .f32⟩ : BufTy).Contents (Elt F)),
    StableHlo.binary main_v41 main_v42 main_v43 (cmpf .oge : (⟨S128x577x1024, .f32⟩ : BufTy).Contents (Elt F) → (⟨S128x577x1024, .f32⟩ : BufTy).Contents (Elt F) → (⟨S128x577x1024, .i1⟩ : BufTy).Contents (Elt F)),
    StableHlo.nullary main_cst_9 (constant S_ .f32 0x3DCCCCCD#32),
    StableHlo.unary main_cst_9 main_v44 (broadcastInDim S128x577x1024 ![] bcast_S_S128x577x1024 : (⟨S_, .f32⟩ : BufTy).Contents (Elt F) → (⟨S128x577x1024, .f32⟩ : BufTy).Contents (Elt F)),
    StableHlo.binary main_v44 main_v41 main_v45 (mulf : (⟨S128x577x1024, .f32⟩ : BufTy).Contents (Elt F) → (⟨S128x577x1024, .f32⟩ : BufTy).Contents (Elt F) → (⟨S128x577x1024, .f32⟩ : BufTy).Contents (Elt F)),
    StableHlo.TRef.ternary (.of main_v43 : StableHlo.TRef sig ⟨S128x577x1024, .i1⟩) (.of main_v41 : StableHlo.TRef sig ⟨S128x577x1024, .f32⟩) (.of main_v45 : StableHlo.TRef sig ⟨S128x577x1024, .f32⟩) (.of main_v46 : StableHlo.TRef sig ⟨S128x577x1024, .f32⟩) select,
    StableHlo.binary main_v46 main_v46 main_v47 (mulf : (⟨S128x577x1024, .f32⟩ : BufTy).Contents (Elt F) → (⟨S128x577x1024, .f32⟩ : BufTy).Contents (Elt F) → (⟨S128x577x1024, .f32⟩ : BufTy).Contents (Elt F)),
    StableHlo.nullary main_cst_10 (constant S_ .f32 0x00000000#32),
    StableHlo.binary main_v47 main_cst_10 main_v48 ((fun x v => Host.reduceAdd x v reducesTo_S128x577x1024_S128x577_d2 h_S_) : (⟨S128x577x1024, .f32⟩ : BufTy).Contents (Elt F) → (⟨S_, .f32⟩ : BufTy).Contents (Elt F) → (⟨S128x577, .f32⟩ : BufTy).Contents (Elt F)),
    StableHlo.unary main_v48 main_v49 (broadcastInDim S128x577x1 ![0, 1] bcast_S128x577_S128x577x1_0_1 : (⟨S128x577, .f32⟩ : BufTy).Contents (Elt F) → (⟨S128x577x1, .f32⟩ : BufTy).Contents (Elt F)),
    StableHlo.unary main_v49 main_v50 (Host.sqrt : (⟨S128x577x1, .f32⟩ : BufTy).Contents (Elt F) → (⟨S128x577x1, .f32⟩ : BufTy).Contents (Elt F)),
    StableHlo.nullary main_cst_11 (constant S_ .f32 0x322BCC77#32),
    StableHlo.unary main_cst_11 main_v51 (broadcastInDim S128x577x1 ![] bcast_S_S128x577x1 : (⟨S_, .f32⟩ : BufTy).Contents (Elt F) → (⟨S128x577x1, .f32⟩ : BufTy).Contents (Elt F)),
    StableHlo.binary main_v50 main_v51 main_v52 (maximumf : (⟨S128x577x1, .f32⟩ : BufTy).Contents (Elt F) → (⟨S128x577x1, .f32⟩ : BufTy).Contents (Elt F) → (⟨S128x577x1, .f32⟩ : BufTy).Contents (Elt F)),
    StableHlo.unary main_v52 main_v53 (broadcastInDim S128x577x1024 ![0, 1, 2] bcast_S128x577x1_S128x577x1024_0_1_2 : (⟨S128x577x1, .f32⟩ : BufTy).Contents (Elt F) → (⟨S128x577x1024, .f32⟩ : BufTy).Contents (Elt F)),
    StableHlo.binary main_v46 main_v53 main_v54 (Host.divf : (⟨S128x577x1024, .f32⟩ : BufTy).Contents (Elt F) → (⟨S128x577x1024, .f32⟩ : BufTy).Contents (Elt F) → (⟨S128x577x1024, .f32⟩ : BufTy).Contents (Elt F)),
    StableHlo.unary main_v54 main_v55 ((transpose S128x1024x577 [0, 2, 1] · transposes_S128x577x1024_S128x1024x577_0_2_1) : (⟨S128x577x1024, .f32⟩ : BufTy).Contents (Elt F) → (⟨S128x1024x577, .f32⟩ : BufTy).Contents (Elt F)),
    StableHlo.nullary main_cst_12 (constant S_ .f32 0x40800000#32),
    StableHlo.unary main_cst_12 main_v56 (broadcastInDim S128x1024x577 ![] bcast_S_S128x1024x577 : (⟨S_, .f32⟩ : BufTy).Contents (Elt F) → (⟨S128x1024x577, .f32⟩ : BufTy).Contents (Elt F)),
    StableHlo.binary main_v55 main_v56 main_v57 (mulf : (⟨S128x1024x577, .f32⟩ : BufTy).Contents (Elt F) → (⟨S128x1024x577, .f32⟩ : BufTy).Contents (Elt F) → (⟨S128x1024x577, .f32⟩ : BufTy).Contents (Elt F)),
    StableHlo.nullary main_cst_13 (constant S_ .f32 0xFF800000#32),
    StableHlo.binary main_v57 main_cst_13 main_v58 ((fun x v => Host.reduce FloatOps.maximumf x v reducesTo_S128x1024x577_S128x1024_d2 h_S_) : (⟨S128x1024x577, .f32⟩ : BufTy).Contents (Elt F) → (⟨S_, .f32⟩ : BufTy).Contents (Elt F) → (⟨S128x1024, .f32⟩ : BufTy).Contents (Elt F)),
    StableHlo.nullary main_cst_14 (constant S_ .f32 0xFF800000#32),
    StableHlo.unary main_cst_14 main_v59 (broadcastInDim S128x1024 ![] bcast_S_S128x1024 : (⟨S_, .f32⟩ : BufTy).Contents (Elt F) → (⟨S128x1024, .f32⟩ : BufTy).Contents (Elt F)),
    StableHlo.binary main_v59 main_v58 main_v60 (maximumf : (⟨S128x1024, .f32⟩ : BufTy).Contents (Elt F) → (⟨S128x1024, .f32⟩ : BufTy).Contents (Elt F) → (⟨S128x1024, .f32⟩ : BufTy).Contents (Elt F)),
    StableHlo.unary main_v60 main_v61 (broadcastInDim S128x1024x1 ![0, 1] bcast_S128x1024_S128x1024x1_0_1 : (⟨S128x1024, .f32⟩ : BufTy).Contents (Elt F) → (⟨S128x1024x1, .f32⟩ : BufTy).Contents (Elt F)),
    StableHlo.unary main_v61 main_v62 (broadcastInDim S128x1024x577 ![0, 1, 2] bcast_S128x1024x1_S128x1024x577_0_1_2 : (⟨S128x1024x1, .f32⟩ : BufTy).Contents (Elt F) → (⟨S128x1024x577, .f32⟩ : BufTy).Contents (Elt F)),
    StableHlo.binary main_v57 main_v62 main_v63 (subf : (⟨S128x1024x577, .f32⟩ : BufTy).Contents (Elt F) → (⟨S128x1024x577, .f32⟩ : BufTy).Contents (Elt F) → (⟨S128x1024x577, .f32⟩ : BufTy).Contents (Elt F)),
    StableHlo.unary main_v63 main_v64 (Host.exp : (⟨S128x1024x577, .f32⟩ : BufTy).Contents (Elt F) → (⟨S128x1024x577, .f32⟩ : BufTy).Contents (Elt F)),
    StableHlo.nullary main_cst_15 (constant S_ .f32 0x00000000#32),
    StableHlo.binary main_v64 main_cst_15 main_v65 ((fun x v => Host.reduceAdd x v reducesTo_S128x1024x577_S128x1024_d2 h_S_) : (⟨S128x1024x577, .f32⟩ : BufTy).Contents (Elt F) → (⟨S_, .f32⟩ : BufTy).Contents (Elt F) → (⟨S128x1024, .f32⟩ : BufTy).Contents (Elt F)),
    StableHlo.unary main_v65 main_v66 (broadcastInDim S128x1024x1 ![0, 1] bcast_S128x1024_S128x1024x1_0_1 : (⟨S128x1024, .f32⟩ : BufTy).Contents (Elt F) → (⟨S128x1024x1, .f32⟩ : BufTy).Contents (Elt F)),
    StableHlo.unary main_v66 main_v67 (broadcastInDim S128x1024x577 ![0, 1, 2] bcast_S128x1024x1_S128x1024x577_0_1_2 : (⟨S128x1024x1, .f32⟩ : BufTy).Contents (Elt F) → (⟨S128x1024x577, .f32⟩ : BufTy).Contents (Elt F)),
    StableHlo.binary main_v64 main_v67 main_v68 (Host.divf : (⟨S128x1024x577, .f32⟩ : BufTy).Contents (Elt F) → (⟨S128x1024x577, .f32⟩ : BufTy).Contents (Elt F) → (⟨S128x1024x577, .f32⟩ : BufTy).Contents (Elt F)),
    StableHlo.binary main_v68 main_arg6 main_v69 ((fun l r => Host.dotGeneral dot_S128x1024x577_S128x577x768_S128x1024x768_2_1_1_2_0_0 none l r) : (⟨S128x1024x577, .f32⟩ : BufTy).Contents (Elt F) → (⟨S128x577x768, .f32⟩ : BufTy).Contents (Elt F) → (⟨S128x1024x768, .f32⟩ : BufTy).Contents (Elt F)),
    StableHlo.unary main_arg4 main_v70 (broadcastInDim S1x1024x768 ![1, 2] bcast_S1024x768_S1x1024x768_1_2 : (⟨S1024x768, .f32⟩ : BufTy).Contents (Elt F) → (⟨S1x1024x768, .f32⟩ : BufTy).Contents (Elt F)),
    StableHlo.unary main_v70 main_v71 (broadcastInDim S128x1024x768 ![0, 1, 2] bcast_S1x1024x768_S128x1024x768_0_1_2 : (⟨S1x1024x768, .f32⟩ : BufTy).Contents (Elt F) → (⟨S128x1024x768, .f32⟩ : BufTy).Contents (Elt F)),
    StableHlo.binary main_v71 main_v69 main_v72 (mulf : (⟨S128x1024x768, .f32⟩ : BufTy).Contents (Elt F) → (⟨S128x1024x768, .f32⟩ : BufTy).Contents (Elt F) → (⟨S128x1024x768, .f32⟩ : BufTy).Contents (Elt F)),
    StableHlo.nullary main_cst_16 (constant S_ .f32 0x00000000#32),
    StableHlo.binary main_v72 main_cst_16 main_v73 ((fun x v => Host.reduceAdd x v reducesTo_S128x1024x768_S128x1024_d2 h_S_) : (⟨S128x1024x768, .f32⟩ : BufTy).Contents (Elt F) → (⟨S_, .f32⟩ : BufTy).Contents (Elt F) → (⟨S128x1024, .f32⟩ : BufTy).Contents (Elt F)),
    StableHlo.binary main_v70 main_v70 main_v74 (mulf : (⟨S1x1024x768, .f32⟩ : BufTy).Contents (Elt F) → (⟨S1x1024x768, .f32⟩ : BufTy).Contents (Elt F) → (⟨S1x1024x768, .f32⟩ : BufTy).Contents (Elt F)),
    StableHlo.nullary main_cst_17 (constant S_ .f32 0x00000000#32),
    StableHlo.binary main_v74 main_cst_17 main_v75 ((fun x v => Host.reduceAdd x v reducesTo_S1x1024x768_S1x1024_d2 h_S_) : (⟨S1x1024x768, .f32⟩ : BufTy).Contents (Elt F) → (⟨S_, .f32⟩ : BufTy).Contents (Elt F) → (⟨S1x1024, .f32⟩ : BufTy).Contents (Elt F)),
    StableHlo.unary main_v75 main_v76 (Host.sqrt : (⟨S1x1024, .f32⟩ : BufTy).Contents (Elt F) → (⟨S1x1024, .f32⟩ : BufTy).Contents (Elt F)),
    StableHlo.binary main_v69 main_v69 main_v77 (mulf : (⟨S128x1024x768, .f32⟩ : BufTy).Contents (Elt F) → (⟨S128x1024x768, .f32⟩ : BufTy).Contents (Elt F) → (⟨S128x1024x768, .f32⟩ : BufTy).Contents (Elt F)),
    StableHlo.nullary main_cst_18 (constant S_ .f32 0x00000000#32),
    StableHlo.binary main_v77 main_cst_18 main_v78 ((fun x v => Host.reduceAdd x v reducesTo_S128x1024x768_S128x1024_d2 h_S_) : (⟨S128x1024x768, .f32⟩ : BufTy).Contents (Elt F) → (⟨S_, .f32⟩ : BufTy).Contents (Elt F) → (⟨S128x1024, .f32⟩ : BufTy).Contents (Elt F)),
    StableHlo.unary main_v78 main_v79 (Host.sqrt : (⟨S128x1024, .f32⟩ : BufTy).Contents (Elt F) → (⟨S128x1024, .f32⟩ : BufTy).Contents (Elt F)),
    StableHlo.unary main_v76 main_v80 (broadcastInDim S128x1024 ![0, 1] bcast_S1x1024_S128x1024_0_1 : (⟨S1x1024, .f32⟩ : BufTy).Contents (Elt F) → (⟨S128x1024, .f32⟩ : BufTy).Contents (Elt F)),
    StableHlo.binary main_v80 main_v79 main_v81 (mulf : (⟨S128x1024, .f32⟩ : BufTy).Contents (Elt F) → (⟨S128x1024, .f32⟩ : BufTy).Contents (Elt F) → (⟨S128x1024, .f32⟩ : BufTy).Contents (Elt F)),
    StableHlo.nullary main_cst_19 (constant S_ .f32 0x322BCC77#32),
    StableHlo.unary main_cst_19 main_v82 (broadcastInDim S128x1024 ![] bcast_S_S128x1024 : (⟨S_, .f32⟩ : BufTy).Contents (Elt F) → (⟨S128x1024, .f32⟩ : BufTy).Contents (Elt F)),
    StableHlo.binary main_v81 main_v82 main_v83 (maximumf : (⟨S128x1024, .f32⟩ : BufTy).Contents (Elt F) → (⟨S128x1024, .f32⟩ : BufTy).Contents (Elt F) → (⟨S128x1024, .f32⟩ : BufTy).Contents (Elt F)),
    StableHlo.binary main_v73 main_v83 main_v84 (Host.divf : (⟨S128x1024, .f32⟩ : BufTy).Contents (Elt F) → (⟨S128x1024, .f32⟩ : BufTy).Contents (Elt F) → (⟨S128x1024, .f32⟩ : BufTy).Contents (Elt F)) ]

/-- %85 … %96: the third loss term (the call of @log_sigmoid_0 inlined) and the final sum. -/
abbrev opsTail : List (HloOp τ sig (Elt F)) :=
  [ StableHlo.unary main_arg2 main_v85 (broadcastInDim S128x1024 ![] bcast_S_S128x1024 : (⟨S_, .f32⟩ : BufTy).Contents (Elt F) → (⟨S128x1024, .f32⟩ : BufTy).Contents (Elt F)),
    StableHlo.binary main_v84 main_v85 main_v86 (mulf : (⟨S128x1024, .f32⟩ : BufTy).Contents (Elt F) → (⟨S128x1024, .f32⟩ : BufTy).Contents (Elt F) → (⟨S128x1024, .f32⟩ : BufTy).Contents (Elt F)),
    StableHlo.unary main_arg3 main_v87 (broadcastInDim S128x1024 ![] bcast_S_S128x1024 : (⟨S_, .f32⟩ : BufTy).Contents (Elt F) → (⟨S128x1024, .f32⟩ : BufTy).Contents (Elt F)),
    StableHlo.binary main_v86 main_v87 main_v88 (addf : (⟨S128x1024, .f32⟩ : BufTy).Contents (Elt F) → (⟨S128x1024, .f32⟩ : BufTy).Contents (Elt F) → (⟨S128x1024, .f32⟩ : BufTy).Contents (Elt F)),
    StableHlo.binary main_v28 main_v88 main_v89 (mulf : (⟨S128x1024, .f32⟩ : BufTy).Contents (Elt F) → (⟨S128x1024, .f32⟩ : BufTy).Contents (Elt F) → (⟨S128x1024, .f32⟩ : BufTy).Contents (Elt F)),
    StableHlo.TRef.unary (.of main_v89 : StableHlo.TRef sig ⟨S128x1024, .f32⟩) (.of main_call4_v0 : StableHlo.TRef sig ⟨S128x1024, .f32⟩) Host.negf,
    StableHlo.TRef.nullary (.of main_call4_call0_cst : StableHlo.TRef sig ⟨S_, .f32⟩) (constant S_ .f32 0x00000000#32),
    StableHlo.TRef.unary (.of main_call4_call0_cst : StableHlo.TRef sig ⟨S_, .f32⟩) (.of main_call4_call0_v0 : StableHlo.TRef sig ⟨S128x1024, .f32⟩) (broadcastInDim S128x1024 ![] bcast_S_S128x1024),
    StableHlo.TRef.binary (.of main_call4_v0 : StableHlo.TRef sig ⟨S128x1024, .f32⟩) (.of main_call4_call0_v0 : StableHlo.TRef sig ⟨S128x1024, .f32⟩) (.of main_call4_call0_v1 : StableHlo.TRef sig ⟨S128x1024, .f32⟩) maximumf,
    StableHlo.TRef.unary (.of main_call4_call0_cst : StableHlo.TRef sig ⟨S_, .f32⟩) (.of main_call4_call0_v2 : StableHlo.TRef sig ⟨S128x1024, .f32⟩) (broadcastInDim S128x1024 ![] bcast_S_S128x1024),
    StableHlo.TRef.binary (.of main_call4_v0 : StableHlo.TRef sig ⟨S128x1024, .f32⟩) (.of main_call4_call0_v2 : StableHlo.TRef sig ⟨S128x1024, .f32⟩) (.of main_call4_call0_v3 : StableHlo.TRef sig ⟨S128x1024, .f32⟩) subf,
    StableHlo.TRef.binary (.of main_call4_call0_v3 : StableHlo.TRef sig ⟨S128x1024, .f32⟩) (.of main_call4_call0_v3 : StableHlo.TRef sig ⟨S128x1024, .f32⟩) (.of main_call4_call0_v4 : StableHlo.TRef sig ⟨S128x1024, .i1⟩) (cmpf .une),
    StableHlo.TRef.unary (.of main_call4_call0_cst : StableHlo.TRef sig ⟨S_, .f32⟩) (.of main_call4_call0_v5 : StableHlo.TRef sig ⟨S128x1024, .f32⟩) (broadcastInDim S128x1024 ![] bcast_S_S128x1024),
    StableHlo.TRef.binary (.of main_call4_v0 : StableHlo.TRef sig ⟨S128x1024, .f32⟩) (.of main_call4_call0_v5 : StableHlo.TRef sig ⟨S128x1024, .f32⟩) (.of main_call4_call0_v6 : StableHlo.TRef sig ⟨S128x1024, .f32⟩) addf,
    StableHlo.TRef.unary (.of main_call4_call0_v3 : StableHlo.TRef sig ⟨S128x1024, .f32⟩) (.of main_call4_call0_v7 : StableHlo.TRef sig ⟨S128x1024, .f32⟩) Host.absf,
    StableHlo.TRef.unary (.of main_call4_call0_v7 : StableHlo.TRef sig ⟨S128x1024, .f32⟩) (.of main_call4_call0_v8 : StableHlo.TRef sig ⟨S128x1024, .f32⟩) Host.negf,
    StableHlo.TRef.unary (.of main_call4_call0_v8 : StableHlo.TRef sig ⟨S128x1024, .f32⟩) (.of main_call4_call0_v9 : StableHlo.TRef sig ⟨S128x1024, .f32⟩) Host.exp,
    StableHlo.TRef.unary (.of main_call4_call0_v9 : StableHlo.TRef sig ⟨S128x1024, .f32⟩) (.of main_call4_call0_v10 : StableHlo.TRef sig ⟨S128x1024, .f32⟩) Host.log1p,
    StableHlo.TRef.binary (.of main_call4_call0_v1 : StableHlo.TRef sig ⟨S128x1024, .f32⟩) (.of main_call4_call0_v10 : StableHlo.TRef sig ⟨S128x1024, .f32⟩) (.of main_call4_call0_v11 : StableHlo.TRef sig ⟨S128x1024, .f32⟩) addf,
    StableHlo.TRef.ternary (.of main_call4_call0_v4 : StableHlo.TRef sig ⟨S128x1024, .i1⟩) (.of main_call4_call0_v6 : StableHlo.TRef sig ⟨S128x1024, .f32⟩) (.of main_call4_call0_v11 : StableHlo.TRef sig ⟨S128x1024, .f32⟩) (.of main_call4_v1 : StableHlo.TRef sig ⟨S128x1024, .f32⟩) select,
    StableHlo.TRef.unary main_call4_call0.v12 (.of main_v90 : StableHlo.TRef sig ⟨S128x1024, .f32⟩) Host.negf,
    StableHlo.nullary main_cst_20 (constant S_ .f32 0x00000000#32),
    StableHlo.binary main_v90 main_cst_20 main_v91 ((fun x v => Host.reduceAdd x v reducesTo_S128x1024_S_d0_1 h_S_) : (⟨S128x1024, .f32⟩ : BufTy).Contents (Elt F) → (⟨S_, .f32⟩ : BufTy).Contents (Elt F) → (⟨S_, .f32⟩ : BufTy).Contents (Elt F)),
    StableHlo.unary main_v91 main_v92 (Host.negf : (⟨S_, .f32⟩ : BufTy).Contents (Elt F) → (⟨S_, .f32⟩ : BufTy).Contents (Elt F)),
    StableHlo.nullary main_cst_21 (constant S_ .f32 0x44800000#32),
    StableHlo.binary main_v92 main_cst_21 main_v93 (Host.divf : (⟨S_, .f32⟩ : BufTy).Contents (Elt F) → (⟨S_, .f32⟩ : BufTy).Contents (Elt F) → (⟨S_, .f32⟩ : BufTy).Contents (Elt F)),
    StableHlo.nullary main_cst_22 (constant S_ .f32 0x3C23D70A#32),
    StableHlo.binary main_v93 main_cst_22 main_v94 (mulf : (⟨S_, .f32⟩ : BufTy).Contents (Elt F) → (⟨S_, .f32⟩ : BufTy).Contents (Elt F) → (⟨S_, .f32⟩ : BufTy).Contents (Elt F)),
    StableHlo.binary main_v20 main_v40 main_v95 (addf : (⟨S_, .f32⟩ : BufTy).Contents (Elt F) → (⟨S_, .f32⟩ : BufTy).Contents (Elt F) → (⟨S_, .f32⟩ : BufTy).Contents (Elt F)),
    StableHlo.binary main_v95 main_v94 main_v96 (addf : (⟨S_, .f32⟩ : BufTy).Contents (Elt F) → (⟨S_, .f32⟩ : BufTy).Contents (Elt F) → (⟨S_, .f32⟩ : BufTy).Contents (Elt F)) ]

/-- The whole line. -/
abbrev ops : List (HloOp τ sig (Elt F)) := opsPre ++ opsMid ++ opsTail

/-! ## @main is the line -/

/-- @main is its stretches one after the other: each window of @main peels against them, a call's body against
    the stretch standing in its place. -/
theorem main_chain (c : Dev nD) : main (F := F) c = (Pipeline.chain
    (List.map seq [sP0, sC0, sP1, sC1, sP2, sC2, sP3, sM0, sC3, sM1, sM2, sT0, sC4, sT1, sT2]) : Prog (TpuEff nD τ sig (Elt F) (Pipeline.Sig Λ₀ (Fin 0) fun p => (pcfgs (F := F) p).Adm) .tc) PUnit) := by
  chain_rfl

/-- The stretches in order are the three parts in order. -/
theorem flatten_eq : [sP0, sC0, sP1, sC1, sP2, sC2, sP3, sM0, sC3, sM1, sM2, sT0, sC4, sT1, sT2].flatten = (ops : List (HloOp τ sig (Elt F))) := by
  chain_rfl

/-- @main is the straight line `ops`. -/
theorem main_eq (c : Dev nD) : main (F := F) c = seq ops :=
  (main_chain c).trans ((Pipeline.chain_map_seq [sP0, sC0, sP1, sC1, sP2, sC2, sP3, sM0, sC3, sM1, sM2, sT0, sC4, sT1, sT2]).trans (congrArg seq flatten_eq))

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

theorem opsPre_sub : (opsPre : List (HloOp τ sig (Elt F))).Forall fun op => op.bufs ⊆ tcRefs τ sig :=
  ⟨unary_bufs_sub .., binary_bufs_sub .., unary_bufs_sub .., binary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., binary_bufs_sub .., unary_bufs_sub .., nullary_bufs_sub .., binary_bufs_sub .., unary_bufs_sub .., nullary_bufs_sub .., unary_bufs_sub .., unary_bufs_sub .., unary_bufs_sub .., binary_bufs_sub .., nullary_bufs_sub .., nullary_bufs_sub .., unary_bufs_sub .., unary_bufs_sub .., ternary_bufs_sub .., unary_bufs_sub .., unary_bufs_sub .., binary_bufs_sub .., unary_bufs_sub .., binary_bufs_sub .., unary_bufs_sub .., binary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., binary_bufs_sub .., unary_bufs_sub .., nullary_bufs_sub .., binary_bufs_sub .., nullary_bufs_sub .., binary_bufs_sub ..⟩
theorem opsPre_fresh : (opsPre : List (HloOp τ sig (Elt F))).Forall fun op => op.fresh = ∅ := by
  simp only [List.Forall]; repeat' constructor

theorem opsMid_sub : (opsMid : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., unary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., unary_bufs_sub .., binary_bufs_sub .., nullary_bufs_sub .., unary_bufs_sub .., binary_bufs_sub .., binary_bufs_sub ..⟩
theorem opsMid_fresh : (opsMid : List (HloOp τ sig (Elt F))).Forall fun op => op.fresh = ∅ := by
  simp only [List.Forall]; repeat' constructor

theorem opsTail_sub : (opsTail : List (HloOp τ sig (Elt F))).Forall fun op => op.bufs ⊆ tcRefs τ sig :=
  ⟨unary_bufs_sub .., binary_bufs_sub .., unary_bufs_sub .., binary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., binary_bufs_sub .., unary_bufs_sub .., nullary_bufs_sub .., binary_bufs_sub .., nullary_bufs_sub .., binary_bufs_sub .., binary_bufs_sub .., binary_bufs_sub ..⟩
theorem opsTail_fresh : (opsTail : List (HloOp τ sig (Elt F))).Forall fun op => op.fresh = ∅ := by
  simp only [List.Forall]; repeat' constructor

/-- Every operation of the line touches TensorCore references only. -/
theorem ops_sub : (ops : List (HloOp τ sig (Elt F))).Forall fun op => op.bufs ⊆ tcRefs τ sig :=
  List.forall_append.2 ⟨List.forall_append.2 ⟨opsPre_sub, opsMid_sub⟩, opsTail_sub⟩
/-- Every operation of the line determines its results. -/
theorem ops_fresh : (ops : List (HloOp τ sig (Elt F))).Forall fun op => op.fresh = ∅ :=
  List.forall_append.2 ⟨List.forall_append.2 ⟨opsPre_fresh, opsMid_fresh⟩, opsTail_fresh⟩

/-! ## What the line writes

Each operation writes one buffer, a value of @main or of a callee's body: never an argument. -/

/-- The references the line writes: every tensor value other than the seven arguments. -/
abbrev written : List (Ref sig .tc) :=
  [ main_v0, main_v1, main_v2, main_v3, main_v4, main_v5, main_v6, main_v7, main_c, main_v8, main_v9, main_v10, main_v11, main_cst, main_v12, main_v13, main_cst_0, main_v14, main_v15, main_v16, main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1, main_v17, main_cst_1, main_v18, main_v19, main_cst_2, main_v20, main_v21, main_v22, main_v23, main_v24, main_v25, main_v26, main_cst_3, main_cst_4, main_call1_v0, main_call1_v1, main_v27, main_v28, main_v29, main_v30, main_v31, main_v32, main_v33, main_v34, main_v35, main_call2_v0, main_call2_call0_cst, main_call2_call0_v0, main_call2_call0_v1, main_call2_call0_v2, main_call2_call0_v3, main_call2_call0_v4, main_call2_call0_v5, main_call2_call0_v6, main_call2_call0_v7, main_call2_call0_v8, main_call2_call0_v9, main_call2_call0_v10, main_call2_call0_v11, main_call2_v1, main_v36, main_cst_5, main_v37, main_v38, main_cst_6, main_v39, main_cst_7, main_v40, main_v41, main_cst_8, main_v42, main_v43, main_cst_9, main_v44, main_v45, main_v46, main_v47, main_cst_10, main_v48, main_v49, main_v50, main_cst_11, main_v51, main_v52, main_v53, main_v54, main_v55, main_cst_12, main_v56, main_v57, main_cst_13, main_v58, main_cst_14, main_v59, main_v60, main_v61, main_v62, main_v63, main_v64, main_cst_15, main_v65, main_v66, main_v67, main_v68, main_v69, main_v70, main_v71, main_v72, main_cst_16, main_v73, main_v74, main_cst_17, main_v75, main_v76, main_v77, main_cst_18, main_v78, main_v79, main_v80, main_v81, main_cst_19, main_v82, main_v83, main_v84, main_v85, main_v86, main_v87, main_v88, main_v89, main_call4_v0, main_call4_call0_cst, main_call4_call0_v0, main_call4_call0_v1, main_call4_call0_v2, main_call4_call0_v3, main_call4_call0_v4, main_call4_call0_v5, main_call4_call0_v6, main_call4_call0_v7, main_call4_call0_v8, main_call4_call0_v9, main_call4_call0_v10, main_call4_call0_v11, main_call4_v1, main_v90, main_cst_20, main_v91, main_v92, main_cst_21, main_v93, main_cst_22, main_v94, main_v95, main_v96 ]

theorem opsPre_writes : (opsPre : List (HloOp τ sig (Elt F))).Forall fun op => op.writes ⊆ (written.map (Proc.devRef (τ := τ) .tc)).toFinset :=
  ⟨Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide)⟩
theorem opsMid_writes : (opsMid : List (HloOp τ sig (Elt F))).Forall fun op => op.writes ⊆ (written.map (Proc.devRef (τ := τ) .tc)).toFinset :=
  ⟨Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide)⟩
theorem opsTail_writes : (opsTail : List (HloOp τ sig (Elt F))).Forall fun op => op.writes ⊆ (written.map (Proc.devRef (τ := τ) .tc)).toFinset :=
  ⟨Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide)⟩
theorem ops_writes : (ops : List (HloOp τ sig (Elt F))).Forall fun op => op.writes ⊆ (written.map (Proc.devRef (τ := τ) .tc)).toFinset :=
  List.forall_append.2 ⟨List.forall_append.2 ⟨opsPre_writes, opsMid_writes⟩, opsTail_writes⟩

/-- A reference the line does not write keeps its contents. -/
theorem after_keep (V : Valuation τ sig (Elt F)) {r : Ref sig .tc} (hr : r ∉ written) :
    after ops V (Proc.devRef .tc r) = V (Proc.devRef .tc r) :=
  after_of_writes_sub ops V ops_writes hr

/-! ## The run -/

/-- On every device, for any float values, from any memory with zero counters: every weakly fair execution of
    @main terminates with the result buffer at the fold of the line over the launch contents and the seven
    arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v96) = after ops (fun b => m (c, b)) (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨h c main_v96,
      (h c main_arg0).trans (after_keep _ (by decide)),
      (h c main_arg1).trans (after_keep _ (by decide)),
      (h c main_arg2).trans (after_keep _ (by decide)),
      (h c main_arg3).trans (after_keep _ (by decide)),
      (h c main_arg4).trans (after_keep _ (by decide)),
      (h c main_arg5).trans (after_keep _ (by decide)),
      (h c main_arg6).trans (after_keep _ (by decide))⟩)
    (run_seq scopedRefs_eq scopedSems_eq defs main (fun _ => ops) main_eq (fun _ => ops_sub) m ρ
      (fun _ op h => (List.forall_iff_forall_mem.mp ops_fresh) op h))

end Cert.ReferenceIdeal.RefRun

end
-- ==== Proof.RefRead.lean ====
/-
  What the reference's similarity buffer holds after the middle part of its line.

  The middle part of the reference's line computes, from the phrase rows and the image tokens, the cross-attention
  similarity: the logits, the leaky rectifier (a selection written through typed references, whose transports are the
  identity), the row normalisation, the softmax over the tokens, the weighted context and the cosine.  Reading the
  fold of the operations at the similarity buffer gives exactly the composition of the stage functions.
-/
import proofs.«134603_j83648783057700_1_alg».proof.Proof.RefRun
import proofs.«134603_j83648783057700_1_alg».proof.Proof.RefTerms

set_option maxRecDepth 8192

noncomputable section

namespace Cert.ReferenceIdeal.RefRead

open Cert.ReferenceIdeal Cert.ReferenceIdeal.RefRun Idealize.ShloMosaic Idealize.ShloMosaic.TcCoe Idealize.SL.Sem Idealize.ShloMosaic.StableHlo
open Cert.ReferenceIdeal.Facts₀ Cert.ReferenceIdeal.Facts

set_option maxHeartbeats 4000000 in
/-- After the middle part of the line, from any contents, the similarity buffer holds the reference's similarity
    of the phrase rows and the image tokens held at the start. -/
theorem mid_v84 (W : Valuation τ sig (Elt Ideal)) :
    after (opsMid (F := Ideal)) W (Proc.devRef .tc main_v84)
      = Terms.simR (W (Proc.devRef .tc main_arg4)) (W (Proc.devRef .tc main_arg6)) := by
  after_results_simp
  rfl

end Cert.ReferenceIdeal.RefRead

end
-- ==== Proof.RefLoss.lean ====
/-
  What the reference's result buffer holds, as the loss of its parts.

  The reference's line runs in three parts.  The first computes the image-text contrastive term, the phrase labels
  and the phrase term from the arguments; the second computes the cross-attention similarity and writes none of
  those; the third forms the cross-attention term from the similarity, the labels and the two scalars, and adds
  the three terms.  Reading the folds part by part gives the result as the total of the three terms.
-/
import proofs.«134603_j83648783057700_1_alg».proof.Proof.RefRead
import proofs.«134603_j83648783057700_1_alg».proof.Proof.KTerms

set_option maxRecDepth 8192

noncomputable section

namespace Cert.ReferenceIdeal.RefLoss

open Cert.ReferenceIdeal Cert.ReferenceIdeal.RefRun Cert.ReferenceIdeal.RefRead Idealize.ShloMosaic Idealize.ShloMosaic.TcCoe
  Idealize.SL.Sem Idealize.ShloMosaic.StableHlo
open Cert.KernelIdeal.HostTerms

/-! ## What the parts leave alone -/

/-- The first part writes no argument. -/
theorem pre_keep (V : Valuation τ sig (Elt Ideal)) {r : Ref sig .tc} (hr : r ∉ written) :
    after (opsPre (F := Ideal)) V (Proc.devRef .tc r) = V (Proc.devRef .tc r) :=
  after_of_writes_sub opsPre V opsPre_writes hr

/-- The references the middle part writes: the values %41 … %84 and the constants among them. -/
abbrev midWritten : List (Ref sig .tc) :=
  [ main_v41, main_cst_8, main_v42, main_v43, main_cst_9, main_v44, main_v45, main_v46, main_v47, main_cst_10, main_v48, main_v49, main_v50, main_cst_11, main_v51, main_v52, main_v53, main_v54, main_v55, main_cst_12, main_v56, main_v57, main_cst_13, main_v58, main_cst_14, main_v59, main_v60, main_v61, main_v62, main_v63, main_v64, main_cst_15, main_v65, main_v66, main_v67, main_v68, main_v69, main_v70, main_v71, main_v72, main_cst_16, main_v73, main_v74, main_cst_17, main_v75, main_v76, main_v77, main_cst_18, main_v78, main_v79, main_v80, main_v81, main_cst_19, main_v82, main_v83, main_v84 ]

theorem opsMid_writesMid : (opsMid (F := Ideal)).Forall fun op => op.writes ⊆ (midWritten.map (Proc.devRef (τ := τ) .tc)).toFinset :=
  ⟨Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide), Pipeline.singleton_sub_of_mem (by decide)⟩

/-- The middle part keeps every buffer that is not one of its own values. -/
theorem mid_keep (W : Valuation τ sig (Elt Ideal)) {r : Ref sig .tc} (hr : r ∉ midWritten) :
    after (opsMid (F := Ideal)) W (Proc.devRef .tc r) = W (Proc.devRef .tc r) :=
  after_of_writes_sub opsMid W opsMid_writesMid hr

/-! ## The first part: the two scalar terms and the labels -/

set_option maxHeartbeats 4000000 in
/-- The image-text contrastive term. -/
theorem pre_v20 (V : Valuation τ sig (Elt Ideal)) :
    after (opsPre (F := Ideal)) V (Proc.devRef .tc main_v20)
      = contrastive (V (Proc.devRef .tc main_arg0)) (V (Proc.devRef .tc main_arg1)) (V (Proc.devRef .tc main_arg2))
          (V (Proc.devRef .tc main_arg3)) := by
  after_results_simp
  rfl

set_option maxHeartbeats 4000000 in
/-- The phrase labels. -/
theorem pre_v28 (V : Valuation τ sig (Elt Ideal)) :
    after (opsPre (F := Ideal)) V (Proc.devRef .tc main_v28) = labels (V (Proc.devRef .tc main_arg5)) := by
  after_results_simp
  rfl

set_option maxHeartbeats 4000000 in
/-- The phrase term. -/
theorem pre_v40 (V : Valuation τ sig (Elt Ideal)) :
    after (opsPre (F := Ideal)) V (Proc.devRef .tc main_v40)
      = npc (V (Proc.devRef .tc main_arg0)) (V (Proc.devRef .tc main_arg2)) (V (Proc.devRef .tc main_arg3))
          (V (Proc.devRef .tc main_arg4)) (labels (V (Proc.devRef .tc main_arg5))) := by
  after_results_simp
  rfl

/-! ## The last part: the cross-attention term and the sum -/

set_option maxHeartbeats 4000000 in
/-- The result from the two scalar terms, the labels, the two scalars and the similarity held before the last part. -/
theorem tail_v96 (W : Valuation τ sig (Elt Ideal)) :
    after (opsTail (F := Ideal)) W (Proc.devRef .tc main_v96)
      = total (W (Proc.devRef .tc main_v20)) (W (Proc.devRef .tc main_v40)) (W (Proc.devRef .tc main_v28))
          (W (Proc.devRef .tc main_arg2)) (W (Proc.devRef .tc main_arg3)) (W (Proc.devRef .tc main_v84)) := by
  after_results_simp
  rfl

/-! ## The whole line -/

/-- The reference's result: the total of the contrastive term, the phrase term and the cross-attention term of
    the reference's similarity. -/
theorem ref_result (V : Valuation τ sig (Elt Ideal)) :
    after (ops (F := Ideal)) V (Proc.devRef .tc main_v96)
      = total
          (contrastive (V (Proc.devRef .tc main_arg0)) (V (Proc.devRef .tc main_arg1)) (V (Proc.devRef .tc main_arg2))
            (V (Proc.devRef .tc main_arg3)))
          (npc (V (Proc.devRef .tc main_arg0)) (V (Proc.devRef .tc main_arg2)) (V (Proc.devRef .tc main_arg3))
            (V (Proc.devRef .tc main_arg4)) (labels (V (Proc.devRef .tc main_arg5))))
          (labels (V (Proc.devRef .tc main_arg5))) (V (Proc.devRef .tc main_arg2)) (V (Proc.devRef .tc main_arg3))
          (Terms.simR (V (Proc.devRef .tc main_arg4)) (V (Proc.devRef .tc main_arg6))) := by
  have h : after (ops (F := Ideal)) V = after opsTail (after opsMid (after opsPre V)) := by
    show after ((opsPre ++ opsMid) ++ opsTail) V = _
    rw [StableHlo.after_append, StableHlo.after_append]
  rw [h, tail_v96, mid_v84, mid_keep _ (r := main_v20) (by decide), mid_keep _ (r := main_v40) (by decide),
    mid_keep _ (r := main_v28) (by decide), mid_keep _ (r := main_arg2) (by decide), mid_keep _ (r := main_arg3) (by decide),
    pre_v20, pre_v40, pre_v28, pre_keep _ (r := main_arg2) (by decide), pre_keep _ (r := main_arg3) (by decide),
    pre_keep _ (r := main_arg4) (by decide), pre_keep _ (r := main_arg6) (by decide)]

end Cert.ReferenceIdeal.RefLoss

end
-- ==== Proof.Bridge.lean ====
/-
  The two programs compute one loss.

  The kernel program's similarity array and the reference's are the same array: at image `b` and phrase `n` both
  read the specification's cosine similarity of the phrase row with its softmax-weighted context over image `b`'s
  tokens.  Everything else in the two losses is the same function of the same arguments.
-/
import proofs.«134603_j83648783057700_1_alg».proof.Proof.KerSim
import proofs.«134603_j83648783057700_1_alg».proof.Proof.KerRun
import proofs.«134603_j83648783057700_1_alg».proof.Proof.RefSim
import proofs.«134603_j83648783057700_1_alg».proof.Proof.RefLoss

noncomputable section

namespace Cert.Bridge

open Idealize.ShloMosaic Idealize.ShloMosaic.ValueIdx
open Cert.KernelIdeal Cert.KernelIdeal.Gen Cert.KernelIdeal.HostTerms

/-- The kernel program's similarity array is the reference's. -/
theorem sim_eq (A4 : FVec Ideal S1024x768 .f32) (A6 : FVec Ideal S128x577x768 .f32) :
    SimArray.simArr (F := Ideal) (truncf .bf16 A6 bitsLt_bf16_f32) (truncf .bf16 A4 bitsLt_bf16_f32)
        (transpose S768x1024 [1, 0] A4 transposes_S1024x768_S768x1024_1_0)
        (broadcastInDim S1x1024 ![1] bcast_S1024_S1x1024_1
          (Host.sqrt (F := Ideal)
            (Host.reduceAdd (F := Ideal) (mulf A4 A4) (constant (F := Ideal) S_ .f32 0x00000000#32) reducesTo_S1024x768_S1024_d1 h_S_)))
      = Cert.ReferenceIdeal.Terms.simR A4 A6 := by
  funext i
  obtain ⟨b, n, rfl⟩ : ∃ (b : Fin 128) (n : Fin 1024), i = ix2 b n := ⟨i 0, i 1, eq_ix2 i⟩
  exact (SimArray.simArr_apply A4 A6 b n).trans (Cert.ReferenceIdeal.RefSim.simR_apply A4 A6 b n).symm

/-- The kernel program's loss is the reference's. -/
theorem loss_eq (A0 A1 : FVec Ideal S128x768 .f32) (A2 A3 : FVec Ideal S_ .f32) (A4 : FVec Ideal S1024x768 .f32)
    (A5 : (⟨S1024, .i32⟩ : BufTy).Contents (Elt Ideal)) (A6 : FVec Ideal S128x577x768 .f32) :
    RunValue.lossK A0 A1 A2 A3 A4 A5 A6
      = total (contrastive A0 A1 A2 A3) (npc A0 A2 A3 A4 (labels A5)) (labels A5) A2 A3 (Cert.ReferenceIdeal.Terms.simR A4 A6) := by
  unfold RunValue.lossK
  rw [sim_eq]

end Cert.Bridge

end
-- ==== Proof.lean ====
/-
  The certificate: the kernel program, its idealization and the idealized reference each run to the end without a
  fault and leave their arguments as they were; the idealization rewrote nothing; and at the ideal values the
  kernel program and the reference end with the same loss.

  The loss is the sum of three terms.  The image-text contrastive term and the phrase term are computed by the
  same host operations in both programs.  The cross-attention term is a function of a similarity array
  [128, 1024], which the kernel program computes image block by image block on the device and the reference by
  whole-array host operations; at every image and phrase both read the cosine similarity of the phrase's row with
  its softmax-weighted context over the image's tokens, so the two arrays are equal and so are the losses.  Only
  commutativity and associativity of addition and multiplication on the extended reals are used: the finiteness
  of the inputs is never needed.
-/
import proofs.«134603_j83648783057700_1_alg».proof.Defs
import proofs.«134603_j83648783057700_1_alg».proof.Proof.Gen.Kernel
import proofs.«134603_j83648783057700_1_alg».proof.Proof.Gen.Kernel.Frame
import proofs.«134603_j83648783057700_1_alg».proof.Proof.Gen.KernelIdeal
import proofs.«134603_j83648783057700_1_alg».proof.Proof.Gen.KernelIdeal.Frame
import proofs.«134603_j83648783057700_1_alg».proof.Proof.Gen.ReferenceIdeal
import proofs.«134603_j83648783057700_1_alg».proof.Proof.Gen.Pre_finite_inputs
import proofs.«134603_j83648783057700_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end with the loss of the argument arrays, which agree. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefLoss.ref_result]
  obtain ⟨e0, e1, e2, e3, e4, e5, e6⟩ := hagree c
  refine Eq.trans ?_ (Cert.Bridge.loss_eq _ _ _ _ _ _ _).symm
  show Cert.KernelIdeal.HostTerms.total
      (Cert.KernelIdeal.HostTerms.contrastive (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
      (Cert.KernelIdeal.HostTerms.npc (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
        (Cert.KernelIdeal.HostTerms.labels (m' ((c.tc : Thread Cert.ReferenceIdeal.nD Cert.ReferenceIdeal.τ).loc Cert.ReferenceIdeal.main_arg5))))
      (Cert.KernelIdeal.HostTerms.labels (m' ((c.tc : Thread Cert.ReferenceIdeal.nD Cert.ReferenceIdeal.τ).loc Cert.ReferenceIdeal.main_arg5)))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (Cert.ReferenceIdeal.Terms.simR (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg6))) = _
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
